-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_cst_3)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_cst_3) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_cst_7) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S1024x2048 : Shape := ⟨2, ![1024, 2048]⟩
abbrev S2048x4096 : Shape := ⟨2, ![2048, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn {F : FTy → Type} [FloatOps F] (main_arg0 : FVec F S1024x4096 .f32) (main_arg1 : FVec F S1024x2048 .f32) (main_arg2 : FVec F S2048x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  main_v13
-- ==== Kernel.lean ====
abbrev S1024x4096 : Shape := ⟨2, ![1024, 4096]⟩
abbrev S1024x2048 : Shape := ⟨2, ![1024, 2048]⟩
abbrev S2048x4096 : Shape := ⟨2, ![2048, 4096]⟩
abbrev S1024x512 : Shape := ⟨2, ![1024, 512]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1024x1 : Shape := ⟨2, ![1024, 1]⟩

abbrev nBuf : Space → Nat
  | .hbm => 18
  | .vmem => 20
  | .smem => 0
  | _ => 0

abbrev bufTy : (tb : Table) → Fin (tcTables nBuf tb) → BufTy
  | .hbm, ⟨0, _⟩ => ⟨S1024x4096, .f32⟩
  | .hbm, ⟨1, _⟩ => ⟨S1024x2048, .f32⟩
  | .hbm, ⟨2, _⟩ => ⟨S2048x4096, .f32⟩
  | .hbm, ⟨3, _⟩ => ⟨S1024x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048x1, .f32⟩
  | .hbm, ⟨10, _⟩ => ⟨S1024x2048, .bf16⟩
  | .hbm, ⟨11, _⟩ => ⟨S1024x2048, .f32⟩
  | .hbm, ⟨12, _⟩ => ⟨S1024x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x1, .f32⟩
  | .local _ .vmem, ⟨16, _⟩ => ⟨S1024x1, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_15 : BitVec 32 := 0#32
  let v27 : BitVec 1 := Scalar.cmpi .ne v26 c0_i32_15
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  reducesTo_S1024x2048_S2048_d0 : S1024x2048.ReducesTo [0] S2048
  h_S_ : 0 < S_.numel
  bcast_S_S2048 : S_.BroadcastsInDim S2048 (![] : Fin 0 → Fin S2048.rank)
  shapeCasts_S2048_S2048x1 : S2048.ShapeCasts S2048x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  reducesTo_S1024x2048_S_d0_1 : S1024x2048.ReducesTo [0, 1] S_
  dot_S1024x512_S1024x512_S1024x1024_1_1_0_0_n_n_wf : DotDims.WF S1024x512 S1024x512 S1024x1024 [1] [1] [0] [0] [] []
  dot_S1024x1024_S1024x512_S1024x512_0_0_1_1_n_n_wf : DotDims.WF S1024x1024 S1024x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x4096.size a
  hwx0_0 : ∀ i : grid0.Coords, EltTy.bits .f32 = 32 ∨ (Rect.block (s := S1024x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x4096.size a
  hwx0_1 : ∀ i : grid0.Coords, EltTy.bits .f32 = 32 ∨ (Rect.block (s := S2048x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x2048.size a
  hwx0_2 : ∀ i : grid0.Coords, EltTy.bits .f32 = 32 ∨ (Rect.block (s := S1024x2048) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x2048.size a
  hwx0_3 : ∀ i : grid0.Coords, EltTy.bits .f32 = 32 ∨ (Rect.block (s := S1024x2048) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x2048.size a
  hwx1_0 : ∀ i : grid1.Coords, EltTy.bits .bf16 = 32 ∨ (Rect.block (s := S1024x2048) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x4096.size a
  hwx1_1 : ∀ i : grid1.Coords, EltTy.bits .f32 = 32 ∨ (Rect.block (s := S1024x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S2048x4096.size a
  hwx1_2 : ∀ i : grid1.Coords, EltTy.bits .f32 = 32 ∨ (Rect.block (s := S2048x4096) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S2048x1.size a
  hwx1_3 : ∀ i : grid1.Coords, EltTy.bits .f32 = 32 ∨ (Rect.block (s := S2048x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x2048.size a
  hwx1_4 : ∀ i : grid1.Coords, EltTy.bits .f32 = 32 ∨ (Rect.block (s := S1024x2048) S1024x1024.size (cc1_transform_4 i) (hinb1_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x4096 : Shape := ⟨2, ![1024, 4096]⟩
abbrev S1024x2048 : Shape := ⟨2, ![1024, 2048]⟩
abbrev S2048x4096 : Shape := ⟨2, ![2048, 4096]⟩
abbrev S4096x2048 : Shape := ⟨2, ![4096, 2048]⟩
abbrev S_ : Shape := ⟨0, ![]⟩
abbrev S2048 : Shape := ⟨1, ![2048]⟩
abbrev S2048x1 : Shape := ⟨2, ![2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x2048, .f32⟩
  | .hbm, ⟨2, _⟩ => ⟨S2048x4096, .f32⟩
  | .hbm, ⟨3, _⟩ => ⟨S4096x2048, .f32⟩
  | .hbm, ⟨4, _⟩ => ⟨S1024x2048, .f32⟩
  | .hbm, ⟨5, _⟩ => ⟨S1024x2048, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048x1, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S4096x2048, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩

abbrev nD : Nat := 1
abbrev τ : Topo := Topo.v7x

variable {F : FTy → Type} [FloatOps F]

class Facts₀ : Prop where
  transposes_S2048x4096_S4096x2048_1_0 : S2048x4096.Transposes [1, 0] S4096x2048
  bcast_S_S2048x4096 : S_.BroadcastsInDim S2048x4096 (![] : Fin 0 → Fin S2048x4096.rank)
  reducesTo_S1024x2048_S2048_d0 : S1024x2048.ReducesTo [0] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x4096_0_1 : S2048x1.BroadcastsInDim S2048x4096 (![0, 1] : Fin 2 → Fin S2048x4096.rank)
  reducesTo_S1024x2048_S_d0_1 : S1024x2048.ReducesTo [0, 1] S_
  dot_S1024x4096_S4096x2048_S1024x2048_1_0_0_1_n_n_wf : DotDims.WF S1024x4096 S4096x2048 S1024x2048 [1] [0] [0] [1] [] []
  dot_S1024x2048_S1024x4096_S2048x4096_0_0_1_1_n_n_wf : DotDims.WF S1024x2048 S1024x4096 S2048x4096 [0] [0] [1] [1] [] []

variable [Facts₀]

def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf
def dot_S1024x2048_S1024x4096_S2048x4096_0_0_1_1_n_n : DotDims S1024x2048 S1024x4096 S2048x4096 where
  lhsContracting := [0]
  rhsContracting := [0]
  lhsNonContracting := [1]
  rhsNonContracting := [1]
  lhsBatch := []
  rhsBatch := []
  wf := dot_S1024x2048_S1024x4096_S2048x4096_0_0_1_1_n_n_wf

class Facts : Prop extends Facts₀ where

variable [Facts]
-- ==== Proof.R0Conds.lean ====
/-
  The first matrix product, `X · Wᵀ + D`, accumulated over eight column blocks of the contracted axis.
  Its grid has sixteen points `t = 8·j + k`: `j` picks a block of 1024 output columns, `k` a block of 512
  contracted columns. The body clears the accumulator where `k = 0`, adds the block product at every point, and
  writes accumulator plus bias into the output block where `k = 7`.
  This module states the two conditions of the body in closed form over the grid, where the output block is
  stored and written back, the memory the body is called with, and the part of the core's memory that the
  region's invariant holds.
-/
import proofs.«142751_j87144886436114_2_alg».proof.Proof.Gen.KernelIdeal.Launch
import proofs.«142751_j87144886436114_2_alg».proof.Proof.Gen.KernelIdeal.Skeleton
import proofs.«142751_j87144886436114_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays the region is entered with, and the blocks of its windows -/

variable (V : (c : Dev nD) → (b : Ref sig .tc) → Buf (Elt F) ((c : Thread nD τ).loc b))

/-- The block of window `w` at point `t`: the window's array as the region finds it, read through the block. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not: where it is not fetched the
    block index has not moved since the point before. One statement per input window. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The accumulator is cleared: the contracted block is the first, `k = 0`. -/
abbrev isFirst (i : grid0.Coords) : Prop := (Scalar.cmpi .ne (Scalar.extui (Scalar.cmpi .eq (BitVec.ofNat 32 (i 2).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The output block is stored: the contracted block is the last, `k = 7`. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are live -/

theorem live_0 : ∀ i, cfg0.idle 0 i = false := fun _ => rfl
theorem live_1 : ∀ i, cfg0.idle 1 i = false := fun _ => rfl
theorem live_2 : ∀ i, cfg0.idle 2 i = false := fun _ => rfl
/-- The output window is idle exactly where the body does not store into it, -/
theorem idle_3 : ∀ t : Fin cfg0.N, ¬isLast (grid0.coords t) → cfg0.idle 3 (grid0.coords t) = true := by decide +kernel
theorem live_3 : ∀ t : Fin cfg0.N, isLast (grid0.coords t) → cfg0.idle 3 (grid0.coords t) = false := by decide +kernel
/-- and there it is not written back either. -/
theorem noFlush_3 : ∀ t : Fin cfg0.N, ¬isLast (grid0.coords t) → (cfg0.win 3).flush t = false := by decide +kernel

/-! ## The memory the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The accumulator: a whole buffer of the kernel's own, passed beside the windows. -/
abbrev acc : Memref sig .tc .vmem S1024x1024 .f32 := Memref.whole cc0_scratch0
/-- Views through which the accumulator's and the output block's contents are stated. -/
abbrev VA : View sig .tc .vmem S1024x1024 .f32 := acc.view
abbrev VO : View sig .tc .vmem S1024x1024 .f32 := (Memref.whole cc0_stg3_0 : Memref sig .tc .vmem S1024x1024 .f32).view

/-- Every buffer of the core that is no staging buffer of this region, each held at some contents — the accumulator
    first, then the eleven buffers of the other region — beside the generator register. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the region holds besides its windows, with the accumulator as a memref owned at some contents. -/
theorem PhiA_eq (c : Dev nD) :
    (Pipeline.ΦA spec0 c : sProp 𝕄)
      = iprop(iprop((∃ d, owns (c : Thread nD τ) acc fullShare d) ∗ others c) ∗ (∃ r, prngReg c r)) := by
  unfold Pipeline.ΦA others; rw [scopedRest0_eq]; simp only [acc, owns_whole]; try rfl

end Cert.KernelIdeal.R0

end
-- ==== Proof.R0RunFirst.lean ====
/-
  The body of the first matrix product at a point where the contracted block is the FIRST (and not the last): from the three input blocks held whole, the output block at anything (handed back untouched) and the accumulator at anything, it runs to its end leaving the accumulator with the stores of this point written: the clearing store, then the store of zero plus the block product.
-/
import proofs.«142751_j87144886436114_2_alg».proof.Proof.R0Conds

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hF : isFirst i) (hL : ¬isLast i)
    (x0 : Vec F S1024x512 .f32) (x1 : Vec F S1024x512 .f32) (x2 : Vec F S1024x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R0

end
-- ==== Proof.R0RunMid.lean ====
/-
  The body of the first matrix product at a point where the contracted block is neither the first nor the last: the accumulator is found at what the point before left (\`xs\`) and left with the store of \`xs\` plus the block product written.
-/
import proofs.«142751_j87144886436114_2_alg».proof.Proof.R0RunFirst

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hF : ¬isFirst i) (hL : ¬isLast i)
    (x0 : Vec F S1024x512 .f32) (x1 : Vec F S1024x512 .f32) (x2 : Vec F S1024x1024 .f32) (xs : Vec F S1024x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R0

end
-- ==== Proof.R0RunLast.lean ====
/-
  The body of the first matrix product at a point where the contracted block is the LAST (and not the first): the accumulator is found at what the point before left, gets the last block product added, and the output block is stored whole at accumulator plus bias.
-/
import proofs.«142751_j87144886436114_2_alg».proof.Proof.R0RunMid

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hF : ¬isFirst i) (hL : isLast i)
    (x0 : Vec F S1024x512 .f32) (x1 : Vec F S1024x512 .f32) (x2 : Vec F S1024x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.KernelIdeal.R0

end
-- ==== Proof.R0Body.lean ====
/-
  The first matrix product, point by point. What the accumulator and the output block hold after each of the
  sixteen points is a recursion on the point: a point whose contracted block is the first starts from the cleared
  accumulator, every other point from what the point before left; only a point whose contracted block is the
  last stores the output block. Over that recursion: the region's invariant (the accumulator at the recursion's
  value), its proof data, and the obligation that the body, called at any point, takes the invariant before the
  point to the invariant after it.
-/
import proofs.«142751_j87144886436114_2_alg».proof.Proof.R0RunLast

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, as values -/

/-- Where the output block is not stored: a placeholder nothing consults (the window is idle and not written back there). -/
def outIdle : Vec F S1024x1024 .f32 := VO.read (Elt F) (VO.writes (Elt F) VO.junk [])

section cases
variable (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

/-- The accumulator after a point whose contracted block is the first. -/
def accFirst (hF : isFirst i) (hL : ¬isLast i) (x0 x1 : Vec F S1024x512 .f32) (x2 : Vec F S1024x1024 .f32) : Vec F S1024x1024 .f32 :=
  VA.read (Elt F) (VA.writes (Elt F) VA.junk (runFirst c i arg3 harg3 arg4 harg4 arg5 harg5 arg6 harg6 arg7 harg7 hF hL x0 x1 x2).1)
theorem accFirst_cover (hF : isFirst i) (hL : ¬isLast i) (x0 x1 : Vec F S1024x512 .f32) (x2 : Vec F S1024x1024 .f32) (y : S1024x1024.Idx) :
    ∃ pc ∈ (runFirst c i arg3 harg3 arg4 harg4 arg5 harg5 arg6 harg6 arg7 harg7 hF hL x0 x1 x2).1, y ∈ pc.1.set :=
  View.cover_of_tiledL _ S1024x1024.size (by sl_kernel_rfl) y

/-- The accumulator after a point whose contracted block is neither first nor last, from what the point before left. -/
def accMid (hF : ¬isFirst i) (hL : ¬isLast i) (x0 x1 : Vec F S1024x512 .f32) (x2 xs : Vec F S1024x1024 .f32) : Vec F S1024x1024 .f32 :=
  VA.read (Elt F) (VA.writes (Elt F) VA.junk (runMid c i arg3 harg3 arg4 harg4 arg5 harg5 arg6 harg6 arg7 harg7 hF hL x0 x1 x2 xs).1)
theorem accMid_cover (hF : ¬isFirst i) (hL : ¬isLast i) (x0 x1 : Vec F S1024x512 .f32) (x2 xs : Vec F S1024x1024 .f32) (y : S1024x1024.Idx) :
    ∃ pc ∈ (runMid c i arg3 harg3 arg4 harg4 arg5 harg5 arg6 harg6 arg7 harg7 hF hL x0 x1 x2 xs).1, y ∈ pc.1.set :=
  View.cover_of_tiledL _ S1024x1024.size (by sl_kernel_rfl) y

/-- The accumulator and the output block after a point whose contracted block is the last. -/
def accLast (hF : ¬isFirst i) (hL : isLast i) (x0 x1 : Vec F S1024x512 .f32) (x2 xs : Vec F S1024x1024 .f32) : Vec F S1024x1024 .f32 :=
  VA.read (Elt F) (VA.writes (Elt F) VA.junk (runLast c i arg3 harg3 arg4 harg4 arg5 harg5 arg6 harg6 arg7 harg7 hF hL x0 x1 x2 xs).2.1)
theorem accLast_cover (hF : ¬isFirst i) (hL : isLast i) (x0 x1 : Vec F S1024x512 .f32) (x2 xs : Vec F S1024x1024 .f32) (y : S1024x1024.Idx) :
    ∃ pc ∈ (runLast c i arg3 harg3 arg4 harg4 arg5 harg5 arg6 harg6 arg7 harg7 hF hL x0 x1 x2 xs).2.1, y ∈ pc.1.set :=
  View.cover_of_tiledL _ S1024x1024.size (by sl_kernel_rfl) y
def outLast (hF : ¬isFirst i) (hL : isLast i) (x0 x1 : Vec F S1024x512 .f32) (x2 xs : Vec F S1024x1024 .f32) : Vec F S1024x1024 .f32 :=
  VO.read (Elt F) (VO.writes (Elt F) VO.junk (runLast c i arg3 harg3 arg4 harg4 arg5 harg5 arg6 harg6 arg7 harg7 hF hL x0 x1 x2 xs).1)
theorem outLast_cover (hF : ¬isFirst i) (hL : isLast i) (x0 x1 : Vec F S1024x512 .f32) (x2 xs : Vec F S1024x1024 .f32) (y : S1024x1024.Idx) :
    ∃ pc ∈ (runLast c i arg3 harg3 arg4 harg4 arg5 harg5 arg6 harg6 arg7 harg7 hF hL x0 x1 x2 xs).1, y ∈ pc.1.set :=
  View.cover_of_tiledL _ S1024x1024.size (by sl_kernel_rfl) y

end cases

/-! ## Point by point -/

theorem not_last_of_first {n : ℕ} (h : n % 8 = 0) : ¬ n % 8 = 7 := by omega

/-- The pair (output block, accumulator) after point `n`. -/
def outsAt (c : Dev nD) : (n : ℕ) → n < cfg0.N → Vec F S1024x1024 .f32 × Vec F S1024x1024 .f32
  | 0, hn =>
      let t : Fin cfg0.N := ⟨0, hn⟩
      (outIdle, accFirst c (grid0.coords t) (ms0 t) (hs0 t) (ms1 t) (hs1 t) (ms2 t) (hs2 t) (ms3 t) (hs3 t) acc (Memref.isWhole_whole _) ((isFirst_iff t).mpr rfl) (fun h => not_last_of_first (n := 0) rfl ((isLast_iff t).mp h)) (iblk V c 0 t) (iblk V c 1 t) (iblk V c 2 t))
  | n + 1, hn =>
      let t : Fin cfg0.N := ⟨n + 1, hn⟩
      if h0 : (n + 1) % 8 = 0 then
        (outIdle, accFirst c (grid0.coords t) (ms0 t) (hs0 t) (ms1 t) (hs1 t) (ms2 t) (hs2 t) (ms3 t) (hs3 t) acc (Memref.isWhole_whole _) ((isFirst_iff t).mpr h0) (fun h => not_last_of_first h0 ((isLast_iff t).mp h)) (iblk V c 0 t) (iblk V c 1 t) (iblk V c 2 t))
      else if h7 : (n + 1) % 8 = 7 then
        (outLast c (grid0.coords t) (ms0 t) (hs0 t) (ms1 t) (hs1 t) (ms2 t) (hs2 t) (ms3 t) (hs3 t) acc (Memref.isWhole_whole _) (fun h => h0 ((isFirst_iff t).mp h)) ((isLast_iff t).mpr h7) (iblk V c 0 t) (iblk V c 1 t) (iblk V c 2 t) (outsAt c n (Nat.lt_of_succ_lt hn)).2,
         accLast c (grid0.coords t) (ms0 t) (hs0 t) (ms1 t) (hs1 t) (ms2 t) (hs2 t) (ms3 t) (hs3 t) acc (Memref.isWhole_whole _) (fun h => h0 ((isFirst_iff t).mp h)) ((isLast_iff t).mpr h7) (iblk V c 0 t) (iblk V c 1 t) (iblk V c 2 t) (outsAt c n (Nat.lt_of_succ_lt hn)).2)
      else
        (outIdle, accMid c (grid0.coords t) (ms0 t) (hs0 t) (ms1 t) (hs1 t) (ms2 t) (hs2 t) (ms3 t) (hs3 t) acc (Memref.isWhole_whole _) (fun h => h0 ((isFirst_iff t).mp h)) (fun h => h7 ((isLast_iff t).mp h)) (iblk V c 0 t) (iblk V c 1 t) (iblk V c 2 t) (outsAt c n (Nat.lt_of_succ_lt hn)).2)

theorem outsAt_first (c : Dev nD) (t : Fin cfg0.N) (h0 : t.val % 8 = 0) :
    outsAt V c t.val t.isLt = (outIdle, accFirst c (grid0.coords t) (ms0 t) (hs0 t) (ms1 t) (hs1 t) (ms2 t) (hs2 t) (ms3 t) (hs3 t) acc (Memref.isWhole_whole _) ((isFirst_iff t).mpr h0) (fun h => not_last_of_first h0 ((isLast_iff t).mp h)) (iblk V c 0 t) (iblk V c 1 t) (iblk V c 2 t)) := by
  obtain ⟨n, hn⟩ := t
  cases n with
  | zero => rfl
  | succ n => exact dif_pos h0

theorem outsAt_last (c : Dev nD) (t : Fin cfg0.N) (h0 : ¬t.val % 8 = 0) (h7 : t.val % 8 = 7) :
    outsAt V c t.val t.isLt = (outLast c (grid0.coords t) (ms0 t) (hs0 t) (ms1 t) (hs1 t) (ms2 t) (hs2 t) (ms3 t) (hs3 t) acc (Memref.isWhole_whole _) (fun h => h0 ((isFirst_iff t).mp h)) ((isLast_iff t).mpr h7) (iblk V c 0 t) (iblk V c 1 t) (iblk V c 2 t) (outsAt V c (t.val - 1) (Nat.lt_of_le_of_lt (Nat.sub_le _ _) t.isLt)).2,
      accLast c (grid0.coords t) (ms0 t) (hs0 t) (ms1 t) (hs1 t) (ms2 t) (hs2 t) (ms3 t) (hs3 t) acc (Memref.isWhole_whole _) (fun h => h0 ((isFirst_iff t).mp h)) ((isLast_iff t).mpr h7) (iblk V c 0 t) (iblk V c 1 t) (iblk V c 2 t) (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

theorem outsAt_mid (c : Dev nD) (t : Fin cfg0.N) (h0 : ¬t.val % 8 = 0) (h7 : ¬t.val % 8 = 7) :
    outsAt V c t.val t.isLt = (outIdle, accMid c (grid0.coords t) (ms0 t) (hs0 t) (ms1 t) (hs1 t) (ms2 t) (hs2 t) (ms3 t) (hs3 t) acc (Memref.isWhole_whole _) (fun h => h0 ((isFirst_iff t).mp h)) (fun h => h7 ((isLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

/-! ## The invariant -/

/-- Before the first point: every buffer that is no staging buffer of this region at anything. After point `n`: the
    accumulator at what that point left, the other such buffers at anything; the generator register at some state throughout. -/
def PhiS (c : Dev nD) : (n : ℕ) → n ≤ cfg0.N → sProp 𝕄
  | 0, _ => Pipeline.ΦA spec0 c
  | n + 1, hn => iprop(iprop(owns (c : Thread nD τ) acc fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) acc fullShare ((outsAt V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) acc fullShare ((outsAt V c (n - 1) (by omega)).2) ∗ others c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = (outsAt V c t.val t.isLt).1 := by dsimp only [dat0]
theorem before_0 (c : Dev nD) (t : Fin cfg0.N) (d) : (dat0 V c).before 0 t d = iblk V c 0 t := before_0_of V (dat0 V c) (A_eq0 V c 0) (after_0 V c) t d
theorem before_1 (c : Dev nD) (t : Fin cfg0.N) (d) : (dat0 V c).before 1 t d = iblk V c 1 t := before_1_of V (dat0 V c) (A_eq0 V c 1) (after_1 V c) t d
theorem before_2 (c : Dev nD) (t : Fin cfg0.N) (d) : (dat0 V c).before 2 t d = iblk V c 2 t := before_2_of V (dat0 V c) (A_eq0 V c 2) (after_2 V c) t d

end Cert.KernelIdeal.R0

end
-- ==== Proof.R0Oblig.lean ====
/-
  The body obligation of the first matrix product: called at any of the sixteen points with the invariant before
  the point and the windows' buffers at their blocks, the body runs to its end and leaves the invariant after
  the point — the accumulator at this point's value of the recursion — and each window's buffer at what the
  proof data says. By cases on the contracted block (first, last, neither) and on whether the point is the very
  first (where the accumulator is found at anything).
-/
import proofs.«142751_j87144886436114_2_alg».proof.Proof.R0Body

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_0 (grid0.coords t)], after_0]
  rw [show (dat0 V c).leavesExact 1 t = owns (c : Thread nD τ) (ms1 t) fullShare ((dat0 V c).after 1 t) from by
    unfold Dat.leavesExact; rw [live_1 (grid0.coords t)], after_1]
  rw [show (dat0 V c).leavesExact 2 t = owns (c : Thread nD τ) (ms2 t) fullShare ((dat0 V c).after 2 t) from by
    unfold Dat.leavesExact; rw [live_2 (grid0.coords t)], after_2]
  have hN : t.val < 16 := lt_of_lt_of_eq t.isLt (show cfg0.N = 16 from N_0)
  by_cases h0 : t.val % 8 = 0
  · have h7 : ¬t.val % 8 = 7 := not_last_of_first h0
    rw [Dat.leavesExact_idle (dat0 V c) 3 t (idle_3 t (fun h => h7 ((isLast_iff t).mp h))) (noFlush_3 t (fun h => h7 ((isLast_iff t).mp h)))]
    rw [outsAt_first V c t h0]
    unfold accFirst; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h7 ((isLast_iff t).mp h)) (iblk V c 0 t) (iblk V c 1 t) (iblk V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h7 ((isLast_iff t).mp h)) (iblk V c 0 t) (iblk V c 1 t) (iblk V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (dat0 V c).leavesExact 3 t = owns (c : Thread nD τ) (ms3 t) fullShare ((dat0 V c).after 3 t) from by
        unfold Dat.leavesExact; rw [live_3 t ((isLast_iff t).mpr h7)], after_3]
      rw [outsAt_last V c t h0 h7]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · rw [Dat.leavesExact_idle (dat0 V c) 3 t (idle_3 t (fun h => h7 ((isLast_iff t).mp h))) (noFlush_3 t (fun h => h7 ((isLast_iff t).mp h)))]
      rw [outsAt_mid V c t h0 h7]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h7 ((isLast_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMid_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but none the invariant gives the entry form back: the accumulator's value is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.KernelIdeal.R0

end
-- ==== Proof.R1Conds.lean ====
/-
  The second matrix product, accumulated over eight row blocks of the contracted axis.
  Its grid has sixteen points `t = 8·j + k`: `j` picks a block of 1024 output columns, `k` a block of 512
  contracted columns. The body clears the accumulator where `k = 0`, adds the block product at every point, and
  copies the accumulator into the output block where `k = 7`.
  This module states the two conditions of the body in closed form over the grid, where the output block is
  stored and written back, the memory the body is called with, and the part of the core's memory that the
  region's invariant holds.
-/
import proofs.«142751_j87144886436114_2_alg».proof.Proof.Gen.KernelIdeal.Launch
import proofs.«142751_j87144886436114_2_alg».proof.Proof.Gen.KernelIdeal.Skeleton
import proofs.«142751_j87144886436114_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays the region is entered with, and the blocks of its windows -/

variable (V : (c : Dev nD) → (b : Ref sig .tc) → Buf (Elt F) ((c : Thread nD τ).loc b))

/-- The block of window `w` at point `t`: the window's array as the region finds it, read through the block. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: where it is not fetched the
    block index has not moved since the point before. One statement per input window. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The accumulator is cleared: the contracted block is the first, `k = 0`. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- The output block is stored: the contracted block is the last, `k = 7`. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are live -/

theorem live_0 : ∀ i, cfg1.idle 0 i = false := fun _ => rfl
theorem live_1 : ∀ i, cfg1.idle 1 i = false := fun _ => rfl
theorem live_2 : ∀ i, cfg1.idle 2 i = false := fun _ => rfl
theorem live_3 : ∀ i, cfg1.idle 3 i = false := fun _ => rfl
/-- The output window is idle exactly where the body does not store into it, -/
theorem idle_4 : ∀ t : Fin cfg1.N, ¬isLast (grid1.coords t) → cfg1.idle 4 (grid1.coords t) = true := by decide +kernel
theorem live_4 : ∀ t : Fin cfg1.N, isLast (grid1.coords t) → cfg1.idle 4 (grid1.coords t) = false := by decide +kernel
/-- and there it is not written back either. -/
theorem noFlush_4 : ∀ t : Fin cfg1.N, ¬isLast (grid1.coords t) → (cfg1.win 4).flush t = false := by decide +kernel

/-! ## The memory the body is called with -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1024 .f32 := win1_4.stage (cfg1.slots t 4)
abbrev hs4 (t : Fin cfg1.N) : (ms4 t).IsWhole := hstage1_4 ((cfg1.slots t 4).cast nbuf1_4)
/-- The accumulator: a whole buffer of the kernel's own, passed beside the windows. -/
abbrev acc : Memref sig .tc .vmem S1024x1024 .f32 := Memref.whole cc1_scratch0
/-- Views through which the accumulator's and the output block's contents are stated. -/
abbrev VA : View sig .tc .vmem S1024x1024 .f32 := acc.view
abbrev VO : View sig .tc .vmem S1024x1024 .f32 := (Memref.whole cc1_stg4_0 : Memref sig .tc .vmem S1024x1024 .f32).view

/-- Every buffer of the core that is no staging buffer of this region — the nine buffers of the other region, each
    held at some contents, and last the accumulator, held as `P` says. -/
def rest (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ P)

/-- What the region holds besides its windows, with the accumulator as a memref owned at some contents. -/
theorem PhiA_eq (c : Dev nD) :
    (Pipeline.ΦA spec1 c : sProp 𝕄)
      = iprop(rest c iprop(∃ d, owns (c : Thread nD τ) acc fullShare d) ∗ (∃ r, prngReg c r)) := by
  unfold Pipeline.ΦA rest; rw [scopedRest1_eq]; simp only [acc, owns_whole]; try rfl

end Cert.KernelIdeal.R1

end
-- ==== Proof.R1RunFirst.lean ====
/-
  The body of the second matrix product at a point where the contracted block is the FIRST (and not the last): from the four input blocks held whole, the output block at anything (handed back untouched) and the accumulator at anything, it runs to its end leaving the accumulator with the stores of this point written: the clearing store, then the store of zero plus the block product.
-/
import proofs.«142751_j87144886436114_2_alg».proof.Proof.R1Conds

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (hF : isFirst i) (hL : ¬isLast i)
    (x0 : Vec F S1024x1024 .bf16) (x1 : Vec F S1024x512 .f32) (x2 : Vec F S1024x512 .f32) (x3 : Vec F S1024x1 .f32) :
    { LS : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.R1

end
-- ==== Proof.R1RunMid.lean ====
/-
  The body of the second matrix product at a point where the contracted block is NEITHER the first NOR the last: from the four input blocks held whole, the output block at anything (handed back untouched) and the accumulator at what the point before left, it runs to its end leaving the accumulator with this point's store written: the sum so far plus the block product.
-/
import proofs.«142751_j87144886436114_2_alg».proof.Proof.R1RunFirst

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (hF : ¬isFirst i) (hL : ¬isLast i)
    (x0 : Vec F S1024x1024 .bf16) (x1 : Vec F S1024x512 .f32) (x2 : Vec F S1024x512 .f32) (x3 : Vec F S1024x1 .f32) (xs : Vec F S1024x1024 .f32) :
    { LS : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.R1

end
-- ==== Proof.R1RunLast.lean ====
/-
  The body of the second matrix product at a point where the contracted block is the LAST (and not the first): from the four input blocks held whole, the accumulator at what the point before left and the output block at anything, it runs to its end leaving the accumulator with this point's store written (the sum so far plus the block product) and the output block with the copy of the accumulator written.
-/
import proofs.«142751_j87144886436114_2_alg».proof.Proof.R1RunMid

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (hF : ¬isFirst i) (hL : isLast i)
    (x0 : Vec F S1024x1024 .bf16) (x1 : Vec F S1024x512 .f32) (x2 : Vec F S1024x512 .f32) (x3 : Vec F S1024x1 .f32) (xs : Vec F S1024x1024 .f32) :
    Σ' (L4 : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.KernelIdeal.R1

end
-- ==== Proof.R1Vals.lean ====
/-
  The second matrix product, point by point. What the accumulator and the output block hold after each of the
  sixteen points is a recursion on the point: a point whose contracted block is the first starts from the cleared
  accumulator, every other point from what the point before left; only a point whose contracted block is the
  last stores the output block. Over that recursion: the region's invariant (the accumulator at the recursion's
  value) and its proof data.
-/
import proofs.«142751_j87144886436114_2_alg».proof.Proof.R1RunLast

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, as values -/

/-- Where the output block is not stored: a placeholder nothing reads (there the block is neither written back
    nor handed to the next point as stored). -/
def outIdle : Vec F S1024x1024 .f32 := VO.read (Elt F) (VO.writes (Elt F) VO.junk [])

section cases
variable (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole)

/-- The accumulator after a point whose contracted block is the first: its two stores read back. -/
def accFirst (hF : isFirst i) (hL : ¬isLast i) (x0 : Vec F S1024x1024 .bf16) (x1 x2 : Vec F S1024x512 .f32) (x3 : Vec F S1024x1 .f32) : Vec F S1024x1024 .f32 :=
  VA.read (Elt F) (VA.writes (Elt F) VA.junk (runFirst c i arg2 harg2 arg3 harg3 arg4 harg4 arg5 harg5 arg6 harg6 arg7 harg7 hF hL x0 x1 x2 x3).1)
/-- Those stores cover the accumulator: each is a store of the whole block. -/
theorem accFirst_cover (hF : isFirst i) (hL : ¬isLast i) (x0 : Vec F S1024x1024 .bf16) (x1 x2 : Vec F S1024x512 .f32) (x3 : Vec F S1024x1 .f32) (y : S1024x1024.Idx) :
    ∃ pc ∈ (runFirst c i arg2 harg2 arg3 harg3 arg4 harg4 arg5 harg5 arg6 harg6 arg7 harg7 hF hL x0 x1 x2 x3).1, y ∈ pc.1.set :=
  View.cover_of_tiledL _ S1024x1024.size (by sl_kernel_rfl) y

/-- The accumulator after a point whose contracted block is neither first nor last, from what the point before left. -/
def accMid (hF : ¬isFirst i) (hL : ¬isLast i) (x0 : Vec F S1024x1024 .bf16) (x1 x2 : Vec F S1024x512 .f32) (x3 : Vec F S1024x1 .f32) (xs : Vec F S1024x1024 .f32) : Vec F S1024x1024 .f32 :=
  VA.read (Elt F) (VA.writes (Elt F) VA.junk (runMid c i arg2 harg2 arg3 harg3 arg4 harg4 arg5 harg5 arg6 harg6 arg7 harg7 hF hL x0 x1 x2 x3 xs).1)
theorem accMid_cover (hF : ¬isFirst i) (hL : ¬isLast i) (x0 : Vec F S1024x1024 .bf16) (x1 x2 : Vec F S1024x512 .f32) (x3 : Vec F S1024x1 .f32) (xs : Vec F S1024x1024 .f32) (y : S1024x1024.Idx) :
    ∃ pc ∈ (runMid c i arg2 harg2 arg3 harg3 arg4 harg4 arg5 harg5 arg6 harg6 arg7 harg7 hF hL x0 x1 x2 x3 xs).1, y ∈ pc.1.set :=
  View.cover_of_tiledL _ S1024x1024.size (by sl_kernel_rfl) y

/-- The accumulator and the output block after a point whose contracted block is the last. -/
def accLast (hF : ¬isFirst i) (hL : isLast i) (x0 : Vec F S1024x1024 .bf16) (x1 x2 : Vec F S1024x512 .f32) (x3 : Vec F S1024x1 .f32) (xs : Vec F S1024x1024 .f32) : Vec F S1024x1024 .f32 :=
  VA.read (Elt F) (VA.writes (Elt F) VA.junk (runLast c i arg2 harg2 arg3 harg3 arg4 harg4 arg5 harg5 arg6 harg6 arg7 harg7 hF hL x0 x1 x2 x3 xs).2.1)
theorem accLast_cover (hF : ¬isFirst i) (hL : isLast i) (x0 : Vec F S1024x1024 .bf16) (x1 x2 : Vec F S1024x512 .f32) (x3 : Vec F S1024x1 .f32) (xs : Vec F S1024x1024 .f32) (y : S1024x1024.Idx) :
    ∃ pc ∈ (runLast c i arg2 harg2 arg3 harg3 arg4 harg4 arg5 harg5 arg6 harg6 arg7 harg7 hF hL x0 x1 x2 x3 xs).2.1, y ∈ pc.1.set :=
  View.cover_of_tiledL _ S1024x1024.size (by sl_kernel_rfl) y
def outLast (hF : ¬isFirst i) (hL : isLast i) (x0 : Vec F S1024x1024 .bf16) (x1 x2 : Vec F S1024x512 .f32) (x3 : Vec F S1024x1 .f32) (xs : Vec F S1024x1024 .f32) : Vec F S1024x1024 .f32 :=
  VO.read (Elt F) (VO.writes (Elt F) VO.junk (runLast c i arg2 harg2 arg3 harg3 arg4 harg4 arg5 harg5 arg6 harg6 arg7 harg7 hF hL x0 x1 x2 x3 xs).1)
theorem outLast_cover (hF : ¬isFirst i) (hL : isLast i) (x0 : Vec F S1024x1024 .bf16) (x1 x2 : Vec F S1024x512 .f32) (x3 : Vec F S1024x1 .f32) (xs : Vec F S1024x1024 .f32) (y : S1024x1024.Idx) :
    ∃ pc ∈ (runLast c i arg2 harg2 arg3 harg3 arg4 harg4 arg5 harg5 arg6 harg6 arg7 harg7 hF hL x0 x1 x2 x3 xs).1, y ∈ pc.1.set :=
  View.cover_of_tiledL _ S1024x1024.size (by sl_kernel_rfl) y

end cases

/-! ## Point by point -/

theorem not_last_of_first {n : ℕ} (h : n % 8 = 0) : ¬ n % 8 = 7 := by omega

/-- The pair (output block, accumulator) after point `n`: the case the closed forms select at `n`, at the point's
    memory and input blocks; a point that is not a first one takes the accumulator at what the point before left. -/
def outsAt (c : Dev nD) : (n : ℕ) → n < cfg1.N → Vec F S1024x1024 .f32 × Vec F S1024x1024 .f32
  | 0, hn =>
      let t : Fin cfg1.N := ⟨0, hn⟩
      have hF : t.val % 8 = 0 := rfl
      (outIdle, accFirst c (grid1.coords t) (ms0 t) (hs0 t) (ms1 t) (hs1 t) (ms2 t) (hs2 t) (ms3 t) (hs3 t) (ms4 t) (hs4 t) acc (Memref.isWhole_whole _) ((isFirst_iff t).mpr hF) (fun h => not_last_of_first hF ((isLast_iff t).mp h)) (iblk V c 0 t) (iblk V c 1 t) (iblk V c 2 t) (iblk V c 3 t))
  | n + 1, hn =>
      let t : Fin cfg1.N := ⟨n + 1, hn⟩
      if hF : (n + 1) % 8 = 0 then
        (outIdle, accFirst c (grid1.coords t) (ms0 t) (hs0 t) (ms1 t) (hs1 t) (ms2 t) (hs2 t) (ms3 t) (hs3 t) (ms4 t) (hs4 t) acc (Memref.isWhole_whole _) ((isFirst_iff t).mpr hF) (fun h => not_last_of_first hF ((isLast_iff t).mp h)) (iblk V c 0 t) (iblk V c 1 t) (iblk V c 2 t) (iblk V c 3 t))
      else if hL : (n + 1) % 8 = 7 then
        (outLast c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt c n (Nat.lt_of_succ_lt hn)).2,
         accLast c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt c n (Nat.lt_of_succ_lt hn)).2)
      else
        (outIdle, accMid c (grid1.coords t) (ms0 t) (hs0 t) (ms1 t) (hs1 t) (ms2 t) (hs2 t) (ms3 t) (hs3 t) (ms4 t) (hs4 t) acc (Memref.isWhole_whole _) (fun h => hF ((isFirst_iff t).mp h)) (fun h => hL ((isLast_iff t).mp h)) (iblk V c 0 t) (iblk V c 1 t) (iblk V c 2 t) (iblk V c 3 t) (outsAt c n (Nat.lt_of_succ_lt hn)).2)

/-- After a first point: the first case's contents; what the point before left does not enter. -/
theorem outsAt_first (c : Dev nD) (t : Fin cfg1.N) (hF : t.val % 8 = 0) :
    outsAt V c t.val t.isLt = (outIdle, accFirst c (grid1.coords t) (ms0 t) (hs0 t) (ms1 t) (hs1 t) (ms2 t) (hs2 t) (ms3 t) (hs3 t) (ms4 t) (hs4 t) acc (Memref.isWhole_whole _) ((isFirst_iff t).mpr hF) (fun h => not_last_of_first hF ((isLast_iff t).mp h)) (iblk V c 0 t) (iblk V c 1 t) (iblk V c 2 t) (iblk V c 3 t)) := by
  obtain ⟨n, hn⟩ := t
  cases n with
  | zero => rfl
  | succ n => exact dif_pos hF

/-- After a last point: the last case's contents over what the point before left. -/
theorem outsAt_last (c : Dev nD) (t : Fin cfg1.N) (hF : ¬t.val % 8 = 0) (hL : t.val % 8 = 7) :
    outsAt V c t.val t.isLt = (outLast c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt V c (t.val - 1) (Nat.lt_of_le_of_lt (Nat.sub_le _ _) t.isLt)).2,
         accLast c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact absurd (Nat.zero_mod _) hF
  | succ n => exact (dif_neg hF).trans ((dif_pos hL).trans rfl)

/-- After a middle point: the middle case's contents over what the point before left. -/
theorem outsAt_mid (c : Dev nD) (t : Fin cfg1.N) (hF : ¬t.val % 8 = 0) (hL : ¬t.val % 8 = 7) :
    outsAt V c t.val t.isLt = (outIdle, accMid c (grid1.coords t) (ms0 t) (hs0 t) (ms1 t) (hs1 t) (ms2 t) (hs2 t) (ms3 t) (hs3 t) (ms4 t) (hs4 t) acc (Memref.isWhole_whole _) (fun h => hF ((isFirst_iff t).mp h)) (fun h => hL ((isLast_iff t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact absurd (Nat.zero_mod _) hF
  | succ n => exact (dif_neg hF).trans ((dif_neg hL).trans rfl)

/-! ## The invariant -/

/-- Before the first point: every buffer that is no staging buffer of this region at anything. After point `n`: the
    accumulator at what that point left, the other such buffers at anything; the generator register at some state throughout. -/
def PhiS (c : Dev nD) : (n : ℕ) → n ≤ cfg1.N → sProp 𝕄
  | 0, _ => Pipeline.ΦA spec1 c
  | n + 1, hn => iprop(rest c (owns (c : Thread nD τ) acc fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(rest c (owns (c : Thread nD τ) acc fullShare ((outsAt V c n hn).2)) ∗ (∃ r, prngReg c r)) := rfl
theorem PhiS_pos (c : Dev nD) (n : ℕ) (h : n ≤ cfg1.N) (hz : n ≠ 0) :
    PhiS V c n h = iprop(rest c (owns (c : Thread nD τ) acc fullShare ((outsAt V c (n - 1) (by omega)).2)) ∗ (∃ r, prngReg c r)) := by
  cases n with
  | zero => exact absurd rfl hz
  | succ n => rfl

/-! ## The proof data -/

/-- The arrays as the region finds them; after the body at a point each input's buffer at its block and the output's
    at the recursion's first component; the invariant above; full shares; nothing owed. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS_castSucc (c : Dev nD) (t : Fin cfg1.N) : (dat1 V c).Φ t.castSucc = PhiS V c t.val (Nat.le_of_lt t.isLt) := by
  dsimp only [dat1]; simp only [Fin.coe_castSucc]
theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = iblk V c 3 t := by dsimp only [dat1]
theorem after_4 (c : Dev nD) (t : Fin cfg1.N) : (dat1 V c).after 4 t = (outsAt V c t.val t.isLt).1 := by dsimp only [dat1]
theorem before_0 (c : Dev nD) (t : Fin cfg1.N) (d) : (dat1 V c).before 0 t d = iblk V c 0 t := before_0_of V (dat1 V c) (A_eq1 V c 0) (after_0 V c) t d
theorem before_1 (c : Dev nD) (t : Fin cfg1.N) (d) : (dat1 V c).before 1 t d = iblk V c 1 t := before_1_of V (dat1 V c) (A_eq1 V c 1) (after_1 V c) t d
theorem before_2 (c : Dev nD) (t : Fin cfg1.N) (d) : (dat1 V c).before 2 t d = iblk V c 2 t := before_2_of V (dat1 V c) (A_eq1 V c 2) (after_2 V c) t d
theorem before_3 (c : Dev nD) (t : Fin cfg1.N) (d) : (dat1 V c).before 3 t d = iblk V c 3 t := before_3_of V (dat1 V c) (A_eq1 V c 3) (after_3 V c) t d

end Cert.KernelIdeal.R1

end
-- ==== Proof.R1Body.lean ====
/-
  The second matrix product: the obligation that the body, called at any of the sixteen points with the invariant
  before the point and the windows' buffers as the pipeline hands them, runs to its end and gives back the invariant
  after the point and the buffers as the pipeline expects them — by the three cases of the point; and that the
  invariant before the first point is what the region is entered with, and after the last gives that back.
-/
import proofs.«142751_j87144886436114_2_alg».proof.Proof.R1Vals

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`: the invariant, what the core owes, and each window's current buffer. -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d)))

/-- What it gives back. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- At a point whose contracted block is the first: the accumulator is taken at anything (before the very first
    point from what the region is entered with, later from what the point before left, forgotten) and given back at
    the first case's contents; the output block's buffer is handed back untouched. -/
theorem sound_first (c : Dev nD) (t : Fin cfg1.N) (hF : t.val % 8 = 0) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 (grid1.coords t)], after_0]
  rw [show (dat1 V c).leavesExact 1 t = owns (c : Thread nD τ) (ms1 t) fullShare ((dat1 V c).after 1 t) from by
    unfold Dat.leavesExact; rw [live_1 (grid1.coords t)], after_1]
  rw [show (dat1 V c).leavesExact 2 t = owns (c : Thread nD τ) (ms2 t) fullShare ((dat1 V c).after 2 t) from by
    unfold Dat.leavesExact; rw [live_2 (grid1.coords t)], after_2]
  rw [show (dat1 V c).leavesExact 3 t = owns (c : Thread nD τ) (ms3 t) fullShare ((dat1 V c).after 3 t) from by
    unfold Dat.leavesExact; rw [live_3 (grid1.coords t)], after_3]
  have hL : ¬t.val % 8 = 7 := not_last_of_first hF
  rw [Dat.leavesExact_idle (dat1 V c) 4 t (idle_4 t (fun h => hL ((isLast_iff t).mp h))) (noFlush_4 t (fun h => hL ((isLast_iff t).mp h)))]
  rw [outsAt_first V c t hF]
  unfold accFirst; (try dsimp only)
  by_cases hz : t.val = 0
  · rw [PhiS_castSucc V c t, PhiS_zero V c _ _ hz, PhiA_eq]
    unfold rest
    iintro ⟨⟨⟨O1, O2, O3, O4, O5, O6, O7, O8, O9, HS⟩, Hg⟩, Ho, ⟨%d0, H0⟩, ⟨%d1, H1⟩, ⟨%d2, H2⟩, ⟨%d3, H3⟩, ⟨%d4, H4⟩⟩
    iapply ((runFirst c (grid1.coords t) _ _ _ _ _ _ _ _ _ _ _ _ ((isFirst_iff t).mpr hF) (fun h => hL ((isLast_iff t).mp h)) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [O1 O2 O3 O4 O5 O6 O7 O8 O9 HS Hg]
    · isplitl [O1 O2 O3 O4 O5 O6 O7 O8 O9 HS]
      · isplitl [O1]; · iexact O1
        isplitl [O2]; · iexact O2
        isplitl [O3]; · iexact O3
        isplitl [O4]; · iexact O4
        isplitl [O5]; · iexact O5
        isplitl [O6]; · iexact O6
        isplitl [O7]; · iexact O7
        isplitl [O8]; · iexact O8
        isplitl [O9]; · iexact O9
        unfold owns; iexists _; isplitr
        swap; · iexact HS
        ipureintro; exact View.read_writes_of_cover _ _ _ _ _ (accFirst_cover c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · rw [PhiS_castSucc V c t, PhiS_pos V c _ _ hz]
    unfold rest
    iintro ⟨⟨⟨O1, O2, O3, O4, O5, O6, O7, O8, O9, HS⟩, Hg⟩, Ho, ⟨%d0, H0⟩, ⟨%d1, H1⟩, ⟨%d2, H2⟩, ⟨%d3, H3⟩, ⟨%d4, H4⟩⟩
    iapply ((runFirst c (grid1.coords t) _ _ _ _ _ _ _ _ _ _ _ _ ((isFirst_iff t).mpr hF) (fun h => hL ((isLast_iff t).mp h)) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, H4, ⟨%es, HS⟩⟩
    isplitl [O1 O2 O3 O4 O5 O6 O7 O8 O9 HS Hg]
    · isplitl [O1 O2 O3 O4 O5 O6 O7 O8 O9 HS]
      · isplitl [O1]; · iexact O1
        isplitl [O2]; · iexact O2
        isplitl [O3]; · iexact O3
        isplitl [O4]; · iexact O4
        isplitl [O5]; · iexact O5
        isplitl [O6]; · iexact O6
        isplitl [O7]; · iexact O7
        isplitl [O8]; · iexact O8
        isplitl [O9]; · iexact O9
        unfold owns; iexists _; isplitr
        swap; · iexact HS
        ipureintro; exact View.read_writes_of_cover _ _ _ _ _ (accFirst_cover c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4

set_option maxHeartbeats 4800000 in
/-- At a point whose contracted block is neither first nor last: the accumulator is taken at what the point before
    left and given back at the middle case's contents; the output block's buffer is handed back untouched. -/
theorem sound_mid (c : Dev nD) (t : Fin cfg1.N) (hF : ¬t.val % 8 = 0) (hL : ¬t.val % 8 = 7) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 (grid1.coords t)], after_0]
  rw [show (dat1 V c).leavesExact 1 t = owns (c : Thread nD τ) (ms1 t) fullShare ((dat1 V c).after 1 t) from by
    unfold Dat.leavesExact; rw [live_1 (grid1.coords t)], after_1]
  rw [show (dat1 V c).leavesExact 2 t = owns (c : Thread nD τ) (ms2 t) fullShare ((dat1 V c).after 2 t) from by
    unfold Dat.leavesExact; rw [live_2 (grid1.coords t)], after_2]
  rw [show (dat1 V c).leavesExact 3 t = owns (c : Thread nD τ) (ms3 t) fullShare ((dat1 V c).after 3 t) from by
    unfold Dat.leavesExact; rw [live_3 (grid1.coords t)], after_3]
  have hz : t.val ≠ 0 := fun e => hF (by rw [e])
  rw [Dat.leavesExact_idle (dat1 V c) 4 t (idle_4 t (fun h => hL ((isLast_iff t).mp h))) (noFlush_4 t (fun h => hL ((isLast_iff t).mp h)))]
  rw [outsAt_mid V c t hF hL]
  unfold accMid; (try dsimp only)
  rw [PhiS_castSucc V c t, PhiS_pos V c _ _ hz]
  unfold rest
  iintro ⟨⟨⟨O1, O2, O3, O4, O5, O6, O7, O8, O9, HS⟩, Hg⟩, Ho, ⟨%d0, H0⟩, ⟨%d1, H1⟩, ⟨%d2, H2⟩, ⟨%d3, H3⟩, ⟨%d4, H4⟩⟩
  iapply ((runMid c (grid1.coords t) _ _ _ _ _ _ _ _ _ _ _ _ (fun h => hF ((isFirst_iff t).mp h)) (fun h => hL ((isLast_iff t).mp h)) (iblk V c 0 t) (iblk V c 1 t) (iblk V c 2 t) (iblk V c 3 t) _).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [O1 O2 O3 O4 O5 O6 O7 O8 O9 HS Hg]
  · isplitl [O1 O2 O3 O4 O5 O6 O7 O8 O9 HS]
    · isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      isplitl [O9]; · iexact O9
      unfold owns; iexists _; isplitr
      swap; · iexact HS
      ipureintro; exact View.read_writes_of_cover _ _ _ _ _ (accMid_cover c _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  iexists _; iexact H4

set_option maxHeartbeats 4800000 in
/-- At a point whose contracted block is the last: the accumulator is taken at what the point before left and given
    back at the last case's contents; the output block's buffer, taken at anything, is given back at the copy. -/
theorem sound_last (c : Dev nD) (t : Fin cfg1.N) (hF : ¬t.val % 8 = 0) (hL : t.val % 8 = 7) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 (grid1.coords t)], after_0]
  rw [show (dat1 V c).leavesExact 1 t = owns (c : Thread nD τ) (ms1 t) fullShare ((dat1 V c).after 1 t) from by
    unfold Dat.leavesExact; rw [live_1 (grid1.coords t)], after_1]
  rw [show (dat1 V c).leavesExact 2 t = owns (c : Thread nD τ) (ms2 t) fullShare ((dat1 V c).after 2 t) from by
    unfold Dat.leavesExact; rw [live_2 (grid1.coords t)], after_2]
  rw [show (dat1 V c).leavesExact 3 t = owns (c : Thread nD τ) (ms3 t) fullShare ((dat1 V c).after 3 t) from by
    unfold Dat.leavesExact; rw [live_3 (grid1.coords t)], after_3]
  have hz : t.val ≠ 0 := fun e => hF (by rw [e])
  rw [show (dat1 V c).leavesExact 4 t = owns (c : Thread nD τ) (ms4 t) fullShare ((dat1 V c).after 4 t) from by
    unfold Dat.leavesExact; rw [live_4 t ((isLast_iff t).mpr hL)], after_4]
  rw [outsAt_last V c t hF hL]
  unfold outLast accLast; (try dsimp only)
  rw [PhiS_castSucc V c t, PhiS_pos V c _ _ hz]
  unfold rest
  iintro ⟨⟨⟨O1, O2, O3, O4, O5, O6, O7, O8, O9, HS⟩, Hg⟩, Ho, ⟨%d0, H0⟩, ⟨%d1, H1⟩, ⟨%d2, H2⟩, ⟨%d3, H3⟩, ⟨%d4, H4⟩⟩
  iapply ((runLast c (grid1.coords t) _ _ _ _ _ _ _ _ _ _ _ _ (fun h => hF ((isFirst_iff t).mp h)) ((isLast_iff t).mpr hL) (iblk V c 0 t) (iblk V c 1 t) (iblk V c 2 t) (iblk V c 3 t) _).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [O1 O2 O3 O4 O5 O6 O7 O8 O9 HS Hg]
  · isplitl [O1 O2 O3 O4 O5 O6 O7 O8 O9 HS]
    · isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      isplitl [O9]; · iexact O9
      unfold owns; iexists _; isplitr
      swap; · iexact HS
      ipureintro; exact View.read_writes_of_cover _ _ _ _ _ (accLast_cover c _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outLast_cover c _ _ _ _ _ _ _ _ _ _ _ _ _ _ _ _ _ _ _ _)

/-- The body at any point, by the case the point is in. -/
theorem sound_body (c : Dev nD) (t : Fin cfg1.N) :
    bodyPre V c t ⊢ wp frame (wpE (defs₀ (F := F)) Variants.none c none) Set.univ (bodyAt1 t) (fun _ => bodyPost V c t) := by
  by_cases hF : t.val % 8 = 0
  · exact sound_first V c t hF
  · by_cases hL : t.val % 8 = 7
    · exact sound_last V c t hF hL
    · exact sound_mid V c t hF hL

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the entry form back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_eq]
  unfold rest
  iintro ⟨⟨O1, O2, O3, O4, O5, O6, O7, O8, O9, HS⟩, Hg⟩
  isplitl [O1 O2 O3 O4 O5 O6 O7 O8 O9 HS]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    iexists _; iexact HS
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.R1

end
-- ==== Proof.KRun.lean ====
/-
  The whole program: @main is the first matrix product's region, seven host operations (the column mean of its
  result and a change of float format), the second region, and six host operations (the mean of squares).
  This module follows the buffers' contents through those four segments — each region leaves its windows'
  arrays at what its pipeline writes back and everything else as it found it; each host stretch applies its
  operations — states each region as a segment of the run over its proof data and body obligation, and concludes:
  every weakly fair execution of @main terminates without a fault, every unscoped buffer ending at the last
  segment's contents. The frame claim and the values of the results are both read off that.
-/
import proofs.«142751_j87144886436114_2_alg».proof.Proof.R0Oblig
import proofs.«142751_j87144886436114_2_alg».proof.Proof.R1Body
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
abbrev Vin0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (R0.dat0 (Vin0 m ρ) c).arrAt w cfg0.N
theorem W1_arr (c : Dev nD) (w : Fin cfg0.W) :
    W1 m ρ c (Proc.devRef .tc (Pipeline.arrRef spec0 w)) = (R0.dat0 (Vin0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vout0 : (c : Dev nD) → (b : Ref sig .tc) → Buf (Elt F) ((c : Thread nD τ).loc b) := fun c b => W1 m ρ c b
theorem hF0 (c : Dev nD) (w : Fin cfg0.W) : (R0.dat0 (Vin0 m ρ) c).arrAt w cfg0.N = Vout0 m ρ c (Pipeline.arrRef spec0 w) :=
  (W1_arr m ρ c w).symm
theorem hrest0 (c : Dev nD) : ∀ b, b ∉ Finset.univ.image (Pipeline.arrRef spec0) → Vout0 m ρ c b = Vin0 m ρ c b :=
  fun b hb => W1_of_ne m ρ c b fun w e => hb (Finset.mem_image.mpr ⟨w, Finset.mem_univ _, e⟩)

/-- After the first host stretch. -/
abbrev W2 : Dev nD → Valuation τ sig (Elt F) := fun c => StableHlo.after hostOps1 (W1 m ρ c)
abbrev Vin1 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (R1.dat1 (Vin1 m ρ) c).arrAt w cfg1.N
theorem W3_arr (c : Dev nD) (w : Fin cfg1.W) :
    W3 m ρ c (Proc.devRef .tc (Pipeline.arrRef spec1 w)) = (R1.dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vout1 : (c : Dev nD) → (b : Ref sig .tc) → Buf (Elt F) ((c : Thread nD τ).loc b) := fun c b => W3 m ρ c b
theorem hF1 (c : Dev nD) (w : Fin cfg1.W) : (R1.dat1 (Vin1 m ρ) c).arrAt w cfg1.N = Vout1 m ρ c (Pipeline.arrRef spec1 w) :=
  (W3_arr m ρ c w).symm
theorem hrest1 (c : Dev nD) : ∀ b, b ∉ Finset.univ.image (Pipeline.arrRef spec1) → Vout1 m ρ c b = Vin1 m ρ c b :=
  fun b hb => W3_of_ne m ρ c b fun w e => hb (Finset.mem_image.mpr ⟨w, Finset.mem_univ _, e⟩)
/-- After the second host stretch: the end. -/
abbrev W4 : Dev nD → Valuation τ sig (Elt F) := fun c => StableHlo.after hostOps2 (W3 m ρ c)

/-! ## The proof data family and what rides along -/

abbrev adm : (p : Fin 2) → (pcfgs (F := F) p).Adm := fun p => (cfgs p).toPCfg_adm
/-- Each region's proof data at its entry contents: a literal match on the region. -/
def pdats : (p : Fin 2) → (c : Dev nD) → Dat τ (Elt F) Unit ℕ (UR sig nD τ) ℕ (Pipeline.pin (pcfgs (F := F)) adm p) c
  | ⟨0, _⟩ => fun c => R0.dat0 (Vin0 m ρ) c
  | ⟨1, _⟩ => fun c => R1.dat1 (Vin1 m ρ) c
abbrev 𝒱₀ : Variants := Variants.none
abbrev L : GSem nD τ sig → Finset Unit := fun _ => ∅
abbrev lv : GSem nD τ sig → Unit → ℕ := fun _ _ => 0
/-- Beside the buffers, through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No operation of either host stretch allocates a buffer. -/
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W0`, left at `W1`. Its arrays are
    split out of the unscoped buffers and put back at what the pipeline leaves; the generator register goes into
    the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (Vin0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from R0.hout0 (Vin0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at what the pipeline leaves; the generator register goes into
    the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (Vin1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from R1.hout1 (Vin1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub ops1_fresh (W1 m ρ)),
    .region (reg1 m ρ),
    .host (hseg hostOps2 hostOps2_sub ops2_fresh (W3 m ρ)) ]
theorem main_run (c : Dev nD) : main (F := F) c = Pipeline.Seg.run (segs m ρ) := (main_chain c).trans (by chain_rfl)

set_option backward.isDefEq.respectTransparency.types false in
/-- Every weakly fair execution of @main from memory `m` with zero counters terminates without a fault, and every
    final state holds every unscoped buffer of every core at the last segment's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Run

end
-- ==== Proof.KFrame.lean ====
/-
  The frame claim read off the run: at the end every unscoped buffer holds the last segment's contents, and an
  argument's contents there are its launch contents — followed back through the six and the seven host operations,
  none of which writes an argument, and through the two regions, each of which either stages the argument as an
  input window (whose array the pipeline leaves as it found it) or does not touch it.
-/
import proofs.«142751_j87144886436114_2_alg».proof.Proof.KRun
import proofs.«142751_j87144886436114_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host operation writes it, and each region either stages it as an input or leaves it alone. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ Cert.KernelIdeal.Gen.hostOps2_writes (r := main_arg0) (by decide)
    _ = W2 m ρ c (Proc.devRef .tc main_arg0) := (W3_arr m ρ c 1).trans (((R1.dat1 (Vin1 m ρ) c).arrAt_in 1 rfl _).trans (R1.A_eq1 (Vin1 m ρ) c 1))
    _ = W1 m ρ c (Proc.devRef .tc main_arg0) := StableHlo.after_of_writes_sub hostOps1 _ Cert.KernelIdeal.Gen.hostOps1_writes (r := main_arg0) (by decide)
    _ = W0 m ρ c (Proc.devRef .tc main_arg0) := (W1_arr m ρ c 0).trans (((R0.dat0 (Vin0 m ρ) c).arrAt_in 0 rfl _).trans (R0.A_eq0 (Vin0 m ρ) c 0))
    _ = m ((c : Thread nD τ).loc main_arg0) := rfl

/-- `main_arg1` ends as launched: no host operation writes it, and each region either stages it as an input or leaves it alone. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ Cert.KernelIdeal.Gen.hostOps2_writes (r := main_arg1) (by decide)
    _ = W2 m ρ c (Proc.devRef .tc main_arg1) := W3_of_ne m ρ c main_arg1 (by decide)
    _ = W1 m ρ c (Proc.devRef .tc main_arg1) := StableHlo.after_of_writes_sub hostOps1 _ Cert.KernelIdeal.Gen.hostOps1_writes (r := main_arg1) (by decide)
    _ = W0 m ρ c (Proc.devRef .tc main_arg1) := (W1_arr m ρ c 2).trans (((R0.dat0 (Vin0 m ρ) c).arrAt_in 2 rfl _).trans (R0.A_eq0 (Vin0 m ρ) c 2))
    _ = m ((c : Thread nD τ).loc main_arg1) := rfl

/-- `main_arg2` ends as launched: no host operation writes it, and each region either stages it as an input or leaves it alone. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ Cert.KernelIdeal.Gen.hostOps2_writes (r := main_arg2) (by decide)
    _ = W2 m ρ c (Proc.devRef .tc main_arg2) := (W3_arr m ρ c 2).trans (((R1.dat1 (Vin1 m ρ) c).arrAt_in 2 rfl _).trans (R1.A_eq1 (Vin1 m ρ) c 2))
    _ = W1 m ρ c (Proc.devRef .tc main_arg2) := StableHlo.after_of_writes_sub hostOps1 _ Cert.KernelIdeal.Gen.hostOps1_writes (r := main_arg2) (by decide)
    _ = W0 m ρ c (Proc.devRef .tc main_arg2) := (W1_arr m ρ c 1).trans (((R0.dat0 (Vin0 m ρ) c).arrAt_in 1 rfl _).trans (R0.A_eq0 (Vin0 m ρ) c 1))
    _ = m ((c : Thread nD τ).loc main_arg2) := rfl

/-- Every weakly fair execution of @main terminates without a fault and ends with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Run

end
-- ==== Proof.Bits.R0Conds.lean ====
/-
  The first matrix product, `X · Wᵀ + D`, accumulated over eight column blocks of the contracted axis.
  Its grid has sixteen points `t = 8·j + k`: `j` picks a block of 1024 output columns, `k` a block of 512
  contracted columns. The body clears the accumulator where `k = 0`, adds the block product at every point, and
  writes accumulator plus bias into the output block where `k = 7`.
  This module states the two conditions of the body in closed form over the grid, where the output block is
  stored and written back, the memory the body is called with, and the part of the core's memory that the
  region's invariant holds.
-/
import proofs.«142751_j87144886436114_2_alg».proof.Proof.Gen.Kernel.Launch
import proofs.«142751_j87144886436114_2_alg».proof.Proof.Gen.Kernel.Skeleton
import proofs.«142751_j87144886436114_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays the region is entered with, and the blocks of its windows -/

variable (V : (c : Dev nD) → (b : Ref sig .tc) → Buf (Elt F) ((c : Thread nD τ).loc b))

/-- The block of window `w` at point `t`: the window's array as the region finds it, read through the block. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not: where it is not fetched the
    block index has not moved since the point before. One statement per input window. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The accumulator is cleared: the contracted block is the first, `k = 0`. -/
abbrev isFirst (i : grid0.Coords) : Prop := (Scalar.cmpi .ne (Scalar.extui (Scalar.cmpi .eq (BitVec.ofNat 32 (i 2).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The output block is stored: the contracted block is the last, `k = 7`. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are live -/

theorem live_0 : ∀ i, cfg0.idle 0 i = false := fun _ => rfl
theorem live_1 : ∀ i, cfg0.idle 1 i = false := fun _ => rfl
theorem live_2 : ∀ i, cfg0.idle 2 i = false := fun _ => rfl
/-- The output window is idle exactly where the body does not store into it, -/
theorem idle_3 : ∀ t : Fin cfg0.N, ¬isLast (grid0.coords t) → cfg0.idle 3 (grid0.coords t) = true := by decide +kernel
theorem live_3 : ∀ t : Fin cfg0.N, isLast (grid0.coords t) → cfg0.idle 3 (grid0.coords t) = false := by decide +kernel
/-- and there it is not written back either. -/
theorem noFlush_3 : ∀ t : Fin cfg0.N, ¬isLast (grid0.coords t) → (cfg0.win 3).flush t = false := by decide +kernel

/-! ## The memory the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The accumulator: a whole buffer of the kernel's own, passed beside the windows. -/
abbrev acc : Memref sig .tc .vmem S1024x1024 .f32 := Memref.whole cc0_scratch0
/-- Views through which the accumulator's and the output block's contents are stated. -/
abbrev VA : View sig .tc .vmem S1024x1024 .f32 := acc.view
abbrev VO : View sig .tc .vmem S1024x1024 .f32 := (Memref.whole cc0_stg3_0 : Memref sig .tc .vmem S1024x1024 .f32).view

/-- Every buffer of the core that is no staging buffer of this region, each held at some contents — the accumulator
    first, then the eleven buffers of the other region — beside the generator register. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the region holds besides its windows, with the accumulator as a memref owned at some contents. -/
theorem PhiA_eq (c : Dev nD) :
    (Pipeline.ΦA spec0 c : sProp 𝕄)
      = iprop(iprop((∃ d, owns (c : Thread nD τ) acc fullShare d) ∗ others c) ∗ (∃ r, prngReg c r)) := by
  unfold Pipeline.ΦA others; rw [scopedRest0_eq]; simp only [acc, owns_whole]; try rfl

end Cert.Kernel.R0

end
-- ==== Proof.Bits.R0RunFirst.lean ====
/-
  The body of the first matrix product at a point where the contracted block is the FIRST (and not the last): from the three input blocks held whole, the output block at anything (handed back untouched) and the accumulator at anything, it runs to its end leaving the accumulator with the stores of this point written: the clearing store, then the store of zero plus the block product.
-/
import proofs.«142751_j87144886436114_2_alg».proof.Proof.Bits.R0Conds

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hF : isFirst i) (hL : ¬isLast i)
    (x0 : Vec F S1024x512 .f32) (x1 : Vec F S1024x512 .f32) (x2 : Vec F S1024x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R0

end
-- ==== Proof.Bits.R0RunMid.lean ====
/-
  The body of the first matrix product at a point where the contracted block is neither the first nor the last: the accumulator is found at what the point before left (\`xs\`) and left with the store of \`xs\` plus the block product written.
-/
import proofs.«142751_j87144886436114_2_alg».proof.Proof.Bits.R0RunFirst

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hF : ¬isFirst i) (hL : ¬isLast i)
    (x0 : Vec F S1024x512 .f32) (x1 : Vec F S1024x512 .f32) (x2 : Vec F S1024x1024 .f32) (xs : Vec F S1024x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R0

end
-- ==== Proof.Bits.R0RunLast.lean ====
/-
  The body of the first matrix product at a point where the contracted block is the LAST (and not the first): the accumulator is found at what the point before left, gets the last block product added, and the output block is stored whole at accumulator plus bias.
-/
import proofs.«142751_j87144886436114_2_alg».proof.Proof.Bits.R0RunMid

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hF : ¬isFirst i) (hL : isLast i)
    (x0 : Vec F S1024x512 .f32) (x1 : Vec F S1024x512 .f32) (x2 : Vec F S1024x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.Kernel.R0

end
-- ==== Proof.Bits.R0Body.lean ====
/-
  The first matrix product, point by point. What the accumulator and the output block hold after each of the
  sixteen points is a recursion on the point: a point whose contracted block is the first starts from the cleared
  accumulator, every other point from what the point before left; only a point whose contracted block is the
  last stores the output block. Over that recursion: the region's invariant (the accumulator at the recursion's
  value), its proof data, and the obligation that the body, called at any point, takes the invariant before the
  point to the invariant after it.
-/
import proofs.«142751_j87144886436114_2_alg».proof.Proof.Bits.R0RunLast

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, as values -/

/-- Where the output block is not stored: a placeholder nothing consults (the window is idle and not written back there). -/
def outIdle : Vec F S1024x1024 .f32 := VO.read (Elt F) (VO.writes (Elt F) VO.junk [])

section cases
variable (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

/-- The accumulator after a point whose contracted block is the first. -/
def accFirst (hF : isFirst i) (hL : ¬isLast i) (x0 x1 : Vec F S1024x512 .f32) (x2 : Vec F S1024x1024 .f32) : Vec F S1024x1024 .f32 :=
  VA.read (Elt F) (VA.writes (Elt F) VA.junk (runFirst c i arg3 harg3 arg4 harg4 arg5 harg5 arg6 harg6 arg7 harg7 hF hL x0 x1 x2).1)
theorem accFirst_cover (hF : isFirst i) (hL : ¬isLast i) (x0 x1 : Vec F S1024x512 .f32) (x2 : Vec F S1024x1024 .f32) (y : S1024x1024.Idx) :
    ∃ pc ∈ (runFirst c i arg3 harg3 arg4 harg4 arg5 harg5 arg6 harg6 arg7 harg7 hF hL x0 x1 x2).1, y ∈ pc.1.set :=
  View.cover_of_tiledL _ S1024x1024.size (by sl_kernel_rfl) y

/-- The accumulator after a point whose contracted block is neither first nor last, from what the point before left. -/
def accMid (hF : ¬isFirst i) (hL : ¬isLast i) (x0 x1 : Vec F S1024x512 .f32) (x2 xs : Vec F S1024x1024 .f32) : Vec F S1024x1024 .f32 :=
  VA.read (Elt F) (VA.writes (Elt F) VA.junk (runMid c i arg3 harg3 arg4 harg4 arg5 harg5 arg6 harg6 arg7 harg7 hF hL x0 x1 x2 xs).1)
theorem accMid_cover (hF : ¬isFirst i) (hL : ¬isLast i) (x0 x1 : Vec F S1024x512 .f32) (x2 xs : Vec F S1024x1024 .f32) (y : S1024x1024.Idx) :
    ∃ pc ∈ (runMid c i arg3 harg3 arg4 harg4 arg5 harg5 arg6 harg6 arg7 harg7 hF hL x0 x1 x2 xs).1, y ∈ pc.1.set :=
  View.cover_of_tiledL _ S1024x1024.size (by sl_kernel_rfl) y

/-- The accumulator and the output block after a point whose contracted block is the last. -/
def accLast (hF : ¬isFirst i) (hL : isLast i) (x0 x1 : Vec F S1024x512 .f32) (x2 xs : Vec F S1024x1024 .f32) : Vec F S1024x1024 .f32 :=
  VA.read (Elt F) (VA.writes (Elt F) VA.junk (runLast c i arg3 harg3 arg4 harg4 arg5 harg5 arg6 harg6 arg7 harg7 hF hL x0 x1 x2 xs).2.1)
theorem accLast_cover (hF : ¬isFirst i) (hL : isLast i) (x0 x1 : Vec F S1024x512 .f32) (x2 xs : Vec F S1024x1024 .f32) (y : S1024x1024.Idx) :
    ∃ pc ∈ (runLast c i arg3 harg3 arg4 harg4 arg5 harg5 arg6 harg6 arg7 harg7 hF hL x0 x1 x2 xs).2.1, y ∈ pc.1.set :=
  View.cover_of_tiledL _ S1024x1024.size (by sl_kernel_rfl) y
def outLast (hF : ¬isFirst i) (hL : isLast i) (x0 x1 : Vec F S1024x512 .f32) (x2 xs : Vec F S1024x1024 .f32) : Vec F S1024x1024 .f32 :=
  VO.read (Elt F) (VO.writes (Elt F) VO.junk (runLast c i arg3 harg3 arg4 harg4 arg5 harg5 arg6 harg6 arg7 harg7 hF hL x0 x1 x2 xs).1)
theorem outLast_cover (hF : ¬isFirst i) (hL : isLast i) (x0 x1 : Vec F S1024x512 .f32) (x2 xs : Vec F S1024x1024 .f32) (y : S1024x1024.Idx) :
    ∃ pc ∈ (runLast c i arg3 harg3 arg4 harg4 arg5 harg5 arg6 harg6 arg7 harg7 hF hL x0 x1 x2 xs).1, y ∈ pc.1.set :=
  View.cover_of_tiledL _ S1024x1024.size (by sl_kernel_rfl) y

end cases

/-! ## Point by point -/

theorem not_last_of_first {n : ℕ} (h : n % 8 = 0) : ¬ n % 8 = 7 := by omega

/-- The pair (output block, accumulator) after point `n`. -/
def outsAt (c : Dev nD) : (n : ℕ) → n < cfg0.N → Vec F S1024x1024 .f32 × Vec F S1024x1024 .f32
  | 0, hn =>
      let t : Fin cfg0.N := ⟨0, hn⟩
      (outIdle, accFirst c (grid0.coords t) (ms0 t) (hs0 t) (ms1 t) (hs1 t) (ms2 t) (hs2 t) (ms3 t) (hs3 t) acc (Memref.isWhole_whole _) ((isFirst_iff t).mpr rfl) (fun h => not_last_of_first (n := 0) rfl ((isLast_iff t).mp h)) (iblk V c 0 t) (iblk V c 1 t) (iblk V c 2 t))
  | n + 1, hn =>
      let t : Fin cfg0.N := ⟨n + 1, hn⟩
      if h0 : (n + 1) % 8 = 0 then
        (outIdle, accFirst c (grid0.coords t) (ms0 t) (hs0 t) (ms1 t) (hs1 t) (ms2 t) (hs2 t) (ms3 t) (hs3 t) acc (Memref.isWhole_whole _) ((isFirst_iff t).mpr h0) (fun h => not_last_of_first h0 ((isLast_iff t).mp h)) (iblk V c 0 t) (iblk V c 1 t) (iblk V c 2 t))
      else if h7 : (n + 1) % 8 = 7 then
        (outLast c (grid0.coords t) (ms0 t) (hs0 t) (ms1 t) (hs1 t) (ms2 t) (hs2 t) (ms3 t) (hs3 t) acc (Memref.isWhole_whole _) (fun h => h0 ((isFirst_iff t).mp h)) ((isLast_iff t).mpr h7) (iblk V c 0 t) (iblk V c 1 t) (iblk V c 2 t) (outsAt c n (Nat.lt_of_succ_lt hn)).2,
         accLast c (grid0.coords t) (ms0 t) (hs0 t) (ms1 t) (hs1 t) (ms2 t) (hs2 t) (ms3 t) (hs3 t) acc (Memref.isWhole_whole _) (fun h => h0 ((isFirst_iff t).mp h)) ((isLast_iff t).mpr h7) (iblk V c 0 t) (iblk V c 1 t) (iblk V c 2 t) (outsAt c n (Nat.lt_of_succ_lt hn)).2)
      else
        (outIdle, accMid c (grid0.coords t) (ms0 t) (hs0 t) (ms1 t) (hs1 t) (ms2 t) (hs2 t) (ms3 t) (hs3 t) acc (Memref.isWhole_whole _) (fun h => h0 ((isFirst_iff t).mp h)) (fun h => h7 ((isLast_iff t).mp h)) (iblk V c 0 t) (iblk V c 1 t) (iblk V c 2 t) (outsAt c n (Nat.lt_of_succ_lt hn)).2)

theorem outsAt_first (c : Dev nD) (t : Fin cfg0.N) (h0 : t.val % 8 = 0) :
    outsAt V c t.val t.isLt = (outIdle, accFirst c (grid0.coords t) (ms0 t) (hs0 t) (ms1 t) (hs1 t) (ms2 t) (hs2 t) (ms3 t) (hs3 t) acc (Memref.isWhole_whole _) ((isFirst_iff t).mpr h0) (fun h => not_last_of_first h0 ((isLast_iff t).mp h)) (iblk V c 0 t) (iblk V c 1 t) (iblk V c 2 t)) := by
  obtain ⟨n, hn⟩ := t
  cases n with
  | zero => rfl
  | succ n => exact dif_pos h0

theorem outsAt_last (c : Dev nD) (t : Fin cfg0.N) (h0 : ¬t.val % 8 = 0) (h7 : t.val % 8 = 7) :
    outsAt V c t.val t.isLt = (outLast c (grid0.coords t) (ms0 t) (hs0 t) (ms1 t) (hs1 t) (ms2 t) (hs2 t) (ms3 t) (hs3 t) acc (Memref.isWhole_whole _) (fun h => h0 ((isFirst_iff t).mp h)) ((isLast_iff t).mpr h7) (iblk V c 0 t) (iblk V c 1 t) (iblk V c 2 t) (outsAt V c (t.val - 1) (Nat.lt_of_le_of_lt (Nat.sub_le _ _) t.isLt)).2,
      accLast c (grid0.coords t) (ms0 t) (hs0 t) (ms1 t) (hs1 t) (ms2 t) (hs2 t) (ms3 t) (hs3 t) acc (Memref.isWhole_whole _) (fun h => h0 ((isFirst_iff t).mp h)) ((isLast_iff t).mpr h7) (iblk V c 0 t) (iblk V c 1 t) (iblk V c 2 t) (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

theorem outsAt_mid (c : Dev nD) (t : Fin cfg0.N) (h0 : ¬t.val % 8 = 0) (h7 : ¬t.val % 8 = 7) :
    outsAt V c t.val t.isLt = (outIdle, accMid c (grid0.coords t) (ms0 t) (hs0 t) (ms1 t) (hs1 t) (ms2 t) (hs2 t) (ms3 t) (hs3 t) acc (Memref.isWhole_whole _) (fun h => h0 ((isFirst_iff t).mp h)) (fun h => h7 ((isLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

/-! ## The invariant -/

/-- Before the first point: every buffer that is no staging buffer of this region at anything. After point `n`: the
    accumulator at what that point left, the other such buffers at anything; the generator register at some state throughout. -/
def PhiS (c : Dev nD) : (n : ℕ) → n ≤ cfg0.N → sProp 𝕄
  | 0, _ => Pipeline.ΦA spec0 c
  | n + 1, hn => iprop(iprop(owns (c : Thread nD τ) acc fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) acc fullShare ((outsAt V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) acc fullShare ((outsAt V c (n - 1) (by omega)).2) ∗ others c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = (outsAt V c t.val t.isLt).1 := by dsimp only [dat0]
theorem before_0 (c : Dev nD) (t : Fin cfg0.N) (d) : (dat0 V c).before 0 t d = iblk V c 0 t := before_0_of V (dat0 V c) (A_eq0 V c 0) (after_0 V c) t d
theorem before_1 (c : Dev nD) (t : Fin cfg0.N) (d) : (dat0 V c).before 1 t d = iblk V c 1 t := before_1_of V (dat0 V c) (A_eq0 V c 1) (after_1 V c) t d
theorem before_2 (c : Dev nD) (t : Fin cfg0.N) (d) : (dat0 V c).before 2 t d = iblk V c 2 t := before_2_of V (dat0 V c) (A_eq0 V c 2) (after_2 V c) t d

end Cert.Kernel.R0

end
-- ==== Proof.Bits.R0Oblig.lean ====
/-
  The body obligation of the first matrix product: called at any of the sixteen points with the invariant before
  the point and the windows' buffers at their blocks, the body runs to its end and leaves the invariant after
  the point — the accumulator at this point's value of the recursion — and each window's buffer at what the
  proof data says. By cases on the contracted block (first, last, neither) and on whether the point is the very
  first (where the accumulator is found at anything).
-/
import proofs.«142751_j87144886436114_2_alg».proof.Proof.Bits.R0Body

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_0 (grid0.coords t)], after_0]
  rw [show (dat0 V c).leavesExact 1 t = owns (c : Thread nD τ) (ms1 t) fullShare ((dat0 V c).after 1 t) from by
    unfold Dat.leavesExact; rw [live_1 (grid0.coords t)], after_1]
  rw [show (dat0 V c).leavesExact 2 t = owns (c : Thread nD τ) (ms2 t) fullShare ((dat0 V c).after 2 t) from by
    unfold Dat.leavesExact; rw [live_2 (grid0.coords t)], after_2]
  have hN : t.val < 16 := lt_of_lt_of_eq t.isLt (show cfg0.N = 16 from N_0)
  by_cases h0 : t.val % 8 = 0
  · have h7 : ¬t.val % 8 = 7 := not_last_of_first h0
    rw [Dat.leavesExact_idle (dat0 V c) 3 t (idle_3 t (fun h => h7 ((isLast_iff t).mp h))) (noFlush_3 t (fun h => h7 ((isLast_iff t).mp h)))]
    rw [outsAt_first V c t h0]
    unfold accFirst; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h7 ((isLast_iff t).mp h)) (iblk V c 0 t) (iblk V c 1 t) (iblk V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h7 ((isLast_iff t).mp h)) (iblk V c 0 t) (iblk V c 1 t) (iblk V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (dat0 V c).leavesExact 3 t = owns (c : Thread nD τ) (ms3 t) fullShare ((dat0 V c).after 3 t) from by
        unfold Dat.leavesExact; rw [live_3 t ((isLast_iff t).mpr h7)], after_3]
      rw [outsAt_last V c t h0 h7]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · rw [Dat.leavesExact_idle (dat0 V c) 3 t (idle_3 t (fun h => h7 ((isLast_iff t).mp h))) (noFlush_3 t (fun h => h7 ((isLast_iff t).mp h)))]
      rw [outsAt_mid V c t h0 h7]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h7 ((isLast_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMid_cover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but none the invariant gives the entry form back: the accumulator's value is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.Kernel.R0

end
-- ==== Proof.Bits.R1Conds.lean ====
/-
  The second matrix product, accumulated over eight row blocks of the contracted axis.
  Its grid has sixteen points `t = 8·j + k`: `j` picks a block of 1024 output columns, `k` a block of 512
  contracted columns. The body clears the accumulator where `k = 0`, adds the block product at every point, and
  copies the accumulator into the output block where `k = 7`.
  This module states the two conditions of the body in closed form over the grid, where the output block is
  stored and written back, the memory the body is called with, and the part of the core's memory that the
  region's invariant holds.
-/
import proofs.«142751_j87144886436114_2_alg».proof.Proof.Gen.Kernel.Launch
import proofs.«142751_j87144886436114_2_alg».proof.Proof.Gen.Kernel.Skeleton
import proofs.«142751_j87144886436114_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays the region is entered with, and the blocks of its windows -/

variable (V : (c : Dev nD) → (b : Ref sig .tc) → Buf (Elt F) ((c : Thread nD τ).loc b))

/-- The block of window `w` at point `t`: the window's array as the region finds it, read through the block. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: where it is not fetched the
    block index has not moved since the point before. One statement per input window. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The accumulator is cleared: the contracted block is the first, `k = 0`. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- The output block is stored: the contracted block is the last, `k = 7`. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are live -/

theorem live_0 : ∀ i, cfg1.idle 0 i = false := fun _ => rfl
theorem live_1 : ∀ i, cfg1.idle 1 i = false := fun _ => rfl
theorem live_2 : ∀ i, cfg1.idle 2 i = false := fun _ => rfl
theorem live_3 : ∀ i, cfg1.idle 3 i = false := fun _ => rfl
/-- The output window is idle exactly where the body does not store into it, -/
theorem idle_4 : ∀ t : Fin cfg1.N, ¬isLast (grid1.coords t) → cfg1.idle 4 (grid1.coords t) = true := by decide +kernel
theorem live_4 : ∀ t : Fin cfg1.N, isLast (grid1.coords t) → cfg1.idle 4 (grid1.coords t) = false := by decide +kernel
/-- and there it is not written back either. -/
theorem noFlush_4 : ∀ t : Fin cfg1.N, ¬isLast (grid1.coords t) → (cfg1.win 4).flush t = false := by decide +kernel

/-! ## The memory the body is called with -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1024 .f32 := win1_4.stage (cfg1.slots t 4)
abbrev hs4 (t : Fin cfg1.N) : (ms4 t).IsWhole := hstage1_4 ((cfg1.slots t 4).cast nbuf1_4)
/-- The accumulator: a whole buffer of the kernel's own, passed beside the windows. -/
abbrev acc : Memref sig .tc .vmem S1024x1024 .f32 := Memref.whole cc1_scratch0
/-- Views through which the accumulator's and the output block's contents are stated. -/
abbrev VA : View sig .tc .vmem S1024x1024 .f32 := acc.view
abbrev VO : View sig .tc .vmem S1024x1024 .f32 := (Memref.whole cc1_stg4_0 : Memref sig .tc .vmem S1024x1024 .f32).view

/-- Every buffer of the core that is no staging buffer of this region — the nine buffers of the other region, each
    held at some contents, and last the accumulator, held as `P` says. -/
def rest (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ P)

/-- What the region holds besides its windows, with the accumulator as a memref owned at some contents. -/
theorem PhiA_eq (c : Dev nD) :
    (Pipeline.ΦA spec1 c : sProp 𝕄)
      = iprop(rest c iprop(∃ d, owns (c : Thread nD τ) acc fullShare d) ∗ (∃ r, prngReg c r)) := by
  unfold Pipeline.ΦA rest; rw [scopedRest1_eq]; simp only [acc, owns_whole]; try rfl

end Cert.Kernel.R1

end
-- ==== Proof.Bits.R1RunFirst.lean ====
/-
  The body of the second matrix product at a point where the contracted block is the FIRST (and not the last): from the four input blocks held whole, the output block at anything (handed back untouched) and the accumulator at anything, it runs to its end leaving the accumulator with the stores of this point written: the clearing store, then the store of zero plus the block product.
-/
import proofs.«142751_j87144886436114_2_alg».proof.Proof.Bits.R1Conds

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (hF : isFirst i) (hL : ¬isLast i)
    (x0 : Vec F S1024x1024 .bf16) (x1 : Vec F S1024x512 .f32) (x2 : Vec F S1024x512 .f32) (x3 : Vec F S1024x1 .f32) :
    { LS : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.R1

end
-- ==== Proof.Bits.R1RunMid.lean ====
/-
  The body of the second matrix product at a point where the contracted block is NEITHER the first NOR the last: from the four input blocks held whole, the output block at anything (handed back untouched) and the accumulator at what the point before left, it runs to its end leaving the accumulator with this point's store written: the sum so far plus the block product.
-/
import proofs.«142751_j87144886436114_2_alg».proof.Proof.Bits.R1RunFirst

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (hF : ¬isFirst i) (hL : ¬isLast i)
    (x0 : Vec F S1024x1024 .bf16) (x1 : Vec F S1024x512 .f32) (x2 : Vec F S1024x512 .f32) (x3 : Vec F S1024x1 .f32) (xs : Vec F S1024x1024 .f32) :
    { LS : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.R1

end
-- ==== Proof.Bits.R1RunLast.lean ====
/-
  The body of the second matrix product at a point where the contracted block is the LAST (and not the first): from the four input blocks held whole, the accumulator at what the point before left and the output block at anything, it runs to its end leaving the accumulator with this point's store written (the sum so far plus the block product) and the output block with the copy of the accumulator written.
-/
import proofs.«142751_j87144886436114_2_alg».proof.Proof.Bits.R1RunMid

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole) (hF : ¬isFirst i) (hL : isLast i)
    (x0 : Vec F S1024x1024 .bf16) (x1 : Vec F S1024x512 .f32) (x2 : Vec F S1024x512 .f32) (x3 : Vec F S1024x1 .f32) (xs : Vec F S1024x1024 .f32) :
    Σ' (L4 : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.Kernel.R1

end
-- ==== Proof.Bits.R1Vals.lean ====
/-
  The second matrix product, point by point. What the accumulator and the output block hold after each of the
  sixteen points is a recursion on the point: a point whose contracted block is the first starts from the cleared
  accumulator, every other point from what the point before left; only a point whose contracted block is the
  last stores the output block. Over that recursion: the region's invariant (the accumulator at the recursion's
  value) and its proof data.
-/
import proofs.«142751_j87144886436114_2_alg».proof.Proof.Bits.R1RunLast

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, as values -/

/-- Where the output block is not stored: a placeholder nothing reads (there the block is neither written back
    nor handed to the next point as stored). -/
def outIdle : Vec F S1024x1024 .f32 := VO.read (Elt F) (VO.writes (Elt F) VO.junk [])

section cases
variable (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole)

/-- The accumulator after a point whose contracted block is the first: its two stores read back. -/
def accFirst (hF : isFirst i) (hL : ¬isLast i) (x0 : Vec F S1024x1024 .bf16) (x1 x2 : Vec F S1024x512 .f32) (x3 : Vec F S1024x1 .f32) : Vec F S1024x1024 .f32 :=
  VA.read (Elt F) (VA.writes (Elt F) VA.junk (runFirst c i arg2 harg2 arg3 harg3 arg4 harg4 arg5 harg5 arg6 harg6 arg7 harg7 hF hL x0 x1 x2 x3).1)
/-- Those stores cover the accumulator: each is a store of the whole block. -/
theorem accFirst_cover (hF : isFirst i) (hL : ¬isLast i) (x0 : Vec F S1024x1024 .bf16) (x1 x2 : Vec F S1024x512 .f32) (x3 : Vec F S1024x1 .f32) (y : S1024x1024.Idx) :
    ∃ pc ∈ (runFirst c i arg2 harg2 arg3 harg3 arg4 harg4 arg5 harg5 arg6 harg6 arg7 harg7 hF hL x0 x1 x2 x3).1, y ∈ pc.1.set :=
  View.cover_of_tiledL _ S1024x1024.size (by sl_kernel_rfl) y

/-- The accumulator after a point whose contracted block is neither first nor last, from what the point before left. -/
def accMid (hF : ¬isFirst i) (hL : ¬isLast i) (x0 : Vec F S1024x1024 .bf16) (x1 x2 : Vec F S1024x512 .f32) (x3 : Vec F S1024x1 .f32) (xs : Vec F S1024x1024 .f32) : Vec F S1024x1024 .f32 :=
  VA.read (Elt F) (VA.writes (Elt F) VA.junk (runMid c i arg2 harg2 arg3 harg3 arg4 harg4 arg5 harg5 arg6 harg6 arg7 harg7 hF hL x0 x1 x2 x3 xs).1)
theorem accMid_cover (hF : ¬isFirst i) (hL : ¬isLast i) (x0 : Vec F S1024x1024 .bf16) (x1 x2 : Vec F S1024x512 .f32) (x3 : Vec F S1024x1 .f32) (xs : Vec F S1024x1024 .f32) (y : S1024x1024.Idx) :
    ∃ pc ∈ (runMid c i arg2 harg2 arg3 harg3 arg4 harg4 arg5 harg5 arg6 harg6 arg7 harg7 hF hL x0 x1 x2 x3 xs).1, y ∈ pc.1.set :=
  View.cover_of_tiledL _ S1024x1024.size (by sl_kernel_rfl) y

/-- The accumulator and the output block after a point whose contracted block is the last. -/
def accLast (hF : ¬isFirst i) (hL : isLast i) (x0 : Vec F S1024x1024 .bf16) (x1 x2 : Vec F S1024x512 .f32) (x3 : Vec F S1024x1 .f32) (xs : Vec F S1024x1024 .f32) : Vec F S1024x1024 .f32 :=
  VA.read (Elt F) (VA.writes (Elt F) VA.junk (runLast c i arg2 harg2 arg3 harg3 arg4 harg4 arg5 harg5 arg6 harg6 arg7 harg7 hF hL x0 x1 x2 x3 xs).2.1)
theorem accLast_cover (hF : ¬isFirst i) (hL : isLast i) (x0 : Vec F S1024x1024 .bf16) (x1 x2 : Vec F S1024x512 .f32) (x3 : Vec F S1024x1 .f32) (xs : Vec F S1024x1024 .f32) (y : S1024x1024.Idx) :
    ∃ pc ∈ (runLast c i arg2 harg2 arg3 harg3 arg4 harg4 arg5 harg5 arg6 harg6 arg7 harg7 hF hL x0 x1 x2 x3 xs).2.1, y ∈ pc.1.set :=
  View.cover_of_tiledL _ S1024x1024.size (by sl_kernel_rfl) y
def outLast (hF : ¬isFirst i) (hL : isLast i) (x0 : Vec F S1024x1024 .bf16) (x1 x2 : Vec F S1024x512 .f32) (x3 : Vec F S1024x1 .f32) (xs : Vec F S1024x1024 .f32) : Vec F S1024x1024 .f32 :=
  VO.read (Elt F) (VO.writes (Elt F) VO.junk (runLast c i arg2 harg2 arg3 harg3 arg4 harg4 arg5 harg5 arg6 harg6 arg7 harg7 hF hL x0 x1 x2 x3 xs).1)
theorem outLast_cover (hF : ¬isFirst i) (hL : isLast i) (x0 : Vec F S1024x1024 .bf16) (x1 x2 : Vec F S1024x512 .f32) (x3 : Vec F S1024x1 .f32) (xs : Vec F S1024x1024 .f32) (y : S1024x1024.Idx) :
    ∃ pc ∈ (runLast c i arg2 harg2 arg3 harg3 arg4 harg4 arg5 harg5 arg6 harg6 arg7 harg7 hF hL x0 x1 x2 x3 xs).1, y ∈ pc.1.set :=
  View.cover_of_tiledL _ S1024x1024.size (by sl_kernel_rfl) y

end cases

/-! ## Point by point -/

theorem not_last_of_first {n : ℕ} (h : n % 8 = 0) : ¬ n % 8 = 7 := by omega

/-- The pair (output block, accumulator) after point `n`: the case the closed forms select at `n`, at the point's
    memory and input blocks; a point that is not a first one takes the accumulator at what the point before left. -/
def outsAt (c : Dev nD) : (n : ℕ) → n < cfg1.N → Vec F S1024x1024 .f32 × Vec F S1024x1024 .f32
  | 0, hn =>
      let t : Fin cfg1.N := ⟨0, hn⟩
      have hF : t.val % 8 = 0 := rfl
      (outIdle, accFirst c (grid1.coords t) (ms0 t) (hs0 t) (ms1 t) (hs1 t) (ms2 t) (hs2 t) (ms3 t) (hs3 t) (ms4 t) (hs4 t) acc (Memref.isWhole_whole _) ((isFirst_iff t).mpr hF) (fun h => not_last_of_first hF ((isLast_iff t).mp h)) (iblk V c 0 t) (iblk V c 1 t) (iblk V c 2 t) (iblk V c 3 t))
  | n + 1, hn =>
      let t : Fin cfg1.N := ⟨n + 1, hn⟩
      if hF : (n + 1) % 8 = 0 then
        (outIdle, accFirst c (grid1.coords t) (ms0 t) (hs0 t) (ms1 t) (hs1 t) (ms2 t) (hs2 t) (ms3 t) (hs3 t) (ms4 t) (hs4 t) acc (Memref.isWhole_whole _) ((isFirst_iff t).mpr hF) (fun h => not_last_of_first hF ((isLast_iff t).mp h)) (iblk V c 0 t) (iblk V c 1 t) (iblk V c 2 t) (iblk V c 3 t))
      else if hL : (n + 1) % 8 = 7 then
        (outLast c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt c n (Nat.lt_of_succ_lt hn)).2,
         accLast c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt c n (Nat.lt_of_succ_lt hn)).2)
      else
        (outIdle, accMid c (grid1.coords t) (ms0 t) (hs0 t) (ms1 t) (hs1 t) (ms2 t) (hs2 t) (ms3 t) (hs3 t) (ms4 t) (hs4 t) acc (Memref.isWhole_whole _) (fun h => hF ((isFirst_iff t).mp h)) (fun h => hL ((isLast_iff t).mp h)) (iblk V c 0 t) (iblk V c 1 t) (iblk V c 2 t) (iblk V c 3 t) (outsAt c n (Nat.lt_of_succ_lt hn)).2)

/-- After a first point: the first case's contents; what the point before left does not enter. -/
theorem outsAt_first (c : Dev nD) (t : Fin cfg1.N) (hF : t.val % 8 = 0) :
    outsAt V c t.val t.isLt = (outIdle, accFirst c (grid1.coords t) (ms0 t) (hs0 t) (ms1 t) (hs1 t) (ms2 t) (hs2 t) (ms3 t) (hs3 t) (ms4 t) (hs4 t) acc (Memref.isWhole_whole _) ((isFirst_iff t).mpr hF) (fun h => not_last_of_first hF ((isLast_iff t).mp h)) (iblk V c 0 t) (iblk V c 1 t) (iblk V c 2 t) (iblk V c 3 t)) := by
  obtain ⟨n, hn⟩ := t
  cases n with
  | zero => rfl
  | succ n => exact dif_pos hF

/-- After a last point: the last case's contents over what the point before left. -/
theorem outsAt_last (c : Dev nD) (t : Fin cfg1.N) (hF : ¬t.val % 8 = 0) (hL : t.val % 8 = 7) :
    outsAt V c t.val t.isLt = (outLast c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt V c (t.val - 1) (Nat.lt_of_le_of_lt (Nat.sub_le _ _) t.isLt)).2,
         accLast c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact absurd (Nat.zero_mod _) hF
  | succ n => exact (dif_neg hF).trans ((dif_pos hL).trans rfl)

/-- After a middle point: the middle case's contents over what the point before left. -/
theorem outsAt_mid (c : Dev nD) (t : Fin cfg1.N) (hF : ¬t.val % 8 = 0) (hL : ¬t.val % 8 = 7) :
    outsAt V c t.val t.isLt = (outIdle, accMid c (grid1.coords t) (ms0 t) (hs0 t) (ms1 t) (hs1 t) (ms2 t) (hs2 t) (ms3 t) (hs3 t) (ms4 t) (hs4 t) acc (Memref.isWhole_whole _) (fun h => hF ((isFirst_iff t).mp h)) (fun h => hL ((isLast_iff t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact absurd (Nat.zero_mod _) hF
  | succ n => exact (dif_neg hF).trans ((dif_neg hL).trans rfl)

/-! ## The invariant -/

/-- Before the first point: every buffer that is no staging buffer of this region at anything. After point `n`: the
    accumulator at what that point left, the other such buffers at anything; the generator register at some state throughout. -/
def PhiS (c : Dev nD) : (n : ℕ) → n ≤ cfg1.N → sProp 𝕄
  | 0, _ => Pipeline.ΦA spec1 c
  | n + 1, hn => iprop(rest c (owns (c : Thread nD τ) acc fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(rest c (owns (c : Thread nD τ) acc fullShare ((outsAt V c n hn).2)) ∗ (∃ r, prngReg c r)) := rfl
theorem PhiS_pos (c : Dev nD) (n : ℕ) (h : n ≤ cfg1.N) (hz : n ≠ 0) :
    PhiS V c n h = iprop(rest c (owns (c : Thread nD τ) acc fullShare ((outsAt V c (n - 1) (by omega)).2)) ∗ (∃ r, prngReg c r)) := by
  cases n with
  | zero => exact absurd rfl hz
  | succ n => rfl

/-! ## The proof data -/

/-- The arrays as the region finds them; after the body at a point each input's buffer at its block and the output's
    at the recursion's first component; the invariant above; full shares; nothing owed. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS_castSucc (c : Dev nD) (t : Fin cfg1.N) : (dat1 V c).Φ t.castSucc = PhiS V c t.val (Nat.le_of_lt t.isLt) := by
  dsimp only [dat1]; simp only [Fin.coe_castSucc]
theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = iblk V c 3 t := by dsimp only [dat1]
theorem after_4 (c : Dev nD) (t : Fin cfg1.N) : (dat1 V c).after 4 t = (outsAt V c t.val t.isLt).1 := by dsimp only [dat1]
theorem before_0 (c : Dev nD) (t : Fin cfg1.N) (d) : (dat1 V c).before 0 t d = iblk V c 0 t := before_0_of V (dat1 V c) (A_eq1 V c 0) (after_0 V c) t d
theorem before_1 (c : Dev nD) (t : Fin cfg1.N) (d) : (dat1 V c).before 1 t d = iblk V c 1 t := before_1_of V (dat1 V c) (A_eq1 V c 1) (after_1 V c) t d
theorem before_2 (c : Dev nD) (t : Fin cfg1.N) (d) : (dat1 V c).before 2 t d = iblk V c 2 t := before_2_of V (dat1 V c) (A_eq1 V c 2) (after_2 V c) t d
theorem before_3 (c : Dev nD) (t : Fin cfg1.N) (d) : (dat1 V c).before 3 t d = iblk V c 3 t := before_3_of V (dat1 V c) (A_eq1 V c 3) (after_3 V c) t d

end Cert.Kernel.R1

end
-- ==== Proof.Bits.R1Body.lean ====
/-
  The second matrix product: the obligation that the body, called at any of the sixteen points with the invariant
  before the point and the windows' buffers as the pipeline hands them, runs to its end and gives back the invariant
  after the point and the buffers as the pipeline expects them — by the three cases of the point; and that the
  invariant before the first point is what the region is entered with, and after the last gives that back.
-/
import proofs.«142751_j87144886436114_2_alg».proof.Proof.Bits.R1Vals

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`: the invariant, what the core owes, and each window's current buffer. -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d)))

/-- What it gives back. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- At a point whose contracted block is the first: the accumulator is taken at anything (before the very first
    point from what the region is entered with, later from what the point before left, forgotten) and given back at
    the first case's contents; the output block's buffer is handed back untouched. -/
theorem sound_first (c : Dev nD) (t : Fin cfg1.N) (hF : t.val % 8 = 0) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 (grid1.coords t)], after_0]
  rw [show (dat1 V c).leavesExact 1 t = owns (c : Thread nD τ) (ms1 t) fullShare ((dat1 V c).after 1 t) from by
    unfold Dat.leavesExact; rw [live_1 (grid1.coords t)], after_1]
  rw [show (dat1 V c).leavesExact 2 t = owns (c : Thread nD τ) (ms2 t) fullShare ((dat1 V c).after 2 t) from by
    unfold Dat.leavesExact; rw [live_2 (grid1.coords t)], after_2]
  rw [show (dat1 V c).leavesExact 3 t = owns (c : Thread nD τ) (ms3 t) fullShare ((dat1 V c).after 3 t) from by
    unfold Dat.leavesExact; rw [live_3 (grid1.coords t)], after_3]
  have hL : ¬t.val % 8 = 7 := not_last_of_first hF
  rw [Dat.leavesExact_idle (dat1 V c) 4 t (idle_4 t (fun h => hL ((isLast_iff t).mp h))) (noFlush_4 t (fun h => hL ((isLast_iff t).mp h)))]
  rw [outsAt_first V c t hF]
  unfold accFirst; (try dsimp only)
  by_cases hz : t.val = 0
  · rw [PhiS_castSucc V c t, PhiS_zero V c _ _ hz, PhiA_eq]
    unfold rest
    iintro ⟨⟨⟨O1, O2, O3, O4, O5, O6, O7, O8, O9, HS⟩, Hg⟩, Ho, ⟨%d0, H0⟩, ⟨%d1, H1⟩, ⟨%d2, H2⟩, ⟨%d3, H3⟩, ⟨%d4, H4⟩⟩
    iapply ((runFirst c (grid1.coords t) _ _ _ _ _ _ _ _ _ _ _ _ ((isFirst_iff t).mpr hF) (fun h => hL ((isLast_iff t).mp h)) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [O1 O2 O3 O4 O5 O6 O7 O8 O9 HS Hg]
    · isplitl [O1 O2 O3 O4 O5 O6 O7 O8 O9 HS]
      · isplitl [O1]; · iexact O1
        isplitl [O2]; · iexact O2
        isplitl [O3]; · iexact O3
        isplitl [O4]; · iexact O4
        isplitl [O5]; · iexact O5
        isplitl [O6]; · iexact O6
        isplitl [O7]; · iexact O7
        isplitl [O8]; · iexact O8
        isplitl [O9]; · iexact O9
        unfold owns; iexists _; isplitr
        swap; · iexact HS
        ipureintro; exact View.read_writes_of_cover _ _ _ _ _ (accFirst_cover c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · rw [PhiS_castSucc V c t, PhiS_pos V c _ _ hz]
    unfold rest
    iintro ⟨⟨⟨O1, O2, O3, O4, O5, O6, O7, O8, O9, HS⟩, Hg⟩, Ho, ⟨%d0, H0⟩, ⟨%d1, H1⟩, ⟨%d2, H2⟩, ⟨%d3, H3⟩, ⟨%d4, H4⟩⟩
    iapply ((runFirst c (grid1.coords t) _ _ _ _ _ _ _ _ _ _ _ _ ((isFirst_iff t).mpr hF) (fun h => hL ((isLast_iff t).mp h)) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, H4, ⟨%es, HS⟩⟩
    isplitl [O1 O2 O3 O4 O5 O6 O7 O8 O9 HS Hg]
    · isplitl [O1 O2 O3 O4 O5 O6 O7 O8 O9 HS]
      · isplitl [O1]; · iexact O1
        isplitl [O2]; · iexact O2
        isplitl [O3]; · iexact O3
        isplitl [O4]; · iexact O4
        isplitl [O5]; · iexact O5
        isplitl [O6]; · iexact O6
        isplitl [O7]; · iexact O7
        isplitl [O8]; · iexact O8
        isplitl [O9]; · iexact O9
        unfold owns; iexists _; isplitr
        swap; · iexact HS
        ipureintro; exact View.read_writes_of_cover _ _ _ _ _ (accFirst_cover c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4

set_option maxHeartbeats 4800000 in
/-- At a point whose contracted block is neither first nor last: the accumulator is taken at what the point before
    left and given back at the middle case's contents; the output block's buffer is handed back untouched. -/
theorem sound_mid (c : Dev nD) (t : Fin cfg1.N) (hF : ¬t.val % 8 = 0) (hL : ¬t.val % 8 = 7) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 (grid1.coords t)], after_0]
  rw [show (dat1 V c).leavesExact 1 t = owns (c : Thread nD τ) (ms1 t) fullShare ((dat1 V c).after 1 t) from by
    unfold Dat.leavesExact; rw [live_1 (grid1.coords t)], after_1]
  rw [show (dat1 V c).leavesExact 2 t = owns (c : Thread nD τ) (ms2 t) fullShare ((dat1 V c).after 2 t) from by
    unfold Dat.leavesExact; rw [live_2 (grid1.coords t)], after_2]
  rw [show (dat1 V c).leavesExact 3 t = owns (c : Thread nD τ) (ms3 t) fullShare ((dat1 V c).after 3 t) from by
    unfold Dat.leavesExact; rw [live_3 (grid1.coords t)], after_3]
  have hz : t.val ≠ 0 := fun e => hF (by rw [e])
  rw [Dat.leavesExact_idle (dat1 V c) 4 t (idle_4 t (fun h => hL ((isLast_iff t).mp h))) (noFlush_4 t (fun h => hL ((isLast_iff t).mp h)))]
  rw [outsAt_mid V c t hF hL]
  unfold accMid; (try dsimp only)
  rw [PhiS_castSucc V c t, PhiS_pos V c _ _ hz]
  unfold rest
  iintro ⟨⟨⟨O1, O2, O3, O4, O5, O6, O7, O8, O9, HS⟩, Hg⟩, Ho, ⟨%d0, H0⟩, ⟨%d1, H1⟩, ⟨%d2, H2⟩, ⟨%d3, H3⟩, ⟨%d4, H4⟩⟩
  iapply ((runMid c (grid1.coords t) _ _ _ _ _ _ _ _ _ _ _ _ (fun h => hF ((isFirst_iff t).mp h)) (fun h => hL ((isLast_iff t).mp h)) (iblk V c 0 t) (iblk V c 1 t) (iblk V c 2 t) (iblk V c 3 t) _).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [O1 O2 O3 O4 O5 O6 O7 O8 O9 HS Hg]
  · isplitl [O1 O2 O3 O4 O5 O6 O7 O8 O9 HS]
    · isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      isplitl [O9]; · iexact O9
      unfold owns; iexists _; isplitr
      swap; · iexact HS
      ipureintro; exact View.read_writes_of_cover _ _ _ _ _ (accMid_cover c _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  iexists _; iexact H4

set_option maxHeartbeats 4800000 in
/-- At a point whose contracted block is the last: the accumulator is taken at what the point before left and given
    back at the last case's contents; the output block's buffer, taken at anything, is given back at the copy. -/
theorem sound_last (c : Dev nD) (t : Fin cfg1.N) (hF : ¬t.val % 8 = 0) (hL : t.val % 8 = 7) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 (grid1.coords t)], after_0]
  rw [show (dat1 V c).leavesExact 1 t = owns (c : Thread nD τ) (ms1 t) fullShare ((dat1 V c).after 1 t) from by
    unfold Dat.leavesExact; rw [live_1 (grid1.coords t)], after_1]
  rw [show (dat1 V c).leavesExact 2 t = owns (c : Thread nD τ) (ms2 t) fullShare ((dat1 V c).after 2 t) from by
    unfold Dat.leavesExact; rw [live_2 (grid1.coords t)], after_2]
  rw [show (dat1 V c).leavesExact 3 t = owns (c : Thread nD τ) (ms3 t) fullShare ((dat1 V c).after 3 t) from by
    unfold Dat.leavesExact; rw [live_3 (grid1.coords t)], after_3]
  have hz : t.val ≠ 0 := fun e => hF (by rw [e])
  rw [show (dat1 V c).leavesExact 4 t = owns (c : Thread nD τ) (ms4 t) fullShare ((dat1 V c).after 4 t) from by
    unfold Dat.leavesExact; rw [live_4 t ((isLast_iff t).mpr hL)], after_4]
  rw [outsAt_last V c t hF hL]
  unfold outLast accLast; (try dsimp only)
  rw [PhiS_castSucc V c t, PhiS_pos V c _ _ hz]
  unfold rest
  iintro ⟨⟨⟨O1, O2, O3, O4, O5, O6, O7, O8, O9, HS⟩, Hg⟩, Ho, ⟨%d0, H0⟩, ⟨%d1, H1⟩, ⟨%d2, H2⟩, ⟨%d3, H3⟩, ⟨%d4, H4⟩⟩
  iapply ((runLast c (grid1.coords t) _ _ _ _ _ _ _ _ _ _ _ _ (fun h => hF ((isFirst_iff t).mp h)) ((isLast_iff t).mpr hL) (iblk V c 0 t) (iblk V c 1 t) (iblk V c 2 t) (iblk V c 3 t) _).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [O1 O2 O3 O4 O5 O6 O7 O8 O9 HS Hg]
  · isplitl [O1 O2 O3 O4 O5 O6 O7 O8 O9 HS]
    · isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      isplitl [O9]; · iexact O9
      unfold owns; iexists _; isplitr
      swap; · iexact HS
      ipureintro; exact View.read_writes_of_cover _ _ _ _ _ (accLast_cover c _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outLast_cover c _ _ _ _ _ _ _ _ _ _ _ _ _ _ _ _ _ _ _ _)

/-- The body at any point, by the case the point is in. -/
theorem sound_body (c : Dev nD) (t : Fin cfg1.N) :
    bodyPre V c t ⊢ wp frame (wpE (defs₀ (F := F)) Variants.none c none) Set.univ (bodyAt1 t) (fun _ => bodyPost V c t) := by
  by_cases hF : t.val % 8 = 0
  · exact sound_first V c t hF
  · by_cases hL : t.val % 8 = 7
    · exact sound_last V c t hF hL
    · exact sound_mid V c t hF hL

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the entry form back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_eq]
  unfold rest
  iintro ⟨⟨O1, O2, O3, O4, O5, O6, O7, O8, O9, HS⟩, Hg⟩
  isplitl [O1 O2 O3 O4 O5 O6 O7 O8 O9 HS]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    iexists _; iexact HS
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.Kernel.R1

end
-- ==== Proof.Bits.KRun.lean ====
/-
  The whole program: @main is the first matrix product's region, seven host operations (the column mean of its
  result and a change of float format), the second region, and six host operations (the mean of squares).
  This module follows the buffers' contents through those four segments — each region leaves its windows'
  arrays at what its pipeline writes back and everything else as it found it; each host stretch applies its
  operations — states each region as a segment of the run over its proof data and body obligation, and concludes:
  every weakly fair execution of @main terminates without a fault, every unscoped buffer ending at the last
  segment's contents. The frame claim and the values of the results are both read off that.
-/
import proofs.«142751_j87144886436114_2_alg».proof.Proof.Bits.R0Oblig
import proofs.«142751_j87144886436114_2_alg».proof.Proof.Bits.R1Body
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
abbrev Vin0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (R0.dat0 (Vin0 m ρ) c).arrAt w cfg0.N
theorem W1_arr (c : Dev nD) (w : Fin cfg0.W) :
    W1 m ρ c (Proc.devRef .tc (Pipeline.arrRef spec0 w)) = (R0.dat0 (Vin0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vout0 : (c : Dev nD) → (b : Ref sig .tc) → Buf (Elt F) ((c : Thread nD τ).loc b) := fun c b => W1 m ρ c b
theorem hF0 (c : Dev nD) (w : Fin cfg0.W) : (R0.dat0 (Vin0 m ρ) c).arrAt w cfg0.N = Vout0 m ρ c (Pipeline.arrRef spec0 w) :=
  (W1_arr m ρ c w).symm
theorem hrest0 (c : Dev nD) : ∀ b, b ∉ Finset.univ.image (Pipeline.arrRef spec0) → Vout0 m ρ c b = Vin0 m ρ c b :=
  fun b hb => W1_of_ne m ρ c b fun w e => hb (Finset.mem_image.mpr ⟨w, Finset.mem_univ _, e⟩)

/-- After the first host stretch. -/
abbrev W2 : Dev nD → Valuation τ sig (Elt F) := fun c => StableHlo.after hostOps1 (W1 m ρ c)
abbrev Vin1 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (R1.dat1 (Vin1 m ρ) c).arrAt w cfg1.N
theorem W3_arr (c : Dev nD) (w : Fin cfg1.W) :
    W3 m ρ c (Proc.devRef .tc (Pipeline.arrRef spec1 w)) = (R1.dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vout1 : (c : Dev nD) → (b : Ref sig .tc) → Buf (Elt F) ((c : Thread nD τ).loc b) := fun c b => W3 m ρ c b
theorem hF1 (c : Dev nD) (w : Fin cfg1.W) : (R1.dat1 (Vin1 m ρ) c).arrAt w cfg1.N = Vout1 m ρ c (Pipeline.arrRef spec1 w) :=
  (W3_arr m ρ c w).symm
theorem hrest1 (c : Dev nD) : ∀ b, b ∉ Finset.univ.image (Pipeline.arrRef spec1) → Vout1 m ρ c b = Vin1 m ρ c b :=
  fun b hb => W3_of_ne m ρ c b fun w e => hb (Finset.mem_image.mpr ⟨w, Finset.mem_univ _, e⟩)
/-- After the second host stretch: the end. -/
abbrev W4 : Dev nD → Valuation τ sig (Elt F) := fun c => StableHlo.after hostOps2 (W3 m ρ c)

/-! ## The proof data family and what rides along -/

abbrev adm : (p : Fin 2) → (pcfgs (F := F) p).Adm := fun p => (cfgs p).toPCfg_adm
/-- Each region's proof data at its entry contents: a literal match on the region. -/
def pdats : (p : Fin 2) → (c : Dev nD) → Dat τ (Elt F) Unit ℕ (UR sig nD τ) ℕ (Pipeline.pin (pcfgs (F := F)) adm p) c
  | ⟨0, _⟩ => fun c => R0.dat0 (Vin0 m ρ) c
  | ⟨1, _⟩ => fun c => R1.dat1 (Vin1 m ρ) c
abbrev 𝒱₀ : Variants := Variants.none
abbrev L : GSem nD τ sig → Finset Unit := fun _ => ∅
abbrev lv : GSem nD τ sig → Unit → ℕ := fun _ _ => 0
/-- Beside the buffers, through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No operation of either host stretch allocates a buffer. -/
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W0`, left at `W1`. Its arrays are
    split out of the unscoped buffers and put back at what the pipeline leaves; the generator register goes into
    the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (Vin0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from R0.hout0 (Vin0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at what the pipeline leaves; the generator register goes into
    the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (Vin1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from R1.hout1 (Vin1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub ops1_fresh (W1 m ρ)),
    .region (reg1 m ρ),
    .host (hseg hostOps2 hostOps2_sub ops2_fresh (W3 m ρ)) ]
theorem main_run (c : Dev nD) : main (F := F) c = Pipeline.Seg.run (segs m ρ) := (main_chain c).trans (by chain_rfl)

set_option backward.isDefEq.respectTransparency.types false in
/-- Every weakly fair execution of @main from memory `m` with zero counters terminates without a fault, and every
    final state holds every unscoped buffer of every core at the last segment's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Run

end
-- ==== Proof.Bits.KFrame.lean ====
/-
  The frame claim read off the run: at the end every unscoped buffer holds the last segment's contents, and an
  argument's contents there are its launch contents — followed back through the six and the seven host operations,
  none of which writes an argument, and through the two regions, each of which either stages the argument as an
  input window (whose array the pipeline leaves as it found it) or does not touch it.
-/
import proofs.«142751_j87144886436114_2_alg».proof.Proof.Bits.KRun
import proofs.«142751_j87144886436114_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host operation writes it, and each region either stages it as an input or leaves it alone. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ Cert.Kernel.Gen.hostOps2_writes (r := main_arg0) (by decide)
    _ = W2 m ρ c (Proc.devRef .tc main_arg0) := (W3_arr m ρ c 1).trans (((R1.dat1 (Vin1 m ρ) c).arrAt_in 1 rfl _).trans (R1.A_eq1 (Vin1 m ρ) c 1))
    _ = W1 m ρ c (Proc.devRef .tc main_arg0) := StableHlo.after_of_writes_sub hostOps1 _ Cert.Kernel.Gen.hostOps1_writes (r := main_arg0) (by decide)
    _ = W0 m ρ c (Proc.devRef .tc main_arg0) := (W1_arr m ρ c 0).trans (((R0.dat0 (Vin0 m ρ) c).arrAt_in 0 rfl _).trans (R0.A_eq0 (Vin0 m ρ) c 0))
    _ = m ((c : Thread nD τ).loc main_arg0) := rfl

/-- `main_arg1` ends as launched: no host operation writes it, and each region either stages it as an input or leaves it alone. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ Cert.Kernel.Gen.hostOps2_writes (r := main_arg1) (by decide)
    _ = W2 m ρ c (Proc.devRef .tc main_arg1) := W3_of_ne m ρ c main_arg1 (by decide)
    _ = W1 m ρ c (Proc.devRef .tc main_arg1) := StableHlo.after_of_writes_sub hostOps1 _ Cert.Kernel.Gen.hostOps1_writes (r := main_arg1) (by decide)
    _ = W0 m ρ c (Proc.devRef .tc main_arg1) := (W1_arr m ρ c 2).trans (((R0.dat0 (Vin0 m ρ) c).arrAt_in 2 rfl _).trans (R0.A_eq0 (Vin0 m ρ) c 2))
    _ = m ((c : Thread nD τ).loc main_arg1) := rfl

/-- `main_arg2` ends as launched: no host operation writes it, and each region either stages it as an input or leaves it alone. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ Cert.Kernel.Gen.hostOps2_writes (r := main_arg2) (by decide)
    _ = W2 m ρ c (Proc.devRef .tc main_arg2) := (W3_arr m ρ c 2).trans (((R1.dat1 (Vin1 m ρ) c).arrAt_in 2 rfl _).trans (R1.A_eq1 (Vin1 m ρ) c 2))
    _ = W1 m ρ c (Proc.devRef .tc main_arg2) := StableHlo.after_of_writes_sub hostOps1 _ Cert.Kernel.Gen.hostOps1_writes (r := main_arg2) (by decide)
    _ = W0 m ρ c (Proc.devRef .tc main_arg2) := (W1_arr m ρ c 1).trans (((R0.dat0 (Vin0 m ρ) c).arrAt_in 1 rfl _).trans (R0.A_eq0 (Vin0 m ρ) c 1))
    _ = m ((c : Thread nD τ).loc main_arg2) := rfl

/-- Every weakly fair execution of @main terminates without a fault and ends with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Run

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.HostGlue.lean ====
/-
  The two stretches of host operations, read at an entry.

  Between the two regions the host takes the pre-activation P (a 1024 × 2048 matrix) the first region
  left and forms, for every column j, the batch mean  (0 + ∑ b, P (b, j)) / 1024  as a 2048 × 1 column,
  and a narrowed copy of P; at the exact values the narrowing is the identity, so the copy is P itself.
  After the second region the host takes what it left, Q, and forms the mean square
  (0 + ∑ i, Q i · Q i) / 2097152  and a zero. Neither stretch touches the program's arguments.
  Everything is stated over an arbitrary valuation of the buffers before the stretch.
-/
import proofs.«142751_j87144886436114_2_alg».proof.Proof.Gen.KernelIdeal.Launch
import proofs.«142751_j87144886436114_2_alg».proof.Proof.LibColumns
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Glue

open Cert.KernelIdeal Cert.KernelIdeal.Gen Idealize.ShloMosaic Idealize.ShloMosaic.TcCoe Idealize.SL.Sem
  Idealize.ShloMosaic.StableHlo Idealize.ShloMosaic.ValueIdx

variable (U : Valuation τ sig (Elt Ideal))

/-- What the buffers hold for the pre-activation, as a matrix of extended reals. -/
abbrev preAct : S1024x2048.Idx → EReal := U (Proc.devRef .tc main_v0)
/-- What the buffers hold for the second region's result, as a matrix of extended reals. -/
abbrev change : S1024x2048.Idx → EReal := U (Proc.devRef .tc main_v6)

/-! ## Between the regions -/

/-- The narrowed copy of the pre-activation is the pre-activation. -/
theorem hostOps1_main_v5 :
    (StableHlo.after (hostOps1 (F := Ideal)) U (Proc.devRef .tc main_v5) : S1024x2048.Idx → EReal)
      = preAct U := by
  after_results
  rfl

/-- The column of batch means, as the operations' term. -/
theorem hostOps1_main_v4 :
    (StableHlo.after (hostOps1 (F := Ideal)) U (Proc.devRef .tc main_v4) : S2048x1.Idx → EReal)
      = shapeCast S2048x1
          (Host.divf (F := Ideal)
            (Host.reduceAdd (F := Ideal) (U (Proc.devRef .tc main_v0) : FVec Ideal S1024x2048 .f32) (constant (F := Ideal) S_ .f32 0x00000000#32)
              reducesTo_S1024x2048_S2048_d0 h_S_)
            (broadcastInDim S2048 ![] bcast_S_S2048 (constant (F := Ideal) S_ .f32 0x44800000#32)))
          shapeCasts_S2048_S2048x1 := by
  after_results
  rfl

/-- The batch mean of column `j`: the pre-activation summed over the batch from the zero word, over the word of 1024. -/
theorem hostOps1_main_v4_apply (j : Fin 2048) :
    (StableHlo.after (hostOps1 (F := Ideal)) U (Proc.devRef .tc main_v4) : S2048x1.Idx → EReal) (ix2 j (0 : Fin 1))
      = Ideal.div (Ideal.ofBits .f32 0x00000000#32 + ∑ b : Fin 1024, preAct U (ix2 b j))
          (Ideal.ofBits .f32 0x44800000#32) := by
  refine (congrFun (hostOps1_main_v4 U) _).trans ?_
  refine (Cert.Columns.shapeCast_a_a1_apply _ _ j 0).trans ?_
  show Ideal.div _ _ = _
  refine congrArg₂ Ideal.div ?_ ?_
  · simp only [Host.reduceAdd, Ideal.hostReduceAdd_def]
    rw [Ideal.hostReduceAdd_single reducesTo_S1024x2048_S2048_d0 (by decide)]
    refine congrArg₂ (· + ·) rfl (Finset.sum_congr rfl fun k _ => ?_)
    exact congrArg _ (funext fun a => Fin.ext (by match a with | ⟨0, _⟩ => rfl | ⟨1, _⟩ => rfl))
  · exact broadcastInDim_apply _ bcast_S_S2048 _ (ix1 j) ix0 (fun a => a.elim0)

/-- The same with the zero word read as the number zero. -/
theorem hostOps1_main_v4_apply_zero (j : Fin 2048) :
    (StableHlo.after (hostOps1 (F := Ideal)) U (Proc.devRef .tc main_v4) : S2048x1.Idx → EReal) (ix2 j (0 : Fin 1))
      = Ideal.div (0 + ∑ b : Fin 1024, preAct U (ix2 b j))
          (Ideal.ofBits .f32 0x44800000#32) := by
  rw [hostOps1_main_v4_apply, Ideal.ofBits_zero_f32]

/-- The stretch leaves the inputs, -/
theorem hostOps1_main_arg0 :
    StableHlo.after (hostOps1 (F := Ideal)) U (Proc.devRef .tc main_arg0) = U (Proc.devRef .tc main_arg0) := by
  after_results
/-- the drive, -/
theorem hostOps1_main_arg1 :
    StableHlo.after (hostOps1 (F := Ideal)) U (Proc.devRef .tc main_arg1) = U (Proc.devRef .tc main_arg1) := by
  after_results
/-- the weights -/
theorem hostOps1_main_arg2 :
    StableHlo.after (hostOps1 (F := Ideal)) U (Proc.devRef .tc main_arg2) = U (Proc.devRef .tc main_arg2) := by
  after_results
/-- and the pre-activation as they were. -/
theorem hostOps1_main_v0 :
    StableHlo.after (hostOps1 (F := Ideal)) U (Proc.devRef .tc main_v0) = U (Proc.devRef .tc main_v0) := by
  after_results

/-! ## After the second region -/

/-- The mean square, as the operations' term. -/
theorem hostOps2_main_v9 :
    (StableHlo.after (hostOps2 (F := Ideal)) U (Proc.devRef .tc main_v9) : S_.Idx → EReal)
      = Host.divf (F := Ideal)
          (Host.reduceAdd (F := Ideal)
            (mulf (U (Proc.devRef .tc main_v6) : FVec Ideal S1024x2048 .f32) (U (Proc.devRef .tc main_v6) : FVec Ideal S1024x2048 .f32))
            (constant (F := Ideal) S_ .f32 0x00000000#32) reducesTo_S1024x2048_S_d0_1 h_S_)
          (constant (F := Ideal) S_ .f32 0x4A000000#32) := by
  after_results

/-- The mean square: the squares of every entry summed from the zero word, over the word of 2097152. -/
theorem hostOps2_main_v9_apply (i : S_.Idx) :
    (StableHlo.after (hostOps2 (F := Ideal)) U (Proc.devRef .tc main_v9) : S_.Idx → EReal) i
      = Ideal.div (Ideal.ofBits .f32 0x00000000#32
            + ∑ k : S1024x2048.Idx, change U k * change U k)
          (Ideal.ofBits .f32 0x4A000000#32) := by
  refine (congrFun (hostOps2_main_v9 U) _).trans ?_
  show Ideal.div _ _ = _
  refine congrArg₂ Ideal.div ?_ rfl
  simp only [Host.reduceAdd, Ideal.hostReduceAdd_def]
  exact Ideal.hostReduceAdd_total reducesTo_S1024x2048_S_d0_1 (fun b => b.elim0) _ _ i

/-- The same with the sum taken row by row and the zero word read as the number zero. -/
theorem hostOps2_main_v9_apply_zero (i : S_.Idx) :
    (StableHlo.after (hostOps2 (F := Ideal)) U (Proc.devRef .tc main_v9) : S_.Idx → EReal) i
      = Ideal.div (0 + ∑ b : Fin 1024, ∑ j : Fin 2048,
            change U (ix2 b j) * change U (ix2 b j))
          (Ideal.ofBits .f32 0x4A000000#32) := by
  rw [hostOps2_main_v9_apply, Ideal.ofBits_zero_f32, sum_idx2]

/-- The last result is the zero splat. -/
theorem hostOps2_main_cst_3 :
    (StableHlo.after (hostOps2 (F := Ideal)) U (Proc.devRef .tc main_cst_3) : S_.Idx → EReal)
      = constant (F := Ideal) S_ .f32 0x00000000#32 := by
  after_results

/-- The stretch leaves the pre-activation -/
theorem hostOps2_main_v0 :
    StableHlo.after (hostOps2 (F := Ideal)) U (Proc.devRef .tc main_v0) = U (Proc.devRef .tc main_v0) := by
  after_results
/-- and what the second region left as they were. -/
theorem hostOps2_main_v6 :
    StableHlo.after (hostOps2 (F := Ideal)) U (Proc.devRef .tc main_v6) = U (Proc.devRef .tc main_v6) := by
  after_results

end Cert.KernelIdeal.Glue

end
-- ==== Proof.Embed.lean ====
/-
  Real arrays inside the extended reals.

  The programs compute on extended reals; the mathematics (Spec.lean) is over the reals. This module
  holds the bridge vocabulary: a rank-2 real array read as an array of extended reals, the fact that
  the coercion ℝ → [-∞, +∞] commutes with finite sums (it is additive and multiplicative on reals),
  and the real values of the four float literals the programs use.
-/
import Idealize.ShloMosaic.Lib.ValueIdx
import Idealize.ShloMosaic.PureOps.Ideal.Laws

noncomputable section

namespace Cert.Hebb

open Idealize.ShloMosaic

/-- A real matrix as an array of extended reals over the rank-2 index set. -/
def emb2 {n0 n1 : Nat} (f : Fin n0 → Fin n1 → ℝ) : (⟨2, ![n0, n1]⟩ : Shape).Idx → EReal :=
  fun i => ((f (i 0) (i 1) : ℝ) : EReal)

theorem emb2_apply {n0 n1 : Nat} (f : Fin n0 → Fin n1 → ℝ) (i : (⟨2, ![n0, n1]⟩ : Shape).Idx) :
    emb2 f i = ((f (i 0) (i 1) : ℝ) : EReal) := rfl

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is the coercion of the real sum of products. -/
theorem sum_coe_mul_coe {ι : Type*} [Fintype ι] (f g : ι → ℝ) :
    ∑ k, (f k : EReal) * (g k : EReal) = ((∑ k, f k * g k : ℝ) : EReal) := by
  rw [coe_sum]
  exact Finset.sum_congr rfl fun k _ => (EReal.coe_mul _ _).symm

/-- A finite sum of real entries is the coercion of the real sum. -/
theorem sum_coe {ι : Type*} [Fintype ι] (f : ι → ℝ) :
    ∑ k, (f k : EReal) = ((∑ k, f k : ℝ) : EReal) := (coe_sum _ _).symm

/-- Dividing a real by a nonzero real, in the extended reals, is the real quotient. -/
theorem div_coe_coe (a : ℝ) {y : ℝ} (h : y ≠ 0) : Ideal.div (a : EReal) (y : EReal) = ((a / y : ℝ) : EReal) := by
  rw [Ideal.div_coe h, ← EReal.coe_mul, mul_one_div]

/-! ## The float literals -/

/-- The step size: the real number the word 0x3C23D70A denotes, 10737418 · 2⁻³⁰ (the binary32 number
    nearest 0.01). -/
def stepSize : ℝ := 10737418 / 2 ^ 30

theorem ofBits_stepSize : Ideal.ofBits .f32 0x3C23D70A#32 = (stepSize : EReal) := by
  simp [Ideal.ofBits, Ideal.ieee, -EReal.coe_mul, stepSize]; norm_num

/-- The word 0x44800000 denotes 1024. -/
theorem ofBits_1024 : Ideal.ofBits .f32 0x44800000#32 = ((1024 : ℝ) : EReal) := by
  simp [Ideal.ofBits, Ideal.ieee, -EReal.coe_mul]; norm_num

/-- The word 0x4A000000 denotes 2097152 = 2²¹. -/
theorem ofBits_2097152 : Ideal.ofBits .f32 0x4A000000#32 = ((2097152 : ℝ) : EReal) := by
  simp [Ideal.ofBits, Ideal.ieee, -EReal.coe_mul]; norm_num

end Cert.Hebb

end
-- ==== Proof.Spec.lean ====
/-
  The mathematics of the certificate, over the real numbers and with no program in sight.

  One step of a Hebbian-style weight update followed by a "how much did the layer's output move"
  loss. With  x : 1024 × 4096  (inputs),  d : 1024 × 2048  (an additive drive),
  w : 2048 × 4096  (weights) and a real step size  c :

    pre  b j = (Σ e, x b e · w j e) + d b j                      the pre-activation
    mean j   = (Σ b, pre b j) / 1024                             its batch mean
    dl   j e = ((Σ b, pre b j · x b e) · (1/1024) − mean j · w j e) · c     the weight increment
    diff b j = Σ e, x b e · dl j e                               the change of  x·wᵀ  the increment causes
    loss     = (Σ b, Σ j, diff b j · diff b j) / 2097152         its mean square  (2097152 = 1024 · 2048)

  That is the order in which one side computes. The other side forms the new weights first and
  only then subtracts:

    rv1  b j = Σ e, x b e · w j e
    rpre b j = d b j + rv1 b j
    rd   j e = (Σ b, rpre b j · x b e) / 1024
    rmean j  = (Σ b, rpre b j) / 1024
    rinc j e = rd j e − rmean j · w j e
    wnew j e = w j e + c · rinc j e
    post b j = Σ e, x b e · wnew j e
    rloss2   = (Σ b, Σ j, (rv1 b j − post b j)²) / 2097152
    rloss3   = (Σ b, Σ j, ((d b j + rv1 b j) − (d b j + post b j))²) / 2097152

  Over the reals the two orders agree (SpecLaw.lean): a sum is linear, so
  rv1 − post = −Σ e, x · (c · rinc) = −diff, whose square is diff's; and the d's cancel.
-/
import Mathlib.Data.Real.Basic
import Mathlib.Algebra.BigOperators.Ring.Finset
import Mathlib.Algebra.BigOperators.Fin

noncomputable section

namespace Cert.Hebb

variable (x : Fin 1024 → Fin 4096 → ℝ) (d : Fin 1024 → Fin 2048 → ℝ) (w : Fin 2048 → Fin 4096 → ℝ)
  (c : ℝ)

/-! ## The first order: increment first, then its effect -/

/-- The pre-activation: the layer's output plus the drive. -/
def pre (b : Fin 1024) (j : Fin 2048) : ℝ := (∑ e : Fin 4096, x b e * w j e) + d b j

/-- The batch mean of the pre-activation. -/
def mean (j : Fin 2048) : ℝ := (∑ b : Fin 1024, pre x d w b j) / 1024

/-- The weight increment: step size times (batch-averaged outer product minus mean-scaled weight). -/
def dl (j : Fin 2048) (e : Fin 4096) : ℝ :=
  ((∑ b : Fin 1024, pre x d w b j * x b e) * (1 / 1024) - mean x d w j * w j e) * c

/-- The change of the layer's output that the increment causes. -/
def diff (b : Fin 1024) (j : Fin 2048) : ℝ := ∑ e : Fin 4096, x b e * dl x d w c j e

/-- The mean square of that change. -/
def loss : ℝ := (∑ b : Fin 1024, ∑ j : Fin 2048, diff x d w c b j * diff x d w c b j) / 2097152

/-! ## The second order: new weights first, then the difference of the two outputs -/

/-- The layer's output under the old weights. -/
def rv1 (b : Fin 1024) (j : Fin 2048) : ℝ := ∑ e : Fin 4096, x b e * w j e

/-- The pre-activation, drive first. -/
def rpre (b : Fin 1024) (j : Fin 2048) : ℝ := d b j + rv1 x w b j

/-- The batch-averaged outer product of pre-activation and input. -/
def rd (j : Fin 2048) (e : Fin 4096) : ℝ := (∑ b : Fin 1024, rpre x d w b j * x b e) / 1024

/-- The batch mean of the pre-activation. -/
def rmean (j : Fin 2048) : ℝ := (∑ b : Fin 1024, rpre x d w b j) / 1024

/-- The increment before the step size. -/
def rinc (j : Fin 2048) (e : Fin 4096) : ℝ := rd x d w j e - rmean x d w j * w j e

/-- The new weights. -/
def wnew (j : Fin 2048) (e : Fin 4096) : ℝ := w j e + c * rinc x d w j e

/-- The layer's output under the new weights. -/
def post (b : Fin 1024) (j : Fin 2048) : ℝ := ∑ e : Fin 4096, x b e * wnew x d w c j e

/-- Mean square of (old output − new output). -/
def rloss2 : ℝ :=
  (∑ b : Fin 1024, ∑ j : Fin 2048,
    (rv1 x w b j - post x d w c b j) * (rv1 x w b j - post x d w c b j)) / 2097152

/-- Mean square of (old pre-activation − new pre-activation). -/
def rloss3 : ℝ :=
  (∑ b : Fin 1024, ∑ j : Fin 2048,
    ((d b j + rv1 x w b j) - (d b j + post x d w c b j)) *
      ((d b j + rv1 x w b j) - (d b j + post x d w c b j))) / 2097152

end Cert.Hebb

end
-- ==== Proof.KernelAlg.lean ====
/-
  The first order of Spec.lean, computed in the extended reals on real inputs.

  Take the formulas of the first order (pre-activation, batch mean, weight increment, the change of
  the output, its mean square) and write them with the extended reals' own sum, product, difference
  and quotient, the inputs being real arrays read inside the extended reals. Every step keeps us
  among the reals: a product or sum of (coercions of) reals is the coercion of the real product or
  sum, and a quotient by the real 1024 or 2097152 is the real quotient. So each formula's value is
  the coercion of the corresponding function of Spec.lean. The literals: 0x3A800000 is 2⁻¹⁰ = 1/1024,
  0x44800000 is 1024, 0x4A000000 is 2²¹ = 2097152, 0x3C23D70A is the step size, and the zero word is 0.
-/
import proofs.«142751_j87144886436114_2_alg».proof.Proof.Embed
import proofs.«142751_j87144886436114_2_alg».proof.Proof.Spec

noncomputable section

namespace Cert.Hebb

open Idealize.ShloMosaic Idealize.ShloMosaic.ValueIdx

/-- The word 0x3A800000 denotes 2⁻¹⁰ = 1/1024. -/
theorem ofBits_inv1024 : Ideal.ofBits .f32 0x3A800000#32 = ((1 / 1024 : ℝ) : EReal) := by
  simp [Ideal.ofBits, Ideal.ieee, -EReal.coe_mul]; norm_num

/-- A double sum of real entries is the coercion of the real double sum. -/
theorem sum_sum_coe {ι κ : Type*} [Fintype ι] [Fintype κ] (f : ι → κ → ℝ) :
    ∑ a, ∑ b, (f a b : EReal) = ((∑ a, ∑ b, f a b : ℝ) : EReal) := by
  rw [coe_sum]
  exact Finset.sum_congr rfl fun a _ => sum_coe (f a)

/-- A double sum of squares of real entries is the coercion of the real double sum of squares. -/
theorem sum_sum_coe_mul_self {ι κ : Type*} [Fintype ι] [Fintype κ] (f : ι → κ → ℝ) :
    ∑ a, ∑ b, (f a b : EReal) * (f a b : EReal) = ((∑ a, ∑ b, f a b * f a b : ℝ) : EReal) := by
  rw [← sum_sum_coe fun a b => f a b * f a b]
  exact Finset.sum_congr rfl fun a _ => Finset.sum_congr rfl fun b _ => (EReal.coe_mul _ _).symm

/-- The sum over a rank-2 index set of squares of real entries is the coercion of the real double sum. -/
theorem sum_idx2_emb2_mul_self {n0 n1 : Nat} (f : Fin n0 → Fin n1 → ℝ) :
    ∑ k : (⟨2, ![n0, n1]⟩ : Shape).Idx, emb2 f k * emb2 f k = ((∑ a, ∑ b, f a b * f a b : ℝ) : EReal) :=
  (sum_idx2 _).trans (sum_sum_coe_mul_self f)

variable (x : Fin 1024 → Fin 4096 → ℝ) (d : Fin 1024 → Fin 2048 → ℝ) (w : Fin 2048 → Fin 4096 → ℝ)

/-! ## (a) the pre-activation -/

theorem pre_formula (p : Fin 1024) (q : Fin 2048) :
    (∑ e : Fin 4096, emb2 x (ix2 p e) * emb2 w (ix2 q e)) + emb2 d (ix2 p q) = ((pre x d w p q : ℝ) : EReal) := by
  show (∑ e : Fin 4096, ((x p e : ℝ) : EReal) * ((w q e : ℝ) : EReal)) + ((d p q : ℝ) : EReal) = _
  rw [sum_coe_mul_coe (fun e => x p e) (fun e => w q e), ← EReal.coe_add]
  rfl

/-! ## (b) the batch mean -/

theorem mean_formula (j : Fin 2048) :
    Ideal.div (0 + ∑ b : Fin 1024, ((pre x d w b j : ℝ) : EReal)) (Ideal.ofBits .f32 0x44800000#32)
      = ((mean x d w j : ℝ) : EReal) := by
  rw [zero_add, sum_coe (fun b => pre x d w b j), ofBits_1024]
  exact div_coe_coe _ (by norm_num)

/-- The same with the sum started at the zero word. -/
theorem mean_formula_zeroWord (j : Fin 2048) :
    Ideal.div (Ideal.ofBits .f32 0x00000000#32 + ∑ b : Fin 1024, ((pre x d w b j : ℝ) : EReal))
        (Ideal.ofBits .f32 0x44800000#32)
      = ((mean x d w j : ℝ) : EReal) := by
  rw [Ideal.ofBits_zero_f32]
  exact mean_formula x d w j

/-! ## (c) the weight increment and the change of the output it causes -/

theorem dl_formula (j : Fin 2048) (e : Fin 4096) :
    ((∑ b : Fin 1024, ((pre x d w b j : ℝ) : EReal) * emb2 x (ix2 b e)) * Ideal.ofBits .f32 0x3A800000#32
        - ((mean x d w j : ℝ) : EReal) * emb2 w (ix2 j e)) * Ideal.ofBits .f32 0x3C23D70A#32
      = ((dl x d w stepSize j e : ℝ) : EReal) := by
  show ((∑ b : Fin 1024, ((pre x d w b j : ℝ) : EReal) * ((x b e : ℝ) : EReal)) * Ideal.ofBits .f32 0x3A800000#32
        - ((mean x d w j : ℝ) : EReal) * ((w j e : ℝ) : EReal)) * Ideal.ofBits .f32 0x3C23D70A#32 = _
  rw [sum_coe_mul_coe (fun b => pre x d w b j) (fun b => x b e), ofBits_inv1024, ofBits_stepSize,
    ← EReal.coe_mul, ← EReal.coe_mul, ← EReal.coe_sub, ← EReal.coe_mul]
  rfl

theorem diff_formula (p : Fin 1024) (j : Fin 2048) :
    (∑ e : Fin 4096, emb2 x (ix2 p e) *
        (((∑ b : Fin 1024, ((pre x d w b j : ℝ) : EReal) * emb2 x (ix2 b e)) * Ideal.ofBits .f32 0x3A800000#32
          - ((mean x d w j : ℝ) : EReal) * emb2 w (ix2 j e)) * Ideal.ofBits .f32 0x3C23D70A#32))
      = ((diff x d w stepSize p j : ℝ) : EReal) := by
  refine (Finset.sum_congr rfl fun e _ => congrArg (emb2 x (ix2 p e) * ·) (dl_formula x d w j e)).trans ?_
  exact sum_coe_mul_coe (fun e => x p e) (fun e => dl x d w stepSize j e)

/-- The same with a leading  0 + . -/
theorem diff_formula_zero_add (p : Fin 1024) (j : Fin 2048) :
    0 + (∑ e : Fin 4096, emb2 x (ix2 p e) *
        (((∑ b : Fin 1024, ((pre x d w b j : ℝ) : EReal) * emb2 x (ix2 b e)) * Ideal.ofBits .f32 0x3A800000#32
          - ((mean x d w j : ℝ) : EReal) * emb2 w (ix2 j e)) * Ideal.ofBits .f32 0x3C23D70A#32))
      = ((diff x d w stepSize p j : ℝ) : EReal) := by
  rw [zero_add]
  exact diff_formula x d w p j

/-- The same with the sum started at the zero word. -/
theorem diff_formula_zeroWord (p : Fin 1024) (j : Fin 2048) :
    Ideal.ofBits .f32 0x00000000#32 + (∑ e : Fin 4096, emb2 x (ix2 p e) *
        (((∑ b : Fin 1024, ((pre x d w b j : ℝ) : EReal) * emb2 x (ix2 b e)) * Ideal.ofBits .f32 0x3A800000#32
          - ((mean x d w j : ℝ) : EReal) * emb2 w (ix2 j e)) * Ideal.ofBits .f32 0x3C23D70A#32))
      = ((diff x d w stepSize p j : ℝ) : EReal) := by
  rw [Ideal.ofBits_zero_f32]
  exact diff_formula_zero_add x d w p j

/-! ## (d) the mean square -/

theorem loss_formula :
    Ideal.div (0 + ∑ b : Fin 1024, ∑ j : Fin 2048,
        ((diff x d w stepSize b j : ℝ) : EReal) * ((diff x d w stepSize b j : ℝ) : EReal))
      (Ideal.ofBits .f32 0x4A000000#32)
      = ((loss x d w stepSize : ℝ) : EReal) := by
  rw [zero_add, sum_sum_coe_mul_self (fun b j => diff x d w stepSize b j), ofBits_2097152]
  exact div_coe_coe _ (by norm_num)

/-- The same with the sum started at the zero word. -/
theorem loss_formula_zeroWord :
    Ideal.div (Ideal.ofBits .f32 0x00000000#32 + ∑ b : Fin 1024, ∑ j : Fin 2048,
        ((diff x d w stepSize b j : ℝ) : EReal) * ((diff x d w stepSize b j : ℝ) : EReal))
      (Ideal.ofBits .f32 0x4A000000#32)
      = ((loss x d w stepSize : ℝ) : EReal) := by
  rw [Ideal.ofBits_zero_f32]
  exact loss_formula x d w

/-- The same with the sum taken over the rank-2 index set in one go. -/
theorem loss_formula_idx :
    Ideal.div (0 + ∑ k : (⟨2, ![1024, 2048]⟩ : Shape).Idx,
        emb2 (diff x d w stepSize) k * emb2 (diff x d w stepSize) k)
      (Ideal.ofBits .f32 0x4A000000#32)
      = ((loss x d w stepSize : ℝ) : EReal) := by
  rw [zero_add, sum_idx2_emb2_mul_self (diff x d w stepSize), ofBits_2097152]
  exact div_coe_coe _ (by norm_num)

/-- … and started at the zero word. -/
theorem loss_formula_idx_zeroWord :
    Ideal.div (Ideal.ofBits .f32 0x00000000#32 + ∑ k : (⟨2, ![1024, 2048]⟩ : Shape).Idx,
        emb2 (diff x d w stepSize) k * emb2 (diff x d w stepSize) k)
      (Ideal.ofBits .f32 0x4A000000#32)
      = ((loss x d w stepSize : ℝ) : EReal) := by
  rw [Ideal.ofBits_zero_f32]
  exact loss_formula_idx x d w

end Cert.Hebb

end
-- ==== Proof.KValue.lean ====
/-
  The kernel's three results on real inputs.

  The run leaves every buffer at the contents of the last of four segments: the first region (which
  writes the pre-activation), a stretch of host operations (the batch mean of each column, and a copy
  of the pre-activation), the second region (which writes the change of the layer's output that the
  weight increment causes), and a last stretch of host operations (the mean square of that change,
  and a zero). Walk each result back through the segments: a stretch that does not write a buffer
  leaves it, a region that does not stage a buffer leaves it, a region's input array is left as it
  was found, and a region's output array is what the region computes — which is taken here as a
  hypothesis, one per region, in the form "entry (p, q) of the output is this expression in the
  entries of the region's input arrays". When the three arguments are real arrays the expressions
  take the values of Spec.lean's first order (KernelAlg.lean): the pre-activation, and the loss.
-/
import proofs.«142751_j87144886436114_2_alg».proof.Proof.KRun
import proofs.«142751_j87144886436114_2_alg».proof.Proof.HostGlue
import proofs.«142751_j87144886436114_2_alg».proof.Proof.KernelAlg

set_option maxRecDepth 16384

noncomputable section

namespace Cert.KernelIdeal.Value

open Cert.KernelIdeal Cert.KernelIdeal.Gen Cert.KernelIdeal.Run
open Idealize.ShloMosaic Idealize.ShloMosaic.TcCoe Idealize.SL.Sem Idealize.ShloMosaic.ValueIdx

/-! ## The formulas over arrays that are real arrays -/

section Formulas

variable (x : Fin 1024 → Fin 4096 → ℝ) (d : Fin 1024 → Fin 2048 → ℝ) (w : Fin 2048 → Fin 4096 → ℝ)

/-- The pre-activation's expression over arrays equal to the real inputs. -/
theorem pre_formula_of (A0 : S1024x4096.Idx → EReal) (A1 : S1024x2048.Idx → EReal) (A2 : S2048x4096.Idx → EReal)
    (h0 : A0 = Hebb.emb2 x) (h1 : A1 = Hebb.emb2 d) (h2 : A2 = Hebb.emb2 w) (p : Fin 1024) (q : Fin 2048) :
    (∑ e : Fin 4096, A0 (ix2 p e) * A2 (ix2 q e)) + A1 (ix2 p q) = ((Hebb.pre x d w p q : ℝ) : EReal) := by
  subst h0 h1 h2
  exact Hebb.pre_formula x d w p q

/-- The batch mean's expression over an array equal to the pre-activation. -/
theorem mean_formula_of (P : S1024x2048.Idx → EReal) (hP : P = Hebb.emb2 (Hebb.pre x d w)) (j : Fin 2048) :
    Ideal.div (0 + ∑ b : Fin 1024, P (ix2 b j)) (Ideal.ofBits .f32 0x44800000#32)
      = ((Hebb.mean x d w j : ℝ) : EReal) := by
  subst hP
  exact Hebb.mean_formula x d w j

/-- The second region's expression over arrays equal to the pre-activation, the inputs, the weights and
    the column of batch means. -/
theorem diff_formula_of (T : S1024x2048.Idx → EReal) (X : S1024x4096.Idx → EReal) (W : S2048x4096.Idx → EReal)
    (MN : S2048x1.Idx → EReal) (hT : T = Hebb.emb2 (Hebb.pre x d w)) (hX : X = Hebb.emb2 x) (hW : W = Hebb.emb2 w)
    (hMN : ∀ j : Fin 2048, MN (ix2 j (0 : Fin 1)) = ((Hebb.mean x d w j : ℝ) : EReal)) (p : Fin 1024) (j : Fin 2048) :
    (∑ e : Fin 4096, X (ix2 p e) *
        (((∑ b : Fin 1024, T (ix2 b j) * X (ix2 b e)) * Ideal.ofBits .f32 0x3A800000#32
          - MN (ix2 j (0 : Fin 1)) * W (ix2 j e)) * Ideal.ofBits .f32 0x3C23D70A#32))
      = ((Hebb.diff x d w Hebb.stepSize p j : ℝ) : EReal) := by
  subst hT hX hW
  rw [hMN j]
  exact Hebb.diff_formula x d w p j

/-- The mean square's expression over an array whose entries are the change of the output. -/
theorem loss_formula_of (Q : S1024x2048.Idx → EReal)
    (hQ : ∀ (b : Fin 1024) (j : Fin 2048), Q (ix2 b j) = ((Hebb.diff x d w Hebb.stepSize b j : ℝ) : EReal)) :
    Ideal.div (0 + ∑ b : Fin 1024, ∑ j : Fin 2048, Q (ix2 b j) * Q (ix2 b j)) (Ideal.ofBits .f32 0x4A000000#32)
      = ((Hebb.loss x d w Hebb.stepSize : ℝ) : EReal) := by
  simp only [hQ]
  exact Hebb.loss_formula x d w

end Formulas

/-! ## What each region leaves in its output array (hypotheses of this module) -/

section Hyps

variable (V : (c : Dev nD) → (b : Ref sig .tc) → Buf (Elt Ideal) ((c : Thread nD τ).loc b)) (c : Dev nD)

/-- The buffers a region reads and writes, as arrays of extended reals: the inputs, -/
abbrev inX : S1024x4096.Idx → EReal := V c main_arg0
/-- the drive, -/
abbrev inD : S1024x2048.Idx → EReal := V c main_arg1
/-- the weights, -/
abbrev inW : S2048x4096.Idx → EReal := V c main_arg2
/-- the copy of the pre-activation, -/
abbrev inT : S1024x2048.Idx → EReal := V c main_v5
/-- the column of batch means, -/
abbrev inMN : S2048x1.Idx → EReal := V c main_v4
/-- the first region's output array after its last grid point, -/
abbrev out0 : S1024x2048.Idx → EReal := (R0.dat0 (F := Ideal) V c).arrAt 3 cfg0.N
/-- and the second region's. -/
abbrev out1 : S1024x2048.Idx → EReal := (R1.dat1 (F := Ideal) V c).arrAt 4 cfg1.N

end Hyps

/-- The first region: entry (p, q) of its output is  (Σ e, input (p, e) · weight (q, e)) + drive (p, q) . -/
abbrev Region0Leaves : Prop :=
  ∀ (V : (c : Dev nD) → (b : Ref sig .tc) → Buf (Elt Ideal) ((c : Thread nD τ).loc b)) (c : Dev nD)
    (p : Fin 1024) (q : Fin 2048),
    out0 V c (ix2 p q) = (∑ e : Fin 4096, inX V c (ix2 p e) * inW V c (ix2 q e)) + inD V c (ix2 p q)

/-- The second region: entry (p, j) of its output is  Σ e, input (p, e) · increment (j, e) , the increment
    being  ((Σ b, pre (b, j) · input (b, e)) · 2⁻¹⁰ − mean (j) · weight (j, e)) · step . -/
abbrev Region1Leaves : Prop :=
  ∀ (V : (c : Dev nD) → (b : Ref sig .tc) → Buf (Elt Ideal) ((c : Thread nD τ).loc b)) (c : Dev nD)
    (p : Fin 1024) (j : Fin 2048),
    out1 V c (ix2 p j)
      = ∑ e : Fin 4096, inX V c (ix2 p e) *
          (((∑ b : Fin 1024, inT V c (ix2 b j) * inX V c (ix2 b e)) * Ideal.ofBits .f32 0x3A800000#32
            - inMN V c (ix2 j (0 : Fin 1)) * inW V c (ix2 j e)) * Ideal.ofBits .f32 0x3C23D70A#32)

/-! ## Walking the buffers back -/

variable (m : (ℓ : Loc nD τ sig) → Buf (Elt Ideal) ℓ) (ρ : Dev nD → PrngReg) (c : Dev nD)
  (x : Fin 1024 → Fin 4096 → ℝ) (d : Fin 1024 → Fin 2048 → ℝ) (w : Fin 2048 → Fin 4096 → ℝ)

/-- After the first region the inputs are as launched (an input window's array is left as found). -/
theorem W1_main_arg0 : W1 m ρ c (Proc.devRef .tc main_arg0) = m ((c : Thread nD τ).loc main_arg0) :=
  calc W1 m ρ c (Proc.devRef .tc main_arg0)
    _ = W0 m ρ c (Proc.devRef .tc main_arg0) := (W1_arr m ρ c 0).trans (((R0.dat0 (Vin0 m ρ) c).arrAt_in 0 rfl _).trans (R0.A_eq0 (Vin0 m ρ) c 0))
    _ = m ((c : Thread nD τ).loc main_arg0) := rfl

/-- After the first region the weights are as launched. -/
theorem W1_main_arg2 : W1 m ρ c (Proc.devRef .tc main_arg2) = m ((c : Thread nD τ).loc main_arg2) :=
  calc W1 m ρ c (Proc.devRef .tc main_arg2)
    _ = W0 m ρ c (Proc.devRef .tc main_arg2) := (W1_arr m ρ c 1).trans (((R0.dat0 (Vin0 m ρ) c).arrAt_in 1 rfl _).trans (R0.A_eq0 (Vin0 m ρ) c 1))
    _ = m ((c : Thread nD τ).loc main_arg2) := rfl

/-- After the first region its output array holds the pre-activation. -/
theorem W1_main_v0 (H0 : Region0Leaves)
    (hx : m ((c : Thread nD τ).loc main_arg0) = Hebb.emb2 x) (hd : m ((c : Thread nD τ).loc main_arg1) = Hebb.emb2 d)
    (hw : m ((c : Thread nD τ).loc main_arg2) = Hebb.emb2 w) :
    (W1 m ρ c (Proc.devRef .tc main_v0) : S1024x2048.Idx → EReal) = Hebb.emb2 (Hebb.pre x d w) := by
  refine (W1_arr m ρ c 3).trans ?_
  funext i
  obtain ⟨p, q, rfl⟩ : ∃ (p : Fin 1024) (q : Fin 2048), i = ix2 p q := ⟨i 0, i 1, eq_ix2 i⟩
  refine (H0 (Vin0 m ρ) c p q).trans ?_
  exact pre_formula_of x d w _ _ _ hx hd hw p q

/-- Result 0: the pre-activation. Neither host stretch writes it and the second region does not stage it. -/
theorem result0 (H0 : Region0Leaves)
    (hx : m ((c : Thread nD τ).loc main_arg0) = Hebb.emb2 x) (hd : m ((c : Thread nD τ).loc main_arg1) = Hebb.emb2 d)
    (hw : m ((c : Thread nD τ).loc main_arg2) = Hebb.emb2 w) :
    (W4 m ρ c (Proc.devRef .tc main_v0) : S1024x2048.Idx → EReal) = Hebb.emb2 (Hebb.pre x d w) :=
  calc (W4 m ρ c (Proc.devRef .tc main_v0) : S1024x2048.Idx → EReal)
    _ = W3 m ρ c (Proc.devRef .tc main_v0) := Glue.hostOps2_main_v0 (W3 m ρ c)
    _ = W2 m ρ c (Proc.devRef .tc main_v0) := W3_of_ne m ρ c main_v0 (by decide)
    _ = W1 m ρ c (Proc.devRef .tc main_v0) := Glue.hostOps1_main_v0 (W1 m ρ c)
    _ = Hebb.emb2 (Hebb.pre x d w) := W1_main_v0 m ρ c x d w H0 hx hd hw

/-- Result 1: zero. -/
theorem result1 : (W4 m ρ c (Proc.devRef .tc main_cst_3) : S_.Idx → EReal) = fun _ => (0 : EReal) := by
  refine (Glue.hostOps2_main_cst_3 (W3 m ρ c)).trans ?_
  funext i
  exact Ideal.ofBits_zero_f32

/-! ### The second region's entry contents -/

theorem Vin1_main_v5 (H0 : Region0Leaves)
    (hx : m ((c : Thread nD τ).loc main_arg0) = Hebb.emb2 x) (hd : m ((c : Thread nD τ).loc main_arg1) = Hebb.emb2 d)
    (hw : m ((c : Thread nD τ).loc main_arg2) = Hebb.emb2 w) :
    (Vin1 m ρ c main_v5 : S1024x2048.Idx → EReal) = Hebb.emb2 (Hebb.pre x d w) :=
  (Glue.hostOps1_main_v5 (W1 m ρ c)).trans (W1_main_v0 m ρ c x d w H0 hx hd hw)

theorem Vin1_main_arg0 (hx : m ((c : Thread nD τ).loc main_arg0) = Hebb.emb2 x) :
    (Vin1 m ρ c main_arg0 : S1024x4096.Idx → EReal) = Hebb.emb2 x :=
  ((Glue.hostOps1_main_arg0 (W1 m ρ c)).trans (W1_main_arg0 m ρ c)).trans hx

theorem Vin1_main_arg2 (hw : m ((c : Thread nD τ).loc main_arg2) = Hebb.emb2 w) :
    (Vin1 m ρ c main_arg2 : S2048x4096.Idx → EReal) = Hebb.emb2 w :=
  ((Glue.hostOps1_main_arg2 (W1 m ρ c)).trans (W1_main_arg2 m ρ c)).trans hw

theorem Vin1_main_v4 (H0 : Region0Leaves)
    (hx : m ((c : Thread nD τ).loc main_arg0) = Hebb.emb2 x) (hd : m ((c : Thread nD τ).loc main_arg1) = Hebb.emb2 d)
    (hw : m ((c : Thread nD τ).loc main_arg2) = Hebb.emb2 w) (j : Fin 2048) :
    (Vin1 m ρ c main_v4 : S2048x1.Idx → EReal) (ix2 j (0 : Fin 1)) = ((Hebb.mean x d w j : ℝ) : EReal) :=
  (Glue.hostOps1_main_v4_apply_zero (W1 m ρ c) j).trans
    (mean_formula_of x d w _ (W1_main_v0 m ρ c x d w H0 hx hd hw) j)

/-- After the second region its output array holds the change of the layer's output. -/
theorem W3_main_v6 (H0 : Region0Leaves) (H1 : Region1Leaves)
    (hx : m ((c : Thread nD τ).loc main_arg0) = Hebb.emb2 x) (hd : m ((c : Thread nD τ).loc main_arg1) = Hebb.emb2 d)
    (hw : m ((c : Thread nD τ).loc main_arg2) = Hebb.emb2 w) (p : Fin 1024) (j : Fin 2048) :
    (W3 m ρ c (Proc.devRef .tc main_v6) : S1024x2048.Idx → EReal) (ix2 p j)
      = ((Hebb.diff x d w Hebb.stepSize p j : ℝ) : EReal) := by
  have h' : (W3 m ρ c (Proc.devRef .tc main_v6) : S1024x2048.Idx → EReal)
      = ((R1.dat1 (Vin1 m ρ) c).arrAt 4 cfg1.N : S1024x2048.Idx → EReal) := W3_arr m ρ c 4
  refine (congrFun h' _).trans ?_
  refine (H1 (Vin1 m ρ) c p j).trans ?_
  exact diff_formula_of x d w _ _ _ _ (Vin1_main_v5 m ρ c x d w H0 hx hd hw) (Vin1_main_arg0 m ρ c x hx)
    (Vin1_main_arg2 m ρ c w hw) (Vin1_main_v4 m ρ c x d w H0 hx hd hw) p j

/-- Results 2 and 3 (one buffer): the loss. -/
theorem result2 (H0 : Region0Leaves) (H1 : Region1Leaves)
    (hx : m ((c : Thread nD τ).loc main_arg0) = Hebb.emb2 x) (hd : m ((c : Thread nD τ).loc main_arg1) = Hebb.emb2 d)
    (hw : m ((c : Thread nD τ).loc main_arg2) = Hebb.emb2 w) :
    (W4 m ρ c (Proc.devRef .tc main_v9) : S_.Idx → EReal)
      = fun _ => ((Hebb.loss x d w Hebb.stepSize : ℝ) : EReal) := by
  funext i
  refine (Glue.hostOps2_main_v9_apply_zero (W3 m ρ c) i).trans ?_
  exact loss_formula_of x d w _ (fun b j => W3_main_v6 m ρ c x d w H0 H1 hx hd hw b j)

end Cert.KernelIdeal.Value

end
-- ==== Proof.R0Vals.lean ====
/-
  What each case of the first matrix product's body leaves, as arithmetic: the accumulator after a first point
  is zero plus the block product; after any other point it is what the point before left plus the block
  product; the output block stored at a last point is that accumulator plus the bias block.
-/
import proofs.«142751_j87144886436114_2_alg».proof.Proof.R0Body
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

section
variable (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

theorem accMid_eq (hF : ¬isFirst i) (hL : ¬isLast i) (x0 x1 : Vec F S1024x512 .f32) (x2 xs : Vec F S1024x1024 .f32) :
    accMid c i arg3 harg3 arg4 harg4 arg5 harg5 arg6 harg6 arg7 harg7 hF hL x0 x1 x2 xs = k0_pay2 x0 x1 xs := by
  unfold accMid
  rw [View.read_writes_eq_canon _ _ _ (accMid_cover c i arg3 harg3 arg4 harg4 arg5 harg5 arg6 harg6 arg7 harg7 hF hL x0 x1 x2 xs)]
  unfold runMid; dsimp only
  sl_unfold_words
  rw [View.canon_unit_zero hz]
  simp only [View.readAt_eq_ld, harg3.read_unread, harg4.read_unread, harg5.read_unread, harg7.read_unread, View.ld_unit_zero (S := S1024x512) hz, View.ld_unit_zero (S := S1024x1024) hz]

theorem accFirst_eq (hF : isFirst i) (hL : ¬isLast i) (x0 x1 : Vec F S1024x512 .f32) (x2 : Vec F S1024x1024 .f32) :
    accFirst c i arg3 harg3 arg4 harg4 arg5 harg5 arg6 harg6 arg7 harg7 hF hL x0 x1 x2 = k0_pay2 x0 x1 (k0_pay1 (F := F)) := by
  unfold accFirst
  rw [View.read_writes_eq_canon _ _ _ (accFirst_cover c i arg3 harg3 arg4 harg4 arg5 harg5 arg6 harg6 arg7 harg7 hF hL x0 x1 x2)]
  unfold runFirst; dsimp only
  sl_unfold_words
  rw [View.canon_cons_unit_zero hz]
  simp only [View.readAt_eq_ld, harg3.read_unread, harg4.read_unread, harg5.read_unread, harg7.read_unread, View.ld_unit_zero (S := S1024x512) hz, View.ld_unit_zero (S := S1024x1024) hz]
  rw [View.readCov_unit_zero (S := S1024x1024) _ hz]

theorem accLast_eq (hF : ¬isFirst i) (hL : isLast i) (x0 x1 : Vec F S1024x512 .f32) (x2 xs : Vec F S1024x1024 .f32) :
    accLast c i arg3 harg3 arg4 harg4 arg5 harg5 arg6 harg6 arg7 harg7 hF hL x0 x1 x2 xs = k0_pay2 x0 x1 xs := by
  unfold accLast
  rw [View.read_writes_eq_canon _ _ _ (accLast_cover c i arg3 harg3 arg4 harg4 arg5 harg5 arg6 harg6 arg7 harg7 hF hL x0 x1 x2 xs)]
  unfold runLast; dsimp only
  sl_unfold_words
  rw [View.canon_unit_zero hz]
  simp only [View.readAt_eq_ld, harg3.read_unread, harg4.read_unread, harg5.read_unread, harg7.read_unread, View.ld_unit_zero (S := S1024x512) hz, View.ld_unit_zero (S := S1024x1024) hz]

theorem outLast_eq (hF : ¬isFirst i) (hL : isLast i) (x0 x1 : Vec F S1024x512 .f32) (x2 xs : Vec F S1024x1024 .f32) :
    outLast c i arg3 harg3 arg4 harg4 arg5 harg5 arg6 harg6 arg7 harg7 hF hL x0 x1 x2 xs = k0_pay3 (k0_pay2 x0 x1 xs) x2 := by
  unfold outLast
  rw [View.read_writes_eq_canon _ _ _ (outLast_cover c i arg3 harg3 arg4 harg4 arg5 harg5 arg6 harg6 arg7 harg7 hF hL x0 x1 x2 xs)]
  unfold runLast; dsimp only
  sl_unfold_words
  rw [View.canon_unit_zero hz]
  simp only [View.readAt_eq_ld, harg3.read_unread, harg4.read_unread, harg5.read_unread, harg7.read_unread, View.ld_unit_zero (S := S1024x512) hz, View.ld_unit_zero (S := S1024x1024) hz]
  rw [View.readCov_unit_zero (S := S1024x1024) _ hz]

end
end Cert.KernelIdeal.R0
end
-- ==== Proof.Pay0.lean ====
/-
  The values the first region stores, read at an entry.

  The region keeps a 1024 × 1024 accumulator. It is cleared with the zero matrix; at every step it
  receives the product of a 1024 × 512 block of the inputs with the transpose of a 1024 × 512 block
  of the weights (both blocks are contracted along their 512 columns, so entry (p, c) of the product
  is the sum over k of x (p, k) · w (c, k)); and at the last step the drive's block is added entry by
  entry. At the exact values a change of float format is the identity, so the narrowing of the two
  blocks before the product leaves no trace.
-/
import proofs.«142751_j87144886436114_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Idealize.SL.Sem

/-- The dimension numbers of a product of two 1024 × 512 matrices along their columns. -/
abbrev rowsByRows : DotDims S1024x512 S1024x512 S1024x1024 := dot_S1024x512_S1024x512_S1024x1024_1_1_0_0_n_n

/-- The left operand's row is the result's row … -/
theorem rowsByRows_lhs_0 (i : S1024x1024.Idx) (q : rowsByRows.contr.Idx) : (rowsByRows.lhsIdx i q 0).val = (i 0).val := by
  unfold DotDims.lhsIdx
  rw [dif_neg (show ¬(0 : Fin S1024x512.rank) ∈ rowsByRows.lhsBatch by decide), dif_pos (show (0 : Fin S1024x512.rank) ∈ rowsByRows.lhsNonContracting by decide)]
  rfl
/-- … its column the contraction position; -/
theorem rowsByRows_lhs_1 (i : S1024x1024.Idx) (q : rowsByRows.contr.Idx) : (rowsByRows.lhsIdx i q 1).val = (q ⟨0, by decide⟩).val :=
  rowsByRows.lhsIdx_val_of_single rfl i q
/-- the right operand's row is the result's column … -/
theorem rowsByRows_rhs_0 (i : S1024x1024.Idx) (q : rowsByRows.contr.Idx) : (rowsByRows.rhsIdx i q 0).val = (i 1).val := by
  unfold DotDims.rhsIdx
  rw [dif_neg (show ¬(0 : Fin S1024x512.rank) ∈ rowsByRows.rhsBatch by decide), dif_pos (show (0 : Fin S1024x512.rank) ∈ rowsByRows.rhsNonContracting by decide)]
  rfl
/-- … and its column the contraction position. -/
theorem rowsByRows_rhs_1 (i : S1024x1024.Idx) (q : rowsByRows.contr.Idx) : (rowsByRows.rhsIdx i q 1).val = (q ⟨0, by decide⟩).val :=
  rowsByRows.rhsIdx_val_of_single rfl i q

/-- Entry `(p, c)` of the product along the columns, accumulated into zero, is `∑ k, l (p, k) * r (c, k)`. -/
theorem rowsByRows_zero_apply {φ₁ φ₂ : FTy} (l : FVec Ideal S1024x512 φ₁) (r : FVec Ideal S1024x512 φ₂) (p c : Fin 1024) :
    matmul rowsByRows none l r (constant S1024x1024 .f32 0x00000000#32) (ix2 p c)
      = ∑ k : Fin 512, l (ix2 p k) * r (ix2 c k) := by
  show FloatOps.matmul rowsByRows none l r (constant S1024x1024 .f32 0x00000000#32) (ix2 p c) = _
  rw [Ideal.matmul_constant_zero_apply, ← Equiv.sum_comp (contrEquiv1 rowsByRows 512 rfl rfl).symm]
  refine Finset.sum_congr rfl fun k _ => ?_
  have hk := contrEquiv1_symm_val rowsByRows 512 rfl rfl k
  have el : rowsByRows.lhsIdx (ix2 p c) ((contrEquiv1 rowsByRows 512 rfl rfl).symm k) = ix2 p k := funext fun a => Fin.ext (by
    match a with
    | ⟨0, _⟩ => exact rowsByRows_lhs_0 _ _
    | ⟨1, _⟩ => exact (rowsByRows_lhs_1 _ _).trans hk)
  have er : rowsByRows.rhsIdx (ix2 p c) ((contrEquiv1 rowsByRows 512 rfl rfl).symm k) = ix2 c k := funext fun a => Fin.ext (by
    match a with
    | ⟨0, _⟩ => exact rowsByRows_rhs_0 _ _
    | ⟨1, _⟩ => exact (rowsByRows_rhs_1 _ _).trans hk)
  rw [el, er]

/-- The value that clears the accumulator is zero at every entry. -/
theorem k0_pay1_apply (p c : Fin 1024) : k0_pay1 (F := Ideal) (ix2 p c) = 0 := by
  unfold k0_pay1
  refine (congrFun (shapeCast_self _ _) _).trans ?_
  exact Ideal.ofBits_zero_f32

/-- One step's value: the accumulator plus the product of the two blocks along their columns. -/
theorem k0_pay2_apply (x w : Vec Ideal S1024x512 .f32) (a : Vec Ideal S1024x1024 .f32) (p c : Fin 1024) :
    k0_pay2 (F := Ideal) x w a (ix2 p c) = a (ix2 p c) + ∑ k : Fin 512, x (ix2 p k) * w (ix2 c k) := by
  unfold k0_pay2
  refine (congrFun (shapeCast_self _ _) _).trans ?_
  refine (addf_apply _ _ _).trans ?_
  refine congrArg (a (ix2 p c) + ·) ?_
  exact rowsByRows_zero_apply _ _ p c

/-- The last step's value: the accumulator plus the drive's block, entry by entry. -/
theorem k0_pay3_apply (a b : Vec Ideal S1024x1024 .f32) (p c : Fin 1024) :
    k0_pay3 (F := Ideal) a b (ix2 p c) = a (ix2 p c) + b (ix2 p c) := rfl

end Cert.KernelIdeal.Pay

end
-- ==== Proof.R0Value.lean ====
/-
  The first region's result, as one function of the arguments.

  The sixteen points t = 8·j + k walk, for each of the two blocks j of 1024 output columns, through the eight
  blocks k of 512 contracted columns. At point t the body sees the inputs' block  x (p, e) = X (p, 512·k + e),
  the weights' block  w (r, e) = W (1024·j + r, 512·k + e)  and the drive's block  d (p, r) = D (p, 1024·j + r).
  The accumulator, cleared where k = 0, therefore holds after point t the partial product
  ∑ k' ≤ k, ∑ e < 512, X (p, 512·k' + e) · W (1024·j + r, 512·k' + e); where k = 7 this is the whole product
  ∑ e < 4096, X (p, e) · W (1024·j + r, e)  (eight runs of 512 consecutive columns are the 4096 columns), and
  the stored block is that plus the drive's block. The two stored blocks tile the 1024 × 2048 result.
-/
import proofs.«142751_j87144886436114_2_alg».proof.Proof.R0Vals
import proofs.«142751_j87144886436114_2_alg».proof.Proof.Pay0
import Idealize.ShloMosaic.Lib.Pipeline.Value
import Idealize.ShloMosaic.Lib.ValueIdx

set_option maxRecDepth 16384

noncomputable section

namespace Cert.KernelIdeal.R0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The inputs, the weights and the drive as the region finds them, as matrices of extended reals. -/
abbrev X : S1024x4096.Idx → EReal := V c main_arg0
abbrev W : S2048x4096.Idx → EReal := V c main_arg2
abbrev D : S1024x2048.Idx → EReal := V c main_arg1

/-! ## The blocks the body sees -/

/-- Which block each window is on at point `t = 8·j + k`: the inputs' (0, k), the weights' (j, k), the drive's and the
    result's (0, j). -/
theorem idx_facts : ∀ t : Fin cfg0.N, win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = 0 ∧ win0_2.index t (1 : Fin 2) = t.val / 8
    ∧ win0_3.index t (0 : Fin 2) = 0 ∧ win0_3.index t (1 : Fin 2) = t.val / 8 :=
  (by decide +kernel : ∀ t : Fin grid0.N, _)

/-- The inputs' block at point `t` is columns `512·k … 512·k + 511` of the inputs. -/
theorem iblk0_apply (t : Fin cfg0.N) (y : S1024x512.Idx) (i : S1024x4096.Idx)
    (h0 : (i 0).val = (y 0).val) (h1 : (i 1).val = 512 * (t.val % 8) + (y 1).val) :
    (iblk V c 0 t : Vec Ideal S1024x512 .f32) y = X V c i := by
  obtain ⟨e0, e1, -⟩ := idx_facts t
  unfold iblk
  rw [View.read_apply]
  show V c main_arg0 _ = V c main_arg0 _
  congr 1
  funext a
  apply Fin.ext
  match a with
  | ⟨0, _⟩ => show win0_0.index t 0 * 1024 + 1 * (y 0).val = (i 0).val; rw [e0, h0]; omega
  | ⟨1, _⟩ => show win0_0.index t 1 * 512 + 1 * (y 1).val = (i 1).val; rw [e1, h1]; omega

/-- The weights' block at point `t` is rows `1024·j …` and columns `512·k …` of the weights. -/
theorem iblk1_apply (t : Fin cfg0.N) (y : S1024x512.Idx) (i : S2048x4096.Idx)
    (h0 : (i 0).val = 1024 * (t.val / 8) + (y 0).val) (h1 : (i 1).val = 512 * (t.val % 8) + (y 1).val) :
    (iblk V c 1 t : Vec Ideal S1024x512 .f32) y = W V c i := by
  obtain ⟨-, -, e0, e1, -⟩ := idx_facts t
  unfold iblk
  rw [View.read_apply]
  show V c main_arg2 _ = V c main_arg2 _
  congr 1
  funext a
  apply Fin.ext
  match a with
  | ⟨0, _⟩ => show win0_1.index t 0 * 1024 + 1 * (y 0).val = (i 0).val; rw [e0, h0]; omega
  | ⟨1, _⟩ => show win0_1.index t 1 * 512 + 1 * (y 1).val = (i 1).val; rw [e1, h1]; omega

/-- The drive's block at point `t` is columns `1024·j …` of the drive. -/
theorem iblk2_apply (t : Fin cfg0.N) (y : S1024x1024.Idx) (i : S1024x2048.Idx)
    (h0 : (i 0).val = (y 0).val) (h1 : (i 1).val = 1024 * (t.val / 8) + (y 1).val) :
    (iblk V c 2 t : Vec Ideal S1024x1024 .f32) y = D V c i := by
  obtain ⟨-, -, -, -, e0, e1, -⟩ := idx_facts t
  unfold iblk
  rw [View.read_apply]
  show V c main_arg1 _ = V c main_arg1 _
  congr 1
  funext a
  apply Fin.ext
  match a with
  | ⟨0, _⟩ => show win0_2.index t 0 * 1024 + 1 * (y 0).val = (i 0).val; rw [e0, h0]; omega
  | ⟨1, _⟩ => show win0_2.index t 1 * 1024 + 1 * (y 1).val = (i 1).val; rw [e1, h1]; omega

/-! ## The result's blocks tile the result -/

/-- An entry of the result is in point `t`'s block iff each coordinate is in the block's range on its axis. -/
theorem mem_blk3 (t : Fin cfg0.N) (i : S1024x2048.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every entry `(p, q)` of the result is in the block stored at the last point of its column block, `t = 8·(q / 1024) + 7`. -/
theorem covered3 (i : S1024x2048.Idx) :
    ∃ t : Fin cfg0.N, (cfg0.win 3).flush t = true ∧ i ∈ ((cfg0.win 3).blk t).view.set := by
  have hN : cfg0.N = 16 := N_0
  have hi0 : (i 0).val < 1024 := (i 0).isLt
  have hi1 : (i 1).val < 2048 := (i 1).isLt
  let t : Fin cfg0.N := ⟨8 * ((i 1).val / 1024) + 7, by rw [hN]; omega⟩
  have ht : t.val = 8 * ((i 1).val / 1024) + 7 := rfl
  obtain ⟨-, -, -, -, -, -, e0, e1⟩ := idx_facts t
  refine ⟨t, (flush0_3 t).mpr (by rw [ht]; omega), ?_⟩
  rw [mem_blk3]
  intro a
  match a with
  | ⟨0, _⟩ => show win0_3.index t (0 : Fin 2) * 1024 ≤ (i 0).val ∧ (i 0).val < win0_3.index t (0 : Fin 2) * 1024 + 1024; rw [e0]; omega
  | ⟨1, _⟩ => show win0_3.index t (1 : Fin 2) * 1024 ≤ (i 1).val ∧ (i 1).val < win0_3.index t (1 : Fin 2) * 1024 + 1024; rw [e1, ht]; omega

/-! ## The accumulator, point by point -/

/-- Column `512·k + e` of the 4096 contracted columns (wrapped, so that it is a column for any two naturals). -/
def colOf (k e : ℕ) : Fin 4096 := ⟨(512 * k + e) % 4096, Nat.mod_lt _ (by decide)⟩
/-- Row `1024·j + r` of the weights' 2048 rows, which is also column `1024·j + r` of the result (wrapped likewise). -/
def rowOf (j r : ℕ) : Fin 2048 := ⟨(1024 * j + r) % 2048, Nat.mod_lt _ (by decide)⟩

/-- The product of the inputs' row `p` with the weights' row `1024·j + r` along contracted block `k`. -/
def blockProd (j k : ℕ) (p r : Fin 1024) : EReal :=
  ∑ e : Fin 512, X V c (ix2 p (colOf k e.val)) * W V c (ix2 (rowOf j r.val) (colOf k e.val))

/-- One step at point `t`: what the accumulator held plus the block product of the point's blocks. -/
theorem step_apply (t : Fin cfg0.N) (xs : Vec Ideal S1024x1024 .f32) (p r : Fin 1024) :
    k0_pay2 (F := Ideal) (iblk V c 0 t) (iblk V c 1 t) xs (ix2 p r)
      = xs (ix2 p r) + blockProd V c (t.val / 8) (t.val % 8) p r := by
  have hN : cfg0.N = 16 := N_0
  have ht : t.val < 16 := hN ▸ t.isLt
  refine (k0_pay2_apply _ _ _ p r).trans ?_
  unfold blockProd
  refine congrArg (xs (ix2 p r) + ·) (Finset.sum_congr rfl fun e _ => ?_)
  have he : e.val < 512 := e.isLt
  have hr : r.val < 1024 := r.isLt
  refine congrArg₂ (· * ·) (iblk0_apply V c t (ix2 p e) _ rfl ?_) (iblk1_apply V c t (ix2 r e) _ ?_ ?_)
  · show (512 * (t.val % 8) + e.val) % 4096 = 512 * (t.val % 8) + e.val
    omega
  · show (1024 * (t.val / 8) + r.val) % 2048 = 1024 * (t.val / 8) + r.val
    omega
  · show (512 * (t.val % 8) + e.val) % 4096 = 512 * (t.val % 8) + e.val
    omega

/-- After a point that clears the accumulator it holds that point's block product; -/
theorem acc_first (t : Fin cfg0.N) (h0 : t.val % 8 = 0) (p r : Fin 1024) :
    ((outsAt V c t.val t.isLt).2 : Vec Ideal S1024x1024 .f32) (ix2 p r) = blockProd V c (t.val / 8) (t.val % 8) p r := by
  rw [outsAt_first V c t h0]
  dsimp only
  rw [accFirst_eq]
  refine (step_apply V c t _ p r).trans ?_
  rw [k0_pay1_apply, zero_add]

/-- after any other point, what the point before left plus that point's block product. -/
theorem acc_next (t : Fin cfg0.N) (h0 : ¬t.val % 8 = 0) (p r : Fin 1024) :
    ((outsAt V c t.val t.isLt).2 : Vec Ideal S1024x1024 .f32) (ix2 p r)
      = ((outsAt V c (t.val - 1) (Nat.lt_of_le_of_lt (Nat.sub_le _ _) t.isLt)).2 : Vec Ideal S1024x1024 .f32) (ix2 p r)
        + blockProd V c (t.val / 8) (t.val % 8) p r := by
  by_cases h7 : t.val % 8 = 7
  · rw [outsAt_last V c t h0 h7]
    dsimp only
    rw [accLast_eq]
    exact step_apply V c t _ p r
  · rw [outsAt_mid V c t h0 h7]
    dsimp only
    rw [accMid_eq]
    exact step_apply V c t _ p r

/-- So after point `n = 8·j + k` the accumulator holds the block products of contracted blocks `0 … k`. -/
theorem acc_apply : ∀ (n : ℕ) (hn : n < cfg0.N) (p r : Fin 1024),
    ((outsAt V c n hn).2 : Vec Ideal S1024x1024 .f32) (ix2 p r)
      = ∑ k ∈ Finset.range (n % 8 + 1), blockProd V c (n / 8) k p r := by
  intro n
  induction n with
  | zero =>
    intro hn p r
    refine (acc_first V c ⟨0, hn⟩ rfl p r).trans ?_
    show blockProd V c (0 / 8) (0 % 8) p r = ∑ k ∈ Finset.range (0 % 8 + 1), blockProd V c (0 / 8) k p r
    exact (Finset.sum_range_one (fun k => blockProd V c (0 / 8) k p r)).symm
  | succ n ih =>
    intro hn p r
    by_cases h0 : (n + 1) % 8 = 0
    · refine (acc_first V c ⟨n + 1, hn⟩ h0 p r).trans ?_
      show blockProd V c ((n + 1) / 8) ((n + 1) % 8) p r = _
      rw [h0]
      exact (Finset.sum_range_one (fun k => blockProd V c ((n + 1) / 8) k p r)).symm
    · refine (acc_next V c ⟨n + 1, hn⟩ h0 p r).trans ?_
      show ((outsAt V c n (Nat.lt_of_succ_lt hn)).2 : Vec Ideal S1024x1024 .f32) (ix2 p r) + blockProd V c ((n + 1) / 8) ((n + 1) % 8) p r = _
      rw [ih (Nat.lt_of_succ_lt hn) p r]
      have hd : (n + 1) / 8 = n / 8 := by omega
      have hm : (n + 1) % 8 = n % 8 + 1 := by omega
      rw [hd, hm]
      exact (Finset.sum_range_succ (fun k => blockProd V c (n / 8) k p r) (n % 8 + 1)).symm

/-! ## Eight runs of 512 columns are the 4096 columns -/

theorem sum_blocks (g : ℕ → EReal) :
    ∑ k ∈ Finset.range 8, ∑ e : Fin 512, g (512 * k + e.val) = ∑ e : Fin 4096, g e.val := by
  rw [Finset.sum_range, ← Fintype.sum_prod_type']
  have h := Equiv.sum_comp (finProdFinEquiv (m := 8) (n := 512)) (fun e : Fin (8 * 512) => g e.val)
  refine Eq.trans ?_ h
  refine Finset.sum_congr rfl fun x _ => ?_
  show g (512 * x.1.val + x.2.val) = g (x.2.val + 512 * x.1.val)
  rw [Nat.add_comm]

/-- The whole product of the inputs' row `p` with the weights' row `1024·j + r`, block by block. -/
theorem sum_blockProd (j : ℕ) (hj : j < 2) (p r : Fin 1024) :
    ∑ k ∈ Finset.range 8, blockProd V c j k p r
      = ∑ e : Fin 4096, X V c (ix2 p e) * W V c (ix2 (rowOf j r.val) e) := by
  unfold blockProd
  refine (sum_blocks (fun n => X V c (ix2 p ⟨n % 4096, Nat.mod_lt _ (by decide)⟩) * W V c (ix2 (rowOf j r.val) ⟨n % 4096, Nat.mod_lt _ (by decide)⟩))).trans ?_
  refine Finset.sum_congr rfl fun e _ => ?_
  have he : (⟨e.val % 4096, Nat.mod_lt _ (by decide)⟩ : Fin 4096) = e := Fin.ext (Nat.mod_eq_of_lt e.isLt)
  rw [he]

/-! ## The result -/

/-- The function the result ends holding: the product along the 4096 columns, plus the drive. -/
def G : S1024x2048.Idx → EReal := fun i => (∑ e : Fin 4096, X V c (ix2 (i 0) e) * W V c (ix2 (i 1) e)) + D V c i

/-- What a last point stores, entry by entry. -/
theorem out_apply (t : Fin cfg0.N) (h0 : ¬t.val % 8 = 0) (h7 : t.val % 8 = 7) (p r : Fin 1024) :
    ((outsAt V c t.val t.isLt).1 : Vec Ideal S1024x1024 .f32) (ix2 p r) = G V c (ix2 p (rowOf (t.val / 8) r.val)) := by
  have hN : cfg0.N = 16 := N_0
  have ht : t.val < 16 := hN ▸ t.isLt
  have hr : r.val < 1024 := r.isLt
  have hacc := acc_apply V c t.val t.isLt p r
  rw [outsAt_last V c t h0 h7] at hacc ⊢
  dsimp only at hacc ⊢
  rw [accLast_eq] at hacc
  rw [outLast_eq]
  refine (k0_pay3_apply _ _ p r).trans ?_
  rw [hacc, h7]
  unfold G
  refine congrArg₂ (· + ·) (sum_blockProd V c (t.val / 8) (by omega) p r) ?_
  refine iblk2_apply V c t (ix2 p r) _ rfl ?_
  show (1024 * (t.val / 8) + r.val) % 2048 = 1024 * (t.val / 8) + r.val
  omega

/-- What a last point writes back is its block of `G`. -/
theorem flushed3_eq (t : Fin cfg0.N) (hf : (cfg0.win 3).flush t = true) :
    (dat0 V c).flushed 3 t = ((cfg0.win 3).blk t).view.read (Elt Ideal) (G V c) := by
  have hN : cfg0.N = 16 := N_0
  have ht : t.val < 16 := hN ▸ t.isLt
  have h7 : t.val % 8 = 7 := (flush0_3 t).mp hf
  have h0 : ¬t.val % 8 = 0 := by omega
  obtain ⟨-, -, -, -, -, -, e0, e1⟩ := idx_facts t
  show (cfg0.win 3).cut (grid0.coords t) ((dat0 V c).after 3 t) = _
  rw [after_3]
  funext y
  show ((outsAt V c t.val t.isLt).1 : Vec Ideal S1024x1024 .f32) y = G V c (((cfg0.win 3).blk t).view.emb y)
  obtain ⟨p, r, rfl⟩ : ∃ (p r : Fin 1024), y = ix2 p r := ⟨y 0, y 1, eq_ix2 y⟩
  refine (out_apply V c t h0 h7 p r).trans (congrArg (G V c) ?_)
  have hr : r.val < 1024 := r.isLt
  funext a
  apply Fin.ext
  match a with
  | ⟨0, _⟩ => show p.val = win0_3.index t (0 : Fin 2) * 1024 + 1 * p.val; rw [e0]; omega
  | ⟨1, _⟩ => show (1024 * (t.val / 8) + r.val) % 2048 = win0_3.index t (1 : Fin 2) * 1024 + 1 * r.val; rw [e1]; omega

/-- So the result's array ends holding `G`. -/
theorem arr0_eq : ((dat0 (F := Ideal) V c).arrAt 3 cfg0.N : S1024x2048.Idx → EReal) = G V c :=
  (dat0 V c).arrAt_eq_of_cover 3 (G V c) (flushed3_eq V c) (covered3)

/-- Entry `(p, q)` of the result: the inputs' row `p` times the weights' row `q` along the 4096 columns, plus the drive. -/
theorem arr0_apply (p : Fin 1024) (q : Fin 2048) :
    ((dat0 (F := Ideal) V c).arrAt 3 cfg0.N : S1024x2048.Idx → EReal) (ix2 p q)
      = (∑ e : Fin 4096, X V c (ix2 p e) * W V c (ix2 q e)) + D V c (ix2 p q) :=
  congrFun (arr0_eq V c) (ix2 p q)

end Cert.KernelIdeal.R0

end
-- ==== Proof.R1Payloads.lean ====
/-
  What each case of the second matrix product's body leaves, as arithmetic: the accumulator after a first point
  is zero plus the block product; after any other point it is what the point before left plus the block
  product; the output block stored at a last point is a copy of that accumulator.
-/
import proofs.«142751_j87144886436114_2_alg».proof.Proof.R1Body
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The origin of a block, as the function the library's lemmas about whole-block stores and loads are stated with. -/
theorem hz : (![0, 0] : Fin 2 → Nat) = fun _ => 0 := funext fun a => by fin_cases a <;> rfl

section
variable (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1024 .f32) (harg7 : arg7.IsWhole)

/-- A middle point adds the block product to what the point before left. -/
theorem accMid_eq (hF : ¬isFirst i) (hL : ¬isLast i) (x0 : Vec F S1024x1024 .bf16) (x1 x2 : Vec F S1024x512 .f32) (x3 : Vec F S1024x1 .f32) (xs : Vec F S1024x1024 .f32) :
    accMid c i arg2 harg2 arg3 harg3 arg4 harg4 arg5 harg5 arg6 harg6 arg7 harg7 hF hL x0 x1 x2 x3 xs = k1_pay2 x0 x1 x2 x3 xs := by
  unfold accMid
  rw [View.read_writes_eq_canon _ _ _ (accMid_cover c i arg2 harg2 arg3 harg3 arg4 harg4 arg5 harg5 arg6 harg6 arg7 harg7 hF hL x0 x1 x2 x3 xs)]
  unfold runMid; dsimp only
  sl_unfold_words
  rw [View.canon_unit_zero hz]
  simp only [View.readAt_eq_ld, harg2.read_unread, harg3.read_unread, harg4.read_unread, harg5.read_unread, harg7.read_unread, View.ld_unit_zero (S := S1024x1024) hz, View.ld_unit_zero (S := S1024x512) hz, View.ld_unit_zero (S := S1024x1) hz]

/-- A first point adds the block product to the cleared accumulator. -/
theorem accFirst_eq (hF : isFirst i) (hL : ¬isLast i) (x0 : Vec F S1024x1024 .bf16) (x1 x2 : Vec F S1024x512 .f32) (x3 : Vec F S1024x1 .f32) :
    accFirst c i arg2 harg2 arg3 harg3 arg4 harg4 arg5 harg5 arg6 harg6 arg7 harg7 hF hL x0 x1 x2 x3 = k1_pay2 x0 x1 x2 x3 (k1_pay1 (F := F)) := by
  unfold accFirst
  rw [View.read_writes_eq_canon _ _ _ (accFirst_cover c i arg2 harg2 arg3 harg3 arg4 harg4 arg5 harg5 arg6 harg6 arg7 harg7 hF hL x0 x1 x2 x3)]
  unfold runFirst; dsimp only
  sl_unfold_words
  rw [View.canon_cons_unit_zero hz]
  simp only [View.readAt_eq_ld, harg2.read_unread, harg3.read_unread, harg4.read_unread, harg5.read_unread, harg7.read_unread, View.ld_unit_zero (S := S1024x1024) hz, View.ld_unit_zero (S := S1024x512) hz, View.ld_unit_zero (S := S1024x1) hz]
  rw [View.readCov_unit_zero (S := S1024x1024) _ hz]

/-- A last point adds the block product to what the point before left, -/
theorem accLast_eq (hF : ¬isFirst i) (hL : isLast i) (x0 : Vec F S1024x1024 .bf16) (x1 x2 : Vec F S1024x512 .f32) (x3 : Vec F S1024x1 .f32) (xs : Vec F S1024x1024 .f32) :
    accLast c i arg2 harg2 arg3 harg3 arg4 harg4 arg5 harg5 arg6 harg6 arg7 harg7 hF hL x0 x1 x2 x3 xs = k1_pay2 x0 x1 x2 x3 xs := by
  unfold accLast
  rw [View.read_writes_eq_canon _ _ _ (accLast_cover c i arg2 harg2 arg3 harg3 arg4 harg4 arg5 harg5 arg6 harg6 arg7 harg7 hF hL x0 x1 x2 x3 xs)]
  unfold runLast; dsimp only
  sl_unfold_words
  rw [View.canon_unit_zero hz]
  simp only [View.readAt_eq_ld, harg2.read_unread, harg3.read_unread, harg4.read_unread, harg5.read_unread, harg7.read_unread, View.ld_unit_zero (S := S1024x1024) hz, View.ld_unit_zero (S := S1024x512) hz, View.ld_unit_zero (S := S1024x1) hz]

/-- and stores a copy of that sum into the output block. -/
theorem outLast_eq (hF : ¬isFirst i) (hL : isLast i) (x0 : Vec F S1024x1024 .bf16) (x1 x2 : Vec F S1024x512 .f32) (x3 : Vec F S1024x1 .f32) (xs : Vec F S1024x1024 .f32) :
    outLast c i arg2 harg2 arg3 harg3 arg4 harg4 arg5 harg5 arg6 harg6 arg7 harg7 hF hL x0 x1 x2 x3 xs = k1_pay2 x0 x1 x2 x3 xs := by
  unfold outLast
  rw [View.read_writes_eq_canon _ _ _ (outLast_cover c i arg2 harg2 arg3 harg3 arg4 harg4 arg5 harg5 arg6 harg6 arg7 harg7 hF hL x0 x1 x2 x3 xs)]
  unfold runLast; dsimp only
  sl_unfold_words
  rw [View.canon_unit_zero hz]
  simp only [View.readAt_eq_ld, harg2.read_unread, harg3.read_unread, harg4.read_unread, harg5.read_unread, harg7.read_unread, View.ld_unit_zero (S := S1024x1024) hz, View.ld_unit_zero (S := S1024x512) hz, View.ld_unit_zero (S := S1024x1) hz]
  rw [View.readCov_unit_zero (S := S1024x1024) _ hz]

end

end Cert.KernelIdeal.R1

end
-- ==== Proof.Pay1.lean ====
/-
  The values the second region stores, read at an entry.

  The region keeps a 1024 × 1024 accumulator, cleared with the zero matrix. At every step it takes a
  1024 × 1024 block t of the (narrowed) pre-activation, a 1024 × 512 block x of the inputs, the
  matching 1024 × 512 block w of the weights and a 1024 × 1 column mn of batch means, and forms

    the outer product along the batch:   g (j, q) = ∑ b, t (b, j) · x (b, q)      (both contracted along their rows),
    the increment:                       dl (j, q) = (g (j, q) · 2⁻¹⁰ − mn (j) · w (j, q)) · c,
    the change of the layer's output:    ∑ q, x (p, q) · dl (j, q)                (both contracted along their columns),

  which it adds to the accumulator. The two factors stay the words the program writes them with. At the
  exact values a change of float format is the identity, so the narrowings leave no trace.
-/
import proofs.«142751_j87144886436114_2_alg».proof.Proof.Pay0
import proofs.«142751_j87144886436114_2_alg».proof.Proof.LibColumns
import Idealize.ShloMosaic.Lib.ValueLayout

noncomputable section

namespace Cert.KernelIdeal.Pay

open Cert.KernelIdeal Cert.KernelIdeal.Gen Idealize.ShloMosaic Idealize.ShloMosaic.ValueIdx Idealize.SL.Sem

/-- The dimension numbers of a product of a 1024 × 1024 and a 1024 × 512 matrix along their rows. -/
abbrev colsByCols : DotDims S1024x1024 S1024x512 S1024x512 := dot_S1024x1024_S1024x512_S1024x512_0_0_1_1_n_n

/-- The left operand's row is the contraction position … -/
theorem colsByCols_lhs_0 (i : S1024x512.Idx) (q : colsByCols.contr.Idx) : (colsByCols.lhsIdx i q 0).val = (q ⟨0, by decide⟩).val :=
  colsByCols.lhsIdx_val_of_single rfl i q
/-- … its column the result's row; -/
theorem colsByCols_lhs_1 (i : S1024x512.Idx) (q : colsByCols.contr.Idx) : (colsByCols.lhsIdx i q 1).val = (i 0).val := by
  unfold DotDims.lhsIdx
  rw [dif_neg (show ¬(1 : Fin S1024x1024.rank) ∈ colsByCols.lhsBatch by decide), dif_pos (show (1 : Fin S1024x1024.rank) ∈ colsByCols.lhsNonContracting by decide)]
  rfl
/-- the right operand's row is the contraction position … -/
theorem colsByCols_rhs_0 (i : S1024x512.Idx) (q : colsByCols.contr.Idx) : (colsByCols.rhsIdx i q 0).val = (q ⟨0, by decide⟩).val :=
  colsByCols.rhsIdx_val_of_single rfl i q
/-- … and its column the result's column. -/
theorem colsByCols_rhs_1 (i : S1024x512.Idx) (q : colsByCols.contr.Idx) : (colsByCols.rhsIdx i q 1).val = (i 1).val := by
  unfold DotDims.rhsIdx
  rw [dif_neg (show ¬(1 : Fin S1024x512.rank) ∈ colsByCols.rhsBatch by decide), dif_pos (show (1 : Fin S1024x512.rank) ∈ colsByCols.rhsNonContracting by decide)]
  rfl

/-- Entry `(j, q)` of the product along the rows, accumulated into zero, is `∑ b, l (b, j) * r (b, q)`. -/
theorem colsByCols_zero_apply {φ₁ φ₂ : FTy} (l : FVec Ideal S1024x1024 φ₁) (r : FVec Ideal S1024x512 φ₂) (j : Fin 1024) (q : Fin 512) :
    matmul colsByCols none l r (constant S1024x512 .f32 0x00000000#32) (ix2 j q)
      = ∑ b : Fin 1024, l (ix2 b j) * r (ix2 b q) := by
  show FloatOps.matmul colsByCols none l r (constant S1024x512 .f32 0x00000000#32) (ix2 j q) = _
  rw [Ideal.matmul_constant_zero_apply, ← Equiv.sum_comp (contrEquiv1 colsByCols 1024 rfl rfl).symm]
  refine Finset.sum_congr rfl fun b _ => ?_
  have hb := contrEquiv1_symm_val colsByCols 1024 rfl rfl b
  have el : colsByCols.lhsIdx (ix2 j q) ((contrEquiv1 colsByCols 1024 rfl rfl).symm b) = ix2 b j := funext fun a => Fin.ext (by
    match a with
    | ⟨0, _⟩ => exact (colsByCols_lhs_0 _ _).trans hb
    | ⟨1, _⟩ => exact colsByCols_lhs_1 _ _)
  have er : colsByCols.rhsIdx (ix2 j q) ((contrEquiv1 colsByCols 1024 rfl rfl).symm b) = ix2 b q := funext fun a => Fin.ext (by
    match a with
    | ⟨0, _⟩ => exact (colsByCols_rhs_0 _ _).trans hb
    | ⟨1, _⟩ => exact colsByCols_rhs_1 _ _)
  rw [el, er]

/-- The value that clears the accumulator is zero at every entry. -/
theorem k1_pay1_apply (p c : Fin 1024) : k1_pay1 (F := Ideal) (ix2 p c) = 0 := by
  unfold k1_pay1
  refine (congrFun (shapeCast_self _ _) _).trans ?_
  exact Ideal.ofBits_zero_f32

/-- The weight increment at `(j, q)`, as the program forms it from the four blocks. -/
theorem increment_apply (t : Vec Ideal S1024x1024 .bf16) (x w : Vec Ideal S1024x512 .f32) (mn : Vec Ideal S1024x1 .f32)
    (j : Fin 1024) (q : Fin 512) :
    (matmul colsByCols none (shapeCast S1024x1024 t shapeCasts_S1024x1024_S1024x1024 : FVec Ideal S1024x1024 .bf16) (truncf .bf16 x bitsLt_bf16_f32 : FVec Ideal S1024x512 .bf16)
          (constant S1024x512 .f32 0x00000000#32) (ix2 j q) * Ideal.ofBits .f32 0x3A800000#32
        - broadcastTo S1024x512 (shapeCast S1024x1 mn shapeCasts_S1024x1_S1024x1) broadcasts_S1024x1_S1024x512 (ix2 j q) * w (ix2 j q))
      * Ideal.ofBits .f32 0x3C23D70A#32
    = ((∑ b : Fin 1024, t (ix2 b j) * x (ix2 b q)) * Ideal.ofBits .f32 0x3A800000#32 - mn (ix2 j (0 : Fin 1)) * w (ix2 j q))
      * Ideal.ofBits .f32 0x3C23D70A#32 := by
  rw [colsByCols_zero_apply, shapeCast_self, shapeCast_self, Cert.Columns.broadcastTo_a1_ab_apply]
  rfl

/-- One step's value: the accumulator plus the change of the layer's output that the block's increment causes. -/
theorem k1_pay2_apply (t : Vec Ideal S1024x1024 .bf16) (x w : Vec Ideal S1024x512 .f32) (mn : Vec Ideal S1024x1 .f32)
    (a : Vec Ideal S1024x1024 .f32) (p j : Fin 1024) :
    k1_pay2 (F := Ideal) t x w mn a (ix2 p j)
      = a (ix2 p j) + ∑ q : Fin 512, x (ix2 p q) *
          (((∑ b : Fin 1024, t (ix2 b j) * x (ix2 b q)) * Ideal.ofBits .f32 0x3A800000#32 - mn (ix2 j (0 : Fin 1)) * w (ix2 j q))
            * Ideal.ofBits .f32 0x3C23D70A#32) := by
  unfold k1_pay2
  refine (congrFun (shapeCast_self _ _) _).trans ?_
  refine (addf_apply _ _ _).trans ?_
  refine congrArg (a (ix2 p j) + ·) ?_
  refine (rowsByRows_zero_apply _ _ p j).trans ?_
  refine Finset.sum_congr rfl fun q _ => ?_
  exact congrArg (x (ix2 p q) * ·) (increment_apply t x w mn j q)

end Cert.KernelIdeal.Pay

end
-- ==== Proof.R1Value.lean ====
/-
  The second region's result, as one function of what the region finds.

  The sixteen points t = 8·cb + k walk, for each of the two blocks cb of 1024 output columns, through the eight
  blocks k of 512 contracted columns. At point t the body sees the block  t (b, r) = T (b, 1024·cb + r)  of the
  narrowed pre-activation, the inputs' block  x (p, q) = X (p, 512·k + q),  the weights' block
  w (r, q) = W (1024·cb + r, 512·k + q)  and the means' block  mn (r) = MN (1024·cb + r).
  The accumulator, cleared where k = 0, therefore holds after point t, at (p, r), the sum over the contracted
  columns e < 512·(k + 1) of  X (p, e) · dl (1024·cb + r, e),  dl the weight increment; where k = 7 this is the sum
  over all 4096 columns, and the stored block is a copy of it. The two stored blocks tile the 1024 × 2048 result.
-/
import proofs.«142751_j87144886436114_2_alg».proof.Proof.R1Payloads
import proofs.«142751_j87144886436114_2_alg».proof.Proof.Pay1
import Idealize.ShloMosaic.Lib.Pipeline.Value
import Idealize.ShloMosaic.Lib.ValueIdx

set_option maxRecDepth 16384

noncomputable section

namespace Cert.KernelIdeal.R1

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The narrowed pre-activation, the inputs, the weights and the batch means as the region finds them, as matrices
    of extended reals. -/
abbrev T : S1024x2048.Idx → EReal := V c main_v5
abbrev X : S1024x4096.Idx → EReal := V c main_arg0
abbrev W : S2048x4096.Idx → EReal := V c main_arg2
abbrev MN : S2048x1.Idx → EReal := V c main_v4

/-- One contracted column's share of entry `(p, j)` of the result: the input there times the weight increment. -/
def term (p : Fin 1024) (j : Fin 2048) (e : Fin 4096) : EReal :=
  X V c (ix2 p e) * (((∑ b : Fin 1024, T V c (ix2 b j) * X V c (ix2 b e)) * Ideal.ofBits .f32 0x3A800000#32 - MN V c (ix2 j (0 : Fin 1)) * W V c (ix2 j e)) * Ideal.ofBits .f32 0x3C23D70A#32)

/-- The same over the naturals, zero beyond the last column: the form the partial sums are stated in. -/
def termN (p : Fin 1024) (j : Fin 2048) (n : ℕ) : EReal := if h : n < 4096 then term V c p j ⟨n, h⟩ else 0

/-- The result: at `(p, j)` the sum of the shares of all contracted columns. -/
def G : S1024x2048.Idx → EReal := fun i => ∑ e : Fin 4096, term V c (i 0) (i 1) e

/-! ## The blocks the body sees -/

/-- Which block each window is on at point `t = 8·cb + k`. -/
theorem idx_facts : ∀ t : Fin cfg1.N, win1_0.index t (0 : Fin 2) = 0 ∧ win1_0.index t (1 : Fin 2) = t.val / 8
    ∧ win1_1.index t (0 : Fin 2) = 0 ∧ win1_1.index t (1 : Fin 2) = t.val % 8
    ∧ win1_2.index t (0 : Fin 2) = t.val / 8 ∧ win1_2.index t (1 : Fin 2) = t.val % 8
    ∧ win1_3.index t (0 : Fin 2) = t.val / 8 ∧ win1_3.index t (1 : Fin 2) = 0
    ∧ win1_4.index t (0 : Fin 2) = 0 ∧ win1_4.index t (1 : Fin 2) = t.val / 8 :=
  (by decide +kernel : ∀ t : Fin grid1.N, _)

/-- The pre-activation's block at point `t` is columns `1024·cb …` of the pre-activation. -/
theorem iblk0_apply (t : Fin cfg1.N) (y : S1024x1024.Idx) (i : S1024x2048.Idx)
    (h0 : (i 0).val = (y 0).val) (h1 : (i 1).val = 1024 * (t.val / 8) + (y 1).val) :
    (iblk V c 0 t : Vec Ideal S1024x1024 .bf16) y = T V c i := by
  obtain ⟨e0, e1, -⟩ := idx_facts t
  unfold iblk
  rw [View.read_apply]
  show V c main_v5 _ = V c main_v5 _
  congr 1
  funext a
  apply Fin.ext
  match a with
  | ⟨0, _⟩ => show win1_0.index t 0 * 1024 + 1 * (y 0).val = (i 0).val; rw [e0, h0]; omega
  | ⟨1, _⟩ => show win1_0.index t 1 * 1024 + 1 * (y 1).val = (i 1).val; rw [e1, h1]; omega

/-- The inputs' block at point `t` is columns `512·k …` of the inputs. -/
theorem iblk1_apply (t : Fin cfg1.N) (y : S1024x512.Idx) (i : S1024x4096.Idx)
    (h0 : (i 0).val = (y 0).val) (h1 : (i 1).val = 512 * (t.val % 8) + (y 1).val) :
    (iblk V c 1 t : Vec Ideal S1024x512 .f32) y = X V c i := by
  obtain ⟨-, -, e0, e1, -⟩ := idx_facts t
  unfold iblk
  rw [View.read_apply]
  show V c main_arg0 _ = V c main_arg0 _
  congr 1
  funext a
  apply Fin.ext
  match a with
  | ⟨0, _⟩ => show win1_1.index t 0 * 1024 + 1 * (y 0).val = (i 0).val; rw [e0, h0]; omega
  | ⟨1, _⟩ => show win1_1.index t 1 * 512 + 1 * (y 1).val = (i 1).val; rw [e1, h1]; omega

/-- The weights' block at point `t` is rows `1024·cb …` and columns `512·k …` of the weights. -/
theorem iblk2_apply (t : Fin cfg1.N) (y : S1024x512.Idx) (i : S2048x4096.Idx)
    (h0 : (i 0).val = 1024 * (t.val / 8) + (y 0).val) (h1 : (i 1).val = 512 * (t.val % 8) + (y 1).val) :
    (iblk V c 2 t : Vec Ideal S1024x512 .f32) y = W V c i := by
  obtain ⟨-, -, -, -, e0, e1, -⟩ := idx_facts t
  unfold iblk
  rw [View.read_apply]
  show V c main_arg2 _ = V c main_arg2 _
  congr 1
  funext a
  apply Fin.ext
  match a with
  | ⟨0, _⟩ => show win1_2.index t 0 * 1024 + 1 * (y 0).val = (i 0).val; rw [e0, h0]; omega
  | ⟨1, _⟩ => show win1_2.index t 1 * 512 + 1 * (y 1).val = (i 1).val; rw [e1, h1]; omega

/-- The means' block at point `t` is rows `1024·cb …` of the means. -/
theorem iblk3_apply (t : Fin cfg1.N) (y : S1024x1.Idx) (i : S2048x1.Idx)
    (h0 : (i 0).val = 1024 * (t.val / 8) + (y 0).val) (h1 : (i 1).val = (y 1).val) :
    (iblk V c 3 t : Vec Ideal S1024x1 .f32) y = MN V c i := by
  obtain ⟨-, -, -, -, -, -, e0, e1, -⟩ := idx_facts t
  unfold iblk
  rw [View.read_apply]
  show V c main_v4 _ = V c main_v4 _
  congr 1
  funext a
  apply Fin.ext
  match a with
  | ⟨0, _⟩ => show win1_3.index t 0 * 1024 + 1 * (y 0).val = (i 0).val; rw [e0, h0]; omega
  | ⟨1, _⟩ => show win1_3.index t 1 * 1 + 1 * (y 1).val = (i 1).val; rw [e1, h1]; omega

/-! ## One point's contribution -/

/-- A sum over the first `512·(k + 1)` columns is the sum over the first `512·k` plus the next 512. -/
theorem range_split (f : ℕ → EReal) (k : ℕ) :
    ∑ m ∈ Finset.range (512 * (k + 1)), f m = ∑ m ∈ Finset.range (512 * k), f m + ∑ m ∈ Finset.range 512, f (512 * k + m) := by
  rw [Nat.mul_add_one, Finset.sum_range_add]

/-- What a point adds at `(p, r)`, from blocks that are the arrays' parts at column block `k` and output column `j`:
    the shares of the columns `512·k … 512·k + 511`. -/
theorem step_sum (x w : Vec Ideal S1024x512 .f32) (tt : Vec Ideal S1024x1024 .bf16) (mn : Vec Ideal S1024x1 .f32)
    (k : ℕ) (hk : k < 8) (p r : Fin 1024) (j : Fin 2048)
    (hx : ∀ (a : Fin 1024) (q : Fin 512) (h : 512 * k + q.val < 4096), x (ix2 a q) = X V c (ix2 a ⟨512 * k + q.val, h⟩))
    (ht : ∀ b : Fin 1024, tt (ix2 b r) = T V c (ix2 b j))
    (hm : mn (ix2 r (0 : Fin 1)) = MN V c (ix2 j (0 : Fin 1)))
    (hw : ∀ (q : Fin 512) (h : 512 * k + q.val < 4096), w (ix2 r q) = W V c (ix2 j ⟨512 * k + q.val, h⟩)) :
    (∑ q : Fin 512, x (ix2 p q) * (((∑ b : Fin 1024, tt (ix2 b r) * x (ix2 b q)) * Ideal.ofBits .f32 0x3A800000#32 - mn (ix2 r (0 : Fin 1)) * w (ix2 r q)) * Ideal.ofBits .f32 0x3C23D70A#32))
      = ∑ m ∈ Finset.range 512, termN V c p j (512 * k + m) := by
  rw [Finset.sum_range]
  refine Finset.sum_congr rfl fun q _ => ?_
  have h : 512 * k + q.val < 4096 := by have := q.isLt; omega
  have hs : (∑ b : Fin 1024, tt (ix2 b r) * x (ix2 b q)) = ∑ b : Fin 1024, T V c (ix2 b j) * X V c (ix2 b ⟨512 * k + q.val, h⟩) :=
    Finset.sum_congr rfl fun b _ => by rw [ht b, hx b q h]
  unfold termN
  rw [dif_pos h]
  unfold term
  rw [hs, hx p q h, hm, hw q h]

/-! ## The accumulator, point by point -/

/-- After a point whose contracted block is the first, the accumulator holds the shares of the first 512 columns. -/
theorem acc_first (t : Fin cfg1.N) (hF : t.val % 8 = 0) (p r : Fin 1024) (j : Fin 2048) (hj : j.val = 1024 * (t.val / 8) + r.val) :
    (outsAt V c t.val t.isLt).2 (ix2 p r) = ∑ m ∈ Finset.range 512, termN V c p j (512 * (t.val % 8) + m) := by
  rw [outsAt_first V c t hF]
  dsimp only
  refine (congrFun (accFirst_eq (F := Ideal) c (grid1.coords t) (ms0 t) (hs0 t) (ms1 t) (hs1 t) (ms2 t) (hs2 t) (ms3 t) (hs3 t) (ms4 t) (hs4 t) acc (Memref.isWhole_whole _) ((isFirst_iff t).mpr hF) (fun h => not_last_of_first hF ((isLast_iff t).mp h)) (iblk V c 0 t) (iblk V c 1 t) (iblk V c 2 t) (iblk V c 3 t)) (ix2 p r)).trans ?_
  refine (k1_pay2_apply (iblk V c 0 t) (iblk V c 1 t) (iblk V c 2 t) (iblk V c 3 t) (k1_pay1 (F := Ideal)) p r).trans ?_
  rw [k1_pay1_apply, zero_add]
  exact step_sum V c (iblk V c 1 t) (iblk V c 2 t) (iblk V c 0 t) (iblk V c 3 t) (t.val % 8) (by omega) p r j
      (fun a q h => iblk1_apply V c t (ix2 a q) (ix2 a ⟨512 * (t.val % 8) + q.val, h⟩) rfl rfl)
      (fun b => iblk0_apply V c t (ix2 b r) (ix2 b j) rfl hj)
      (iblk3_apply V c t (ix2 r (0 : Fin 1)) (ix2 j (0 : Fin 1)) hj rfl)
      (fun q h => iblk2_apply V c t (ix2 r q) (ix2 j ⟨512 * (t.val % 8) + q.val, h⟩) hj rfl)

/-- After any other point it holds what the point before left plus the shares of the point's 512 columns. -/
theorem acc_step (t : Fin cfg1.N) (hF : ¬t.val % 8 = 0) (p r : Fin 1024) (j : Fin 2048) (hj : j.val = 1024 * (t.val / 8) + r.val) :
    (outsAt V c t.val t.isLt).2 (ix2 p r)
      = (outsAt V c (t.val - 1) (Nat.lt_of_le_of_lt (Nat.sub_le _ _) t.isLt)).2 (ix2 p r) + ∑ m ∈ Finset.range 512, termN V c p j (512 * (t.val % 8) + m) := by
  by_cases hL : t.val % 8 = 7
  · rw [outsAt_last V c t hF hL]
    dsimp only
    refine (congrFun (accLast_eq (F := Ideal) c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt V c (t.val - 1) (Nat.lt_of_le_of_lt (Nat.sub_le _ _) t.isLt)).2) (ix2 p r)).trans ?_
    refine (k1_pay2_apply (iblk V c 0 t) (iblk V c 1 t) (iblk V c 2 t) (iblk V c 3 t) (outsAt V c (t.val - 1) (Nat.lt_of_le_of_lt (Nat.sub_le _ _) t.isLt)).2 p r).trans ?_
    refine congrArg (_ + ·) ?_
    exact step_sum V c (iblk V c 1 t) (iblk V c 2 t) (iblk V c 0 t) (iblk V c 3 t) (t.val % 8) (by omega) p r j
      (fun a q h => iblk1_apply V c t (ix2 a q) (ix2 a ⟨512 * (t.val % 8) + q.val, h⟩) rfl rfl)
      (fun b => iblk0_apply V c t (ix2 b r) (ix2 b j) rfl hj)
      (iblk3_apply V c t (ix2 r (0 : Fin 1)) (ix2 j (0 : Fin 1)) hj rfl)
      (fun q h => iblk2_apply V c t (ix2 r q) (ix2 j ⟨512 * (t.val % 8) + q.val, h⟩) hj rfl)
  · rw [outsAt_mid V c t hF hL]
    dsimp only
    refine (congrFun (accMid_eq (F := Ideal) c (grid1.coords t) (ms0 t) (hs0 t) (ms1 t) (hs1 t) (ms2 t) (hs2 t) (ms3 t) (hs3 t) (ms4 t) (hs4 t) acc (Memref.isWhole_whole _) (fun h => hF ((isFirst_iff t).mp h)) (fun h => hL ((isLast_iff t).mp h)) (iblk V c 0 t) (iblk V c 1 t) (iblk V c 2 t) (iblk V c 3 t) (outsAt V c (t.val - 1) (Nat.lt_of_le_of_lt (Nat.sub_le _ _) t.isLt)).2) (ix2 p r)).trans ?_
    refine (k1_pay2_apply (iblk V c 0 t) (iblk V c 1 t) (iblk V c 2 t) (iblk V c 3 t) (outsAt V c (t.val - 1) (Nat.lt_of_le_of_lt (Nat.sub_le _ _) t.isLt)).2 p r).trans ?_
    refine congrArg (_ + ·) ?_
    exact step_sum V c (iblk V c 1 t) (iblk V c 2 t) (iblk V c 0 t) (iblk V c 3 t) (t.val % 8) (by omega) p r j
      (fun a q h => iblk1_apply V c t (ix2 a q) (ix2 a ⟨512 * (t.val % 8) + q.val, h⟩) rfl rfl)
      (fun b => iblk0_apply V c t (ix2 b r) (ix2 b j) rfl hj)
      (iblk3_apply V c t (ix2 r (0 : Fin 1)) (ix2 j (0 : Fin 1)) hj rfl)
      (fun q h => iblk2_apply V c t (ix2 r q) (ix2 j ⟨512 * (t.val % 8) + q.val, h⟩) hj rfl)

/-- So after point `n = 8·cb + k` the accumulator holds, at `(p, r)`, the shares of the first `512·(k + 1)` columns
    of entry `(p, 1024·cb + r)`. -/
theorem acc_at : ∀ (n : ℕ) (hn : n < cfg1.N) (p r : Fin 1024) (j : Fin 2048), j.val = 1024 * (n / 8) + r.val →
    (outsAt V c n hn).2 (ix2 p r) = ∑ m ∈ Finset.range (512 * (n % 8 + 1)), termN V c p j m := by
  intro n
  induction n with
  | zero =>
    intro hn p r j hj
    refine (acc_first V c ⟨0, hn⟩ (Nat.zero_mod 8) p r j hj).trans ?_
    show ∑ m ∈ Finset.range 512, termN V c p j (512 * (0 % 8) + m) = ∑ m ∈ Finset.range (512 * (0 % 8 + 1)), termN V c p j m
    rw [range_split, Nat.zero_mod, Nat.mul_zero, Finset.range_zero, Finset.sum_empty, zero_add]
  | succ n ih =>
    intro hn p r j hj
    by_cases hF : (n + 1) % 8 = 0
    · refine (acc_first V c ⟨n + 1, hn⟩ hF p r j hj).trans ?_
      show ∑ m ∈ Finset.range 512, termN V c p j (512 * ((n + 1) % 8) + m) = ∑ m ∈ Finset.range (512 * ((n + 1) % 8 + 1)), termN V c p j m
      rw [range_split, hF, Nat.mul_zero, Finset.range_zero, Finset.sum_empty, zero_add]
    · refine (acc_step V c ⟨n + 1, hn⟩ hF p r j hj).trans ?_
      show (outsAt V c n (Nat.lt_of_succ_lt hn)).2 (ix2 p r) + ∑ m ∈ Finset.range 512, termN V c p j (512 * ((n + 1) % 8) + m)
        = ∑ m ∈ Finset.range (512 * ((n + 1) % 8 + 1)), termN V c p j m
      have e8 : (n + 1) % 8 = n % 8 + 1 := by omega
      have hj' : j.val = 1024 * (n / 8) + r.val := by
        have : (n + 1) / 8 = n / 8 := by omega
        rw [← this]; exact hj
      rw [ih (Nat.lt_of_succ_lt hn) p r j hj', e8, range_split (termN V c p j) (n % 8 + 1)]

/-! ## What is written back, and where -/

/-- At a point whose contracted block is the last the stored block is the accumulator. -/
theorem out_eq_acc (t : Fin cfg1.N) (hF : ¬t.val % 8 = 0) (hL : t.val % 8 = 7) :
    (outsAt V c t.val t.isLt).1 = (outsAt V c t.val t.isLt).2 := by
  rw [outsAt_last V c t hF hL]
  dsimp only
  exact (outLast_eq (F := Ideal) c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt V c (t.val - 1) (Nat.lt_of_le_of_lt (Nat.sub_le _ _) t.isLt)).2).trans
    (accLast_eq (F := Ideal) c (grid1.coords t) (ms0 t) (hs0 t) (ms1 t) (hs1 t) (ms2 t) (hs2 t) (ms3 t) (hs3 t) (ms4 t) (hs4 t) acc (Memref.isWhole_whole _) (fun h => hF ((isFirst_iff t).mp h)) ((isLast_iff t).mpr hL) (iblk V c 0 t) (iblk V c 1 t) (iblk V c 2 t) (iblk V c 3 t) (outsAt V c (t.val - 1) (Nat.lt_of_le_of_lt (Nat.sub_le _ _) t.isLt)).2).symm

/-- WHAT A POINT WRITES BACK is its block of the result. -/
theorem flushed4_eq (t : Fin cfg1.N) (hf : (cfg1.win 4).flush t = true) :
    (dat1 V c).flushed 4 t = ((cfg1.win 4).blk t).view.read (Elt Ideal) (G V c) := by
  have hL : t.val % 8 = 7 := (flush1_4 t).mp hf
  have hF : ¬t.val % 8 = 0 := by omega
  have hN : t.val < 16 := lt_of_lt_of_eq t.isLt (show cfg1.N = 16 from N_1)
  obtain ⟨-, -, -, -, -, -, -, -, e0, e1⟩ := idx_facts t
  show (cfg1.win 4).cut (grid1.coords t) ((dat1 V c).after 4 t) = _
  rw [after_4, out_eq_acc V c t hF hL]
  funext y
  obtain ⟨p, r, rfl⟩ : ∃ p r, y = ix2 p r := ⟨y 0, y 1, eq_ix2 y⟩
  let j : Fin 2048 := ⟨1024 * (t.val / 8) + r.val, by have := r.isLt; omega⟩
  have he : ((cfg1.win 4).blk t).view.emb (ix2 p r) = (ix2 p j : S1024x2048.Idx) := by
    funext a
    apply Fin.ext
    match a with
    | ⟨0, _⟩ => show win1_4.index t 0 * 1024 + 1 * p.val = p.val; rw [e0]; omega
    | ⟨1, _⟩ => show win1_4.index t 1 * 1024 + 1 * r.val = 1024 * (t.val / 8) + r.val; rw [e1]; omega
  show (outsAt V c t.val t.isLt).2 (ix2 p r) = G V c (((cfg1.win 4).blk t).view.emb (ix2 p r))
  rw [he, acc_at V c t.val t.isLt p r j rfl]
  show ∑ m ∈ Finset.range (512 * (t.val % 8 + 1)), termN V c p j m = ∑ e : Fin 4096, term V c p j e
  have e4 : 512 * (t.val % 8 + 1) = 4096 := by omega
  rw [e4, Finset.sum_range]
  refine Finset.sum_congr rfl fun e _ => ?_
  unfold termN
  rw [dif_pos e.isLt]

/-- An entry of the result is in point `t`'s block iff each coordinate is in the block's range on its axis. -/
theorem mem_outBlock (t : Fin cfg1.N) (i : S1024x2048.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v6).slice (win1_4.rect t)).set ↔ _
  rw [View.set_slice_whole, Rect.mem_set_unit]
  exact Iff.rfl

/-- Every entry `(p, q)` of the result is in the block stored at the last point of its column block, `t = 8·(q / 1024) + 7`. -/
theorem outBlocks_cover (i : S1024x2048.Idx) :
    ∃ t : Fin cfg1.N, (cfg1.win 4).flush t = true ∧ i ∈ ((cfg1.win 4).blk t).view.set := by
  have hN : cfg1.N = 16 := N_1
  have hi0 : (i 0).val < 1024 := (i 0).isLt
  have hi1 : (i 1).val < 2048 := (i 1).isLt
  let t : Fin cfg1.N := ⟨8 * ((i 1).val / 1024) + 7, by rw [hN]; omega⟩
  have ht : t.val = 8 * ((i 1).val / 1024) + 7 := rfl
  obtain ⟨-, -, -, -, -, -, -, -, e0, e1⟩ := idx_facts t
  refine ⟨t, (flush1_4 t).mpr (by rw [ht]; omega), ?_⟩
  rw [mem_outBlock]
  intro a
  match a with
  | ⟨0, _⟩ => show win1_4.index t (0 : Fin 2) * 1024 ≤ (i 0).val ∧ (i 0).val < win1_4.index t (0 : Fin 2) * 1024 + 1024; rw [e0]; omega
  | ⟨1, _⟩ => show win1_4.index t (1 : Fin 2) * 1024 ≤ (i 1).val ∧ (i 1).val < win1_4.index t (1 : Fin 2) * 1024 + 1024; rw [e1, ht]; omega

/-! ## The result -/

/-- The region's output array ends holding the result. -/
theorem final4 : (dat1 V c).arrAt 4 cfg1.N = G V c :=
  (dat1 V c).arrAt_eq_of_cover 4 (G V c) (flushed4_eq V c) (outBlocks_cover)

/-- Entry `(p, j)` of the region's output array after the region: the sum over the contracted columns of the input
    times the weight increment. -/
theorem arr1_apply (p : Fin 1024) (j : Fin 2048) :
    ((dat1 (F := Ideal) V c).arrAt 4 cfg1.N : S1024x2048.Idx → EReal) (ix2 p j)
      = ∑ e : Fin 4096, X V c (ix2 p e) * (((∑ b : Fin 1024, T V c (ix2 b j) * X V c (ix2 b e)) * Ideal.ofBits .f32 0x3A800000#32 - MN V c (ix2 j (0 : Fin 1)) * W V c (ix2 j e)) * Ideal.ofBits .f32 0x3C23D70A#32) := by
  rw [final4 V c]
  rfl

end Cert.KernelIdeal.R1

end
-- ==== Proof.RefStages.lean ====
/-
  The reference program, one operation at a time, on real inputs.

  Each of the reference's operations, read at an index, takes (coercions of) reals to (the coercion
  of) a real: a sum of products of reals is the real sum of products, a quotient by the real 1024 or
  2097152 is the real quotient, a broadcast or transpose only moves indices. So when the three input
  arrays are real arrays, every intermediate array is a real array, and which one is spelled out by
  the second order of Spec.lean: rv1, rpre, rd, rmean, rinc, wnew, post, and the two mean squares.
-/
import proofs.«142751_j87144886436114_2_alg».proof.Proof.Gen.ReferenceIdeal.Read
import proofs.«142751_j87144886436114_2_alg».proof.Proof.Embed
import proofs.«142751_j87144886436114_2_alg».proof.Proof.Spec

noncomputable section

namespace Cert.ReferenceIdeal.RefValue

open Cert.ReferenceIdeal Cert.ReferenceIdeal.Gen Cert.ReferenceIdeal.Read Idealize.ShloMosaic
  Idealize.ShloMosaic.ValueIdx

variable (x : Fin 1024 → Fin 4096 → ℝ) (d : Fin 1024 → Fin 2048 → ℝ) (w : Fin 2048 → Fin 4096 → ℝ)

/-- A double sum of real entries is the coercion of the real double sum. -/
theorem sum_sum_coe {ι κ : Type*} [Fintype ι] [Fintype κ] (f : ι → κ → ℝ) :
    ∑ a, ∑ b, (f a b : EReal) = ((∑ a, ∑ b, f a b : ℝ) : EReal) := by
  rw [Hebb.coe_sum]
  exact Finset.sum_congr rfl fun a _ => Hebb.sum_coe (f a)

/-- The square of a difference of two reals, computed in the extended reals, is the real square. -/
theorem sq_sub_coe (a b : ℝ) :
    FloatOps.mulf (F := Ideal) (φ := .f32) (FloatOps.subf (a : EReal) (b : EReal)) (FloatOps.subf (a : EReal) (b : EReal))
      = (((a - b) * (a - b) : ℝ) : EReal) := by
  show ((a : EReal) - b) * ((a : EReal) - b) = _
  rw [← EReal.coe_sub, ← EReal.coe_mul]

/-- A sum over a rank-2 index set of real entries is the coercion of the real double sum. -/
theorem sum_idx2_coe {n0 n1 : Nat} (G : Fin n0 → Fin n1 → ℝ) :
    ∑ j : (⟨2, ![n0, n1]⟩ : Shape).Idx, ((G (j 0) (j 1) : ℝ) : EReal) = ((∑ a, ∑ b, G a b : ℝ) : EReal) :=
  (sum_idx2 _).trans (sum_sum_coe G)

/-- x · wᵀ : the old output. -/
theorem v1_eq (i : S1024x2048.Idx) :
    val_main_v1 (F := Ideal) (Hebb.emb2 x) (Hebb.emb2 w) i = ((Hebb.rv1 x w (i 0) (i 1) : ℝ) : EReal) := by
  rw [val_main_v1_apply]
  simp only [val_main_v0_apply]
  exact Hebb.sum_coe_mul_coe (fun k => x (i 0) k) (fun k => w (i 1) k)

/-- drive + old output. -/
theorem v2_eq (i : S1024x2048.Idx) :
    val_main_v2 (F := Ideal) (Hebb.emb2 x) (Hebb.emb2 d) (Hebb.emb2 w) i
      = ((Hebb.rpre x d w (i 0) (i 1) : ℝ) : EReal) := by
  rw [val_main_v2_apply, v1_eq]
  exact (EReal.coe_add _ _).symm

/-- preᵀ · x : the outer product summed over the batch. -/
theorem v3_eq (i : S2048x4096.Idx) :
    val_main_v3 (F := Ideal) (Hebb.emb2 x) (Hebb.emb2 d) (Hebb.emb2 w) i
      = ((∑ b : Fin 1024, Hebb.rpre x d w b (i 0) * x b (i 1) : ℝ) : EReal) := by
  rw [val_main_v3_apply]
  simp only [v2_eq]
  exact Hebb.sum_coe_mul_coe (fun b => Hebb.rpre x d w b (i 0)) (fun b => x b (i 1))

theorem v4_eq (i : S2048x4096.Idx) : val_main_v4 (F := Ideal) i = ((1024 : ℝ) : EReal) := by
  rw [val_main_v4_apply, val_main_cst_apply]
  exact Hebb.ofBits_1024

/-- … divided by the batch size. -/
theorem v5_eq (i : S2048x4096.Idx) :
    val_main_v5 (F := Ideal) (Hebb.emb2 x) (Hebb.emb2 d) (Hebb.emb2 w) i
      = ((Hebb.rd x d w (i 0) (i 1) : ℝ) : EReal) := by
  rw [val_main_v5_apply, v3_eq, v4_eq]
  exact Hebb.div_coe_coe _ (by norm_num)

/-- The batch sum of the pre-activation (the initial value of the sum is the zero word). -/
theorem v6_eq (i : S2048.Idx) :
    val_main_v6 (F := Ideal) (Hebb.emb2 x) (Hebb.emb2 d) (Hebb.emb2 w) i
      = ((∑ b : Fin 1024, Hebb.rpre x d w b (i 0) : ℝ) : EReal) := by
  rw [val_main_v6_apply, val_main_cst_0_apply, Ideal.ofBits_def, Ideal.ofBits_zero_f32, zero_add]
  simp only [v2_eq]
  exact Hebb.sum_coe (fun b => Hebb.rpre x d w b (i 0))

theorem v7_eq (i : S2048.Idx) : val_main_v7 (F := Ideal) i = ((1024 : ℝ) : EReal) := by
  rw [val_main_v7_apply, val_main_cst_1_apply]
  exact Hebb.ofBits_1024

/-- The batch mean. -/
theorem v8_eq (i : S2048.Idx) :
    val_main_v8 (F := Ideal) (Hebb.emb2 x) (Hebb.emb2 d) (Hebb.emb2 w) i
      = ((Hebb.rmean x d w (i 0) : ℝ) : EReal) := by
  rw [val_main_v8_apply, v6_eq, v7_eq]
  exact Hebb.div_coe_coe _ (by norm_num)

/-- The mean along every column of its row. -/
theorem v10_eq (i : S2048x4096.Idx) :
    val_main_v10 (F := Ideal) (Hebb.emb2 x) (Hebb.emb2 d) (Hebb.emb2 w) i
      = ((Hebb.rmean x d w (i 0) : ℝ) : EReal) := by
  rw [val_main_v10_apply, val_main_v9_apply, v8_eq]
  rfl

theorem v11_eq (i : S2048x4096.Idx) :
    val_main_v11 (F := Ideal) (Hebb.emb2 x) (Hebb.emb2 d) (Hebb.emb2 w) i
      = ((Hebb.rmean x d w (i 0) * w (i 0) (i 1) : ℝ) : EReal) := by
  rw [val_main_v11_apply, v10_eq]
  exact (EReal.coe_mul _ _).symm

/-- The increment before the step size. -/
theorem v12_eq (i : S2048x4096.Idx) :
    val_main_v12 (F := Ideal) (Hebb.emb2 x) (Hebb.emb2 d) (Hebb.emb2 w) i
      = ((Hebb.rinc x d w (i 0) (i 1) : ℝ) : EReal) := by
  rw [val_main_v12_apply, v5_eq, v11_eq]
  exact (EReal.coe_sub _ _).symm

theorem v13_eq (i : S2048x4096.Idx) : val_main_v13 (F := Ideal) i = ((Hebb.stepSize : ℝ) : EReal) := by
  rw [val_main_v13_apply, val_main_cst_2_apply]
  exact Hebb.ofBits_stepSize

/-- The new weights. -/
theorem v15_eq (i : S2048x4096.Idx) :
    val_main_v15 (F := Ideal) (Hebb.emb2 x) (Hebb.emb2 d) (Hebb.emb2 w) i
      = ((Hebb.wnew x d w Hebb.stepSize (i 0) (i 1) : ℝ) : EReal) := by
  rw [val_main_v15_apply, val_main_v14_apply, v13_eq, v12_eq]
  exact ((EReal.coe_add _ _).trans (congrArg _ (EReal.coe_mul _ _))).symm

/-- x · wnewᵀ : the new output. -/
theorem v17_eq (i : S1024x2048.Idx) :
    val_main_v17 (F := Ideal) (Hebb.emb2 x) (Hebb.emb2 d) (Hebb.emb2 w) i
      = ((Hebb.post x d w Hebb.stepSize (i 0) (i 1) : ℝ) : EReal) := by
  rw [val_main_v17_apply]
  simp only [val_main_v16_apply, v15_eq]
  exact Hebb.sum_coe_mul_coe (fun k => x (i 0) k) (fun k => Hebb.wnew x d w Hebb.stepSize (i 1) k)

/-- (old output − new output)². -/
theorem v20_eq (i : S1024x2048.Idx) :
    val_main_v20 (F := Ideal) (Hebb.emb2 x) (Hebb.emb2 d) (Hebb.emb2 w) i
      = (((Hebb.rv1 x w (i 0) (i 1) - Hebb.post x d w Hebb.stepSize (i 0) (i 1)) *
          (Hebb.rv1 x w (i 0) (i 1) - Hebb.post x d w Hebb.stepSize (i 0) (i 1)) : ℝ) : EReal) := by
  rw [val_main_v20_apply, val_main_v19_apply, v1_eq, v17_eq]
  exact sq_sub_coe _ _

/-- (old pre-activation − new pre-activation)². -/
theorem v24_eq (i : S1024x2048.Idx) :
    val_main_v24 (F := Ideal) (Hebb.emb2 x) (Hebb.emb2 d) (Hebb.emb2 w) i
      = ((((d (i 0) (i 1) + Hebb.rv1 x w (i 0) (i 1)) - (d (i 0) (i 1) + Hebb.post x d w Hebb.stepSize (i 0) (i 1))) *
          ((d (i 0) (i 1) + Hebb.rv1 x w (i 0) (i 1)) - (d (i 0) (i 1) + Hebb.post x d w Hebb.stepSize (i 0) (i 1))) : ℝ) : EReal) := by
  have h18 : val_main_v18 (F := Ideal) (Hebb.emb2 x) (Hebb.emb2 d) (Hebb.emb2 w) i
      = ((d (i 0) (i 1) + Hebb.post x d w Hebb.stepSize (i 0) (i 1) : ℝ) : EReal) := by
    rw [val_main_v18_apply, v17_eq]
    exact (EReal.coe_add _ _).symm
  have h2 : val_main_v2 (F := Ideal) (Hebb.emb2 x) (Hebb.emb2 d) (Hebb.emb2 w) i
      = ((d (i 0) (i 1) + Hebb.rv1 x w (i 0) (i 1) : ℝ) : EReal) := v2_eq x d w i
  rw [val_main_v24_apply, val_main_v23_apply, h2, h18]
  exact sq_sub_coe _ _

end Cert.ReferenceIdeal.RefValue

end
-- ==== Proof.SpecLaw.lean ====
/-
  The two orders of Spec.lean agree over the reals.

  Everything is linearity of a finite sum:  Σ (f − g) = Σ f − Σ g  and  Σ (−f) = −Σ f.
-/
import proofs.«142751_j87144886436114_2_alg».proof.Proof.Spec
import Mathlib.Tactic.Ring

namespace Cert.Hebb

/-- The key identity, over any finite index type: replacing the weight row  w  by  w + c·r  moves
    the inner product with  x  by exactly  Σ x·(c·r). -/
theorem sum_sub_sum_add {ι : Type*} [Fintype ι] (x w r : ι → ℝ) (c : ℝ) :
    (∑ e, x e * w e) - (∑ e, x e * (w e + c * r e)) = -∑ e, x e * (c * r e) := by
  rw [← Finset.sum_sub_distrib, ← Finset.sum_neg_distrib]
  exact Finset.sum_congr rfl fun e _ => by ring

variable (x : Fin 1024 → Fin 4096 → ℝ) (d : Fin 1024 → Fin 2048 → ℝ) (w : Fin 2048 → Fin 4096 → ℝ)
  (c : ℝ)

/-- The two pre-activations differ only in the order of one addition. -/
theorem rpre_eq_pre (b : Fin 1024) (j : Fin 2048) : rpre x d w b j = pre x d w b j := by
  unfold rpre pre rv1
  exact add_comm _ _

theorem rmean_eq_mean (j : Fin 2048) : rmean x d w j = mean x d w j := by
  unfold rmean mean
  simp only [rpre_eq_pre]

/-- The increment of the first order is the second order's, times the step size. -/
theorem dl_eq (j : Fin 2048) (e : Fin 4096) : dl x d w c j e = c * rinc x d w j e := by
  unfold dl rinc rd
  simp only [rpre_eq_pre, rmean_eq_mean]
  ring

/-- Old output minus new output is minus the change the increment causes. -/
theorem rv1_sub_post (b : Fin 1024) (j : Fin 2048) :
    rv1 x w b j - post x d w c b j = -diff x d w c b j := by
  unfold rv1 post diff wnew
  rw [sum_sub_sum_add]
  simp only [dl_eq]

theorem rloss2_eq_loss : rloss2 x d w c = loss x d w c := by
  unfold rloss2 loss
  simp only [rv1_sub_post, neg_mul_neg]

theorem rloss3_eq_loss : rloss3 x d w c = loss x d w c := by
  unfold rloss3 loss
  simp only [add_sub_add_left_eq_sub, rv1_sub_post, neg_mul_neg]

end Cert.Hebb
-- ==== Proof.RefValue.lean ====
/-
  The reference's four results on real inputs, as explicit functions.

  When the three inputs are real arrays  x, d, w , the reference ends with
    result 0 :  the pre-activation  pre x d w , entry by entry;
    result 1 :  zero;
    results 2 and 3 :  the mean square  loss x d w c  of the change the weight increment causes in the
                       layer's output, with  c  the real number the step-size literal denotes.
  RefStages.lean reads each operation on reals and lands on the second order of Spec.lean
  (new weights first: rloss2, rloss3); SpecLaw.lean says that order agrees with the first one. The
  sum over all  1024 × 2048  entries, which the program takes over the rank-2 index set in one go,
  is the double sum over rows and columns.
-/
import proofs.«142751_j87144886436114_2_alg».proof.Proof.RefStages
import proofs.«142751_j87144886436114_2_alg».proof.Proof.SpecLaw

noncomputable section

namespace Cert.ReferenceIdeal.RefValue

open Cert.ReferenceIdeal Cert.ReferenceIdeal.Gen Cert.ReferenceIdeal.Read Idealize.ShloMosaic
  Idealize.ShloMosaic.ValueIdx

variable (x : Fin 1024 → Fin 4096 → ℝ) (d : Fin 1024 → Fin 2048 → ℝ) (w : Fin 2048 → Fin 4096 → ℝ)

/-- Mean square of (old output − new output), the program's way. -/
theorem v22_eq (i : S_.Idx) :
    val_main_v22 (F := Ideal) (Hebb.emb2 x) (Hebb.emb2 d) (Hebb.emb2 w) i
      = ((Hebb.rloss2 x d w Hebb.stepSize : ℝ) : EReal) := by
  rw [val_main_v22_apply, val_main_v21_apply, val_main_cst_3_apply, val_main_cst_4_apply, Ideal.ofBits_def,
    Ideal.ofBits_def, Ideal.ofBits_zero_f32, zero_add, Hebb.ofBits_2097152]
  simp only [v20_eq]
  rw [sum_idx2_coe (fun b j => (Hebb.rv1 x w b j - Hebb.post x d w Hebb.stepSize b j) *
    (Hebb.rv1 x w b j - Hebb.post x d w Hebb.stepSize b j))]
  exact Hebb.div_coe_coe _ (by norm_num)

/-- Mean square of (old pre-activation − new pre-activation), the program's way. -/
theorem v26_eq (i : S_.Idx) :
    val_main_v26 (F := Ideal) (Hebb.emb2 x) (Hebb.emb2 d) (Hebb.emb2 w) i
      = ((Hebb.rloss3 x d w Hebb.stepSize : ℝ) : EReal) := by
  rw [val_main_v26_apply, val_main_v25_apply, val_main_cst_5_apply, val_main_cst_6_apply, Ideal.ofBits_def,
    Ideal.ofBits_def, Ideal.ofBits_zero_f32, zero_add, Hebb.ofBits_2097152]
  simp only [v24_eq]
  rw [sum_idx2_coe (fun b j =>
    ((d b j + Hebb.rv1 x w b j) - (d b j + Hebb.post x d w Hebb.stepSize b j)) *
      ((d b j + Hebb.rv1 x w b j) - (d b j + Hebb.post x d w Hebb.stepSize b j)))]
  exact Hebb.div_coe_coe _ (by norm_num)

/-- Result 0: the pre-activation. -/
theorem result0 :
    val_main_v2 (F := Ideal) (Hebb.emb2 x) (Hebb.emb2 d) (Hebb.emb2 w) = Hebb.emb2 (Hebb.pre x d w) := by
  funext i
  exact (v2_eq x d w i).trans (congrArg Real.toEReal (Hebb.rpre_eq_pre x d w _ _))

/-- Result 1: zero. -/
theorem result1 : val_main_cst_7 (F := Ideal) = fun _ => (0 : EReal) := by
  funext i
  rw [val_main_cst_7_apply, Ideal.ofBits_def, Ideal.ofBits_zero_f32]

/-- Result 2: the loss. -/
theorem result2 :
    val_main_v22 (F := Ideal) (Hebb.emb2 x) (Hebb.emb2 d) (Hebb.emb2 w)
      = fun _ => ((Hebb.loss x d w Hebb.stepSize : ℝ) : EReal) := by
  funext i
  exact (v22_eq x d w i).trans (congrArg Real.toEReal (Hebb.rloss2_eq_loss x d w _))

/-- Result 3: the loss again (the drive cancels). -/
theorem result3 :
    val_main_v26 (F := Ideal) (Hebb.emb2 x) (Hebb.emb2 d) (Hebb.emb2 w)
      = fun _ => ((Hebb.loss x d w Hebb.stepSize : ℝ) : EReal) := by
  funext i
  exact (v26_eq x d w i).trans (congrArg Real.toEReal (Hebb.rloss3_eq_loss x d w _))

end Cert.ReferenceIdeal.RefValue

end
-- ==== Proof.Finite.lean ====
/-
  From the precondition to "every input entry is a real number".

  The precondition is three tests  all(|a| < +∞)  joined by "and", one per input array. In the
  extended reals  |a| = max a (−a)  and the word 0x7F800000 denotes +∞, so  |a| < +∞  says exactly
  that  a  is neither +∞ nor −∞: it is (the coercion of) a real number. Hence each input array is a
  real array read inside the extended reals.
-/
import proofs.«142751_j87144886436114_2_alg».proof.Pre_finite_inputs
import proofs.«142751_j87144886436114_2_alg».proof.Proof.Embed
import Idealize.ShloMosaic.Lib.ReduceAll

noncomputable section

namespace Cert.Hebb.Finite

open Idealize.ShloMosaic Idealize.ShloMosaic.ValueIdx Cert.Pre_finite_inputs

/-- The scalar shape has one index. -/
instance : Subsingleton S_.Idx := ⟨fun a b => funext fun d => d.elim0⟩

/-- One entry: if  |a| < +∞  holds (as the one-bit word 1) then  a  is neither infinity. -/
theorem ne_top_bot_of_abs_lt (a : EReal)
    (h : FloatOps.cmpf (F := Ideal) (φ := .f32) .olt (FloatOps.hostAbsf a)
      (FloatOps.ofBits (F := Ideal) .f32 0x7F800000#32) = 1#1) :
    a ≠ ⊤ ∧ a ≠ ⊥ := by
  have htop : Ideal.ofBits .f32 0x7F800000#32 = ⊤ := by simp [Ideal.ofBits, Ideal.ieee]
  change Ideal.cmp .olt (max a (-a)) (Ideal.ofBits .f32 0x7F800000#32) = 1#1 at h
  rw [htop] at h
  unfold Ideal.cmp at h
  constructor
  · rintro rfl
    simp at h
  · rintro rfl
    simp at h

/-- Under the precondition no entry of any input array is an infinity. -/
theorem finite_of_pre [Facts] (A0 : FVec Ideal S1024x4096 .f32) (A1 : FVec Ideal S1024x2048 .f32)
    (A2 : FVec Ideal S2048x4096 .f32) (h : fn (F := Ideal) A0 A1 A2 = fun _ => 1#1) :
    (∀ i, A0 i ≠ ⊤ ∧ A0 i ≠ ⊥) ∧ (∀ i, A1 i ≠ ⊤ ∧ A1 i ≠ ⊥) ∧ (∀ i, A2 i ≠ ⊤ ∧ A2 i ≠ ⊥) := by
  have h0 := congrFun h ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact ne_top_bot_of_abs_lt _ (Host.reduce_andi_all _ _ _ _ _ h0' i)
  · exact ne_top_bot_of_abs_lt _ (Host.reduce_andi_all _ _ _ _ _ h1 i)
  · exact ne_top_bot_of_abs_lt _ (Host.reduce_andi_all _ _ _ _ _ h2 i)

/-- An array of extended reals with no infinite entry is a real array. -/
theorem eq_emb2_of_finite {n0 n1 : Nat} (A : (⟨2, ![n0, n1]⟩ : Shape).Idx → EReal)
    (hA : ∀ i, A i ≠ ⊤ ∧ A i ≠ ⊥) : A = emb2 fun a b => (A (ix2 a b)).toReal := by
  funext i
  rw [emb2_apply, EReal.coe_toReal (hA _).1 (hA _).2]
  exact congrArg A (eq_ix2 i)

/-- Under the precondition the three input arrays are real arrays. -/
theorem exists_real_of_pre [Facts] (A0 : FVec Ideal S1024x4096 .f32) (A1 : FVec Ideal S1024x2048 .f32)
    (A2 : FVec Ideal S2048x4096 .f32) (h : fn (F := Ideal) A0 A1 A2 = fun _ => 1#1) :
    ∃ (x : Fin 1024 → Fin 4096 → ℝ) (d : Fin 1024 → Fin 2048 → ℝ) (w : Fin 2048 → Fin 4096 → ℝ),
      A0 = emb2 x ∧ A1 = emb2 d ∧ A2 = emb2 w := by
  obtain ⟨f0, f1, f2⟩ := finite_of_pre A0 A1 A2 h
  exact ⟨_, _, _, eq_emb2_of_finite A0 f0, eq_emb2_of_finite A1 f1, eq_emb2_of_finite A2 f2⟩

end Cert.Hebb.Finite

end
-- ==== Proof.PreTransport.lean ====
/-
  The precondition, applied to the kernel's memory: on every device the three argument arrays are
  real arrays read inside the extended reals (no entry is an infinity). When a second memory agrees
  with the first on the arguments, its argument arrays are the same real arrays.
-/
import proofs.«142751_j87144886436114_2_alg».proof.Defs
import proofs.«142751_j87144886436114_2_alg».proof.Proof.Finite

noncomputable section

namespace Cert.Hebb.Finite

open Idealize.ShloMosaic Idealize.SL.Sem

/-- Under the precondition, the kernel's three argument arrays are real arrays, device by device. -/
theorem real_args_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (x : Fin 1024 → Fin 4096 → ℝ) (d : Fin 1024 → Fin 2048 → ℝ) (w : Fin 2048 → Fin 4096 → ℝ),
      m ((c.tc : Thread Cert.KernelIdeal.nD Cert.KernelIdeal.τ).loc Cert.KernelIdeal.main_arg0) = emb2 x
      ∧ m ((c.tc : Thread Cert.KernelIdeal.nD Cert.KernelIdeal.τ).loc Cert.KernelIdeal.main_arg1) = emb2 d
      ∧ m ((c.tc : Thread Cert.KernelIdeal.nD Cert.KernelIdeal.τ).loc Cert.KernelIdeal.main_arg2) = emb2 w :=
  exists_real_of_pre _ _ _ (h c)

/-- The same, together with a reference memory that agrees with the kernel's on the arguments: both
    memories hold the same three real arrays. -/
theorem real_args_of_pre_agree [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    ∃ (x : Fin 1024 → Fin 4096 → ℝ) (d : Fin 1024 → Fin 2048 → ℝ) (w : Fin 2048 → Fin 4096 → ℝ),
      (m ((c.tc : Thread Cert.KernelIdeal.nD Cert.KernelIdeal.τ).loc Cert.KernelIdeal.main_arg0) = emb2 x
      ∧ m ((c.tc : Thread Cert.KernelIdeal.nD Cert.KernelIdeal.τ).loc Cert.KernelIdeal.main_arg1) = emb2 d
      ∧ m ((c.tc : Thread Cert.KernelIdeal.nD Cert.KernelIdeal.τ).loc Cert.KernelIdeal.main_arg2) = emb2 w)
      ∧ (m' ((c.tc : Thread Cert.ReferenceIdeal.nD Cert.ReferenceIdeal.τ).loc Cert.ReferenceIdeal.main_arg0) = emb2 x
      ∧ m' ((c.tc : Thread Cert.ReferenceIdeal.nD Cert.ReferenceIdeal.τ).loc Cert.ReferenceIdeal.main_arg1) = emb2 d
      ∧ m' ((c.tc : Thread Cert.ReferenceIdeal.nD Cert.ReferenceIdeal.τ).loc Cert.ReferenceIdeal.main_arg2) = emb2 w) := by
  obtain ⟨x, d, w, h0, h1, h2⟩ := real_args_of_pre m h c
  exact ⟨x, d, w, ⟨h0, h1, h2⟩, (hagree c).1.trans h0, (hagree c).2.1.trans h1, (hagree c).2.2.trans h2⟩

end Cert.Hebb.Finite

end
-- ==== Proof.Algebraic.lean ====
/-
  The two idealized programs end with equal results. Under the precondition every input entry is a real number,
  so the three argument arrays are the extended-real readings of real matrices `x`, `d`, `w`; the agreement
  hypothesis makes the reference's arguments the same matrices. The kernel's four results are then the
  readings of  x·wᵀ + d,  0,  and twice the mean of squares of  x·(c·δ)ᵀ  (δ the Hebbian increment), and the
  reference's four results are the readings of the same real functions: its two losses differ from the kernel's
  only by the cancellation  a − (a + c·b) = −(c·b), valid in the reals.
-/
import proofs.«142751_j87144886436114_2_alg».proof.Defs
import proofs.«142751_j87144886436114_2_alg».proof.Proof.Gen.ReferenceIdeal.Run
import proofs.«142751_j87144886436114_2_alg».proof.Proof.Gen.ReferenceIdeal.Read
import proofs.«142751_j87144886436114_2_alg».proof.Proof.Gen.Pre_finite_inputs
import proofs.«142751_j87144886436114_2_alg».proof.Proof.Gen.KernelIdeal
import proofs.«142751_j87144886436114_2_alg».proof.Proof.Gen.ReferenceIdeal
import proofs.«142751_j87144886436114_2_alg».proof.Proof.KFrame
import proofs.«142751_j87144886436114_2_alg».proof.Proof.KValue
import proofs.«142751_j87144886436114_2_alg».proof.Proof.R0Value
import proofs.«142751_j87144886436114_2_alg».proof.Proof.R1Value
import proofs.«142751_j87144886436114_2_alg».proof.Proof.RefValue
import proofs.«142751_j87144886436114_2_alg».proof.Proof.PreTransport

noncomputable section

namespace Cert.Proof

open Idealize.ShloMosaic Idealize.ShloMosaic.TcCoe Idealize.SL.Sem
open Cert.KernelIdeal Cert.KernelIdeal.Run

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI : Cert.Pre_finite_inputs.Facts := Cert.Pre_finite_inputs.Gen.facts
  have H0 : Cert.KernelIdeal.Value.Region0Leaves := fun V c p q => Cert.KernelIdeal.R0.arr0_apply V c p q
  have H1 : Cert.KernelIdeal.Value.Region1Leaves := fun V c p j => Cert.KernelIdeal.R1.arr1_apply V c p j
  refine ⟨fun c => W4 (F := Ideal) m ρ c (Proc.devRef .tc main_v0), fun c => W4 (F := Ideal) m ρ c (Proc.devRef .tc main_cst_3),
    fun c => W4 (F := Ideal) m ρ c (Proc.devRef .tc main_v9), fun c => W4 (F := Ideal) m ρ c (Proc.devRef .tc main_v9), ?_, ?_⟩
  · exact (θ_run Cert.KernelIdeal.defs _ _).mono (fun r h c =>
      ⟨h c _ (mem_uc main_v0 (by decide)), h c _ (mem_uc main_cst_3 (by decide)),
       h c _ (mem_uc main_v9 (by decide)), h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩) (run_all (F := Ideal) m ρ)
  · refine (θ_run Cert.ReferenceIdeal.defs _ _).mono (fun r h c => ?_) (Cert.ReferenceIdeal.Value.run (F := Ideal) m' ρ')
    obtain ⟨x, d, w, ⟨hx, hd, hw⟩, hx', hd', hw'⟩ := Cert.Hebb.Finite.real_args_of_pre_agree m m' hpre hagree c
    obtain ⟨h0, h1, h2, h3, ha⟩ := h c
    refine ⟨h0.trans ?_, h1.trans ?_, h2.trans ?_, h3.trans ?_, ha⟩
    · refine (Cert.ReferenceIdeal.Read.val_main_v2_eq (F := Ideal) _ _ _).trans ?_
      rw [hx', hd', hw']
      exact (Cert.ReferenceIdeal.RefValue.result0 x d w).trans (Cert.KernelIdeal.Value.result0 m ρ c x d w H0 hx hd hw).symm
    · refine (Cert.ReferenceIdeal.Read.val_main_cst_7_eq (F := Ideal)).trans ?_
      exact Cert.ReferenceIdeal.RefValue.result1.trans (Cert.KernelIdeal.Value.result1 m ρ c).symm
    · refine (Cert.ReferenceIdeal.Read.val_main_v22_eq (F := Ideal) _ _ _).trans ?_
      rw [hx', hd', hw']
      exact (Cert.ReferenceIdeal.RefValue.result2 x d w).trans (Cert.KernelIdeal.Value.result2 m ρ c x d w H0 H1 hx hd hw).symm
    · refine (Cert.ReferenceIdeal.Read.val_main_v26_eq (F := Ideal) _ _ _).trans ?_
      rw [hx', hd', hw']
      exact (Cert.ReferenceIdeal.RefValue.result3 x d w).trans (Cert.KernelIdeal.Value.result2 m ρ c x d w H0 H1 hx hd hw).symm

end Cert.Proof

end
-- ==== Proof.lean ====
/-
  A Hebbian weight update, computed two ways. With `x` the inputs [1024, 4096], `d` a bias [1024, 2048] and `w` the
  weights [2048, 4096], both programs return  pre = x·wᵀ + d,  a zero loss, and twice the mean over all entries of
  the square of  x·wᵀ − x·(w + c·δ)ᵀ,  where  δ = (preᵀ·x)/1024 − mean_rows(pre) ⊙ w  is the Hebbian increment and `c`
  the step size. The kernel computes  x·(c·δ)ᵀ  directly, in two accumulated block matrix products with a column
  mean between them; the reference forms the updated weights and subtracts. Over the reals the two agree because
  a − (a + c·b) = −(c·b) and a square forgets the sign; the precondition makes every input entry a real.

  The claims, in order:
  * each kernel program runs to its end without a fault and leaves its arguments unchanged: every region's body,
    called at any grid point, takes "the accumulator holds the partial sum of the blocks so far" to the same one
    block later; the two regions and the host operations between and after them compose into the whole run;
  * the reference runs to its end and leaves its arguments unchanged: its operations composed;
  * the idealized kernel is the kernel's own text read over the extended reals: no rewrite was applied;
  * the two idealized programs end with equal results.
-/
import proofs.«142751_j87144886436114_2_alg».proof.Defs
import proofs.«142751_j87144886436114_2_alg».proof.Proof.Gen.Kernel
import proofs.«142751_j87144886436114_2_alg».proof.Proof.Gen.KernelIdeal
import proofs.«142751_j87144886436114_2_alg».proof.Proof.Gen.ReferenceIdeal
import proofs.«142751_j87144886436114_2_alg».proof.Proof.Gen.Pre_finite_inputs
import proofs.«142751_j87144886436114_2_alg».proof.Proof.Gen.ReferenceIdeal.Run
import proofs.«142751_j87144886436114_2_alg».proof.Proof.Gen.ReferenceIdeal.Read
import proofs.«142751_j87144886436114_2_alg».proof.Proof.KFrame
import proofs.«142751_j87144886436114_2_alg».proof.Proof.Bits.KFrame
import proofs.«142751_j87144886436114_2_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Run.frame m ρ,
  fun m ρ _ => Cert.KernelIdeal.Run.frame m ρ,
  fun m ρ _ => (θ_run Cert.ReferenceIdeal.defs _ _).mono (fun _ h c => (h c).2.2.2.2) (Cert.ReferenceIdeal.Value.run (F := Ideal) m ρ),
  trivial,
  Cert.Proof.algebraic⟩

end Cert.Proof

end
